-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S512x128 : Shape := ⟨2, ![512, 128]⟩
abbrev S512x1 : Shape := ⟨2, ![512, 1]⟩
abbrev S1x1 : Shape := ⟨2, ![1, 1]⟩

abbrev nBuf : Space → Nat
  | .hbm => 158
  | .vmem => 62
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S_, .f32⟩
  | 49 => ⟨S100000, .f32⟩
  | 50 => ⟨S100000, .f32⟩
  | 51 => ⟨S100000, .f32⟩
  | 52 => ⟨S100000x1, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x1, .f32⟩
  | 64 => ⟨S1600000x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1x128, .f32⟩
  | 71 => ⟨S100000x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S1600000x1, .f32⟩
  | 103 => ⟨S1600000x128, .f32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S1x128, .f32⟩
  | 110 => ⟨S100000x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S1x128, .f32⟩
  | 2 => ⟨S100000x128, .f32⟩
  | 3 => ⟨S100000x128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S1600000x1, .f32⟩
  | 14 => ⟨S1600000x128, .f32⟩
  | 15 => ⟨S1600000x128, .f32⟩
  | 16 => ⟨S_, .f32⟩
  | 17 => ⟨S100000x128, .f32⟩
  | 18 => ⟨S1600000x1, .i32⟩
  | 19 => ⟨S100000x128, .f32⟩
  | 20 => ⟨S1x128, .f32⟩
  | 21 => ⟨S100000x128, .f32⟩
  | 22 => ⟨S_, .f32⟩
  | 23 => ⟨S512x128, .f32⟩
  | 24 => ⟨S100000x1, .i32⟩
  | 25 => ⟨S512x128, .f32⟩
  | 26 => ⟨S512x1, .f32⟩
  | 27 => ⟨S1x1, .f32⟩
  | 28 => ⟨S512x1, .f32⟩
  | 29 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x1, .f32⟩
  | .local _ .vmem, ⟨58, _⟩ => ⟨S5000x1, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_v45_2 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76_0 : Ref sig .tc := ⟨.hbm, 110, rfl⟩
abbrev main_v76_1 : Ref sig .tc := ⟨.hbm, 111, rfl⟩
abbrev main_v76_2 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_17 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_18 : Ref sig .tc := ⟨.hbm, 132, rfl⟩
abbrev main_v93 : Ref sig .tc := ⟨.hbm, 133, rfl⟩
abbrev main_v94 : Ref sig .tc := ⟨.hbm, 134, rfl⟩
abbrev main_c_19 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_21 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v76_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v76_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v76_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v91) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v105) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v29) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v106) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v107) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 294
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S100000x128, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S_, .f32⟩
  | 66 => ⟨S100000, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S100000x128, .f32⟩
  | 125 => ⟨S_, .f32⟩
  | 126 => ⟨S1600000, .f32⟩
  | 127 => ⟨S_, .f32⟩
  | _ => ⟨S100000x128, .f32⟩

abbrev hbmTy0_1 (i : Nat) : BufTy := match i % 128 with
  | 0 => ⟨S100000, .f32⟩
  | 1 => ⟨S1600000x1, .i32⟩
  | 2 => ⟨S100000, .f32⟩
  | 3 => ⟨S_, .f32⟩
  | 4 => ⟨S100000, .f32⟩
  | 5 => ⟨S100000, .f32⟩
  | 6 => ⟨S100000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S1600000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S1600000x1, .f32⟩
  | 36 => ⟨S1600000x128, .f32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S_, .f32⟩
  | 43 => ⟨S100000, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S100000x128, .f32⟩
  | 66 => ⟨S100000x128, .f32⟩
  | 67 => ⟨S100000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S100000x128, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_2 (i : Nat) : BufTy := match i % 128 with
  | 0 => ⟨S1600000x1, .i32⟩
  | 1 => ⟨S1600000, .f32⟩
  | 2 => ⟨S1600000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x128, .f32⟩
  | 12 => ⟨S1600000x1, .f32⟩
  | 13 => ⟨S1600000x128, .f32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S_, .f32⟩
  | 20 => ⟨S100000, .f32⟩
  | 21 => ⟨S100000, .f32⟩
  | 22 => ⟨S100000, .f32⟩
  | 23 => ⟨S100000x1, .f32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S512x128, .f32⟩
  | 32 => ⟨S100000x1, .i32⟩
  | 33 => ⟨S512x128, .f32⟩
  | 34 => ⟨S512x1, .f32⟩
  | 35 => ⟨S1x1, .f32⟩
  | 36 => ⟨S512x1, .f32⟩
  | 37 => ⟨S512x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_cst_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_cst_1 : Ref sig .tc := ⟨.hbm, 92, rfl⟩
abbrev main_call0_v8 : Ref sig .tc := ⟨.hbm, 93, rfl⟩
abbrev main_call0_cst_2 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_cst_3 : Ref sig .tc := ⟨.hbm, 98, rfl⟩
abbrev main_call0_v12 : Ref sig .tc := ⟨.hbm, 99, rfl⟩
abbrev main_call0_cst_4 : Ref sig .tc := ⟨.hbm, 100, rfl⟩
abbrev main_call0_call0_v0 : Ref sig .tc := ⟨.hbm, 101, rfl⟩
abbrev main_call0_call0_v1 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_12 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_call1_cst : Ref sig .tc := ⟨.hbm, 120, rfl⟩
abbrev main_call1_v0 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_13 : Ref sig .tc := ⟨.hbm, 125, rfl⟩
abbrev main_v72 : Ref sig .tc := ⟨.hbm, 126, rfl⟩
abbrev main_cst_14 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_15 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_c_16 : Ref sig .tc := ⟨.hbm, 135, rfl⟩
abbrev main_v79 : Ref sig .tc := ⟨.hbm, 136, rfl⟩
abbrev main_v80 : Ref sig .tc := ⟨.hbm, 137, rfl⟩
abbrev main_c_17 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_c_18 : Ref sig .tc := ⟨.hbm, 144, rfl⟩
abbrev main_v86 : Ref sig .tc := ⟨.hbm, 145, rfl⟩
abbrev main_v87 : Ref sig .tc := ⟨.hbm, 146, rfl⟩
abbrev main_c_19 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_c_20 : Ref sig .tc := ⟨.hbm, 154, rfl⟩
abbrev main_v94 : Ref sig .tc := ⟨.hbm, 155, rfl⟩
abbrev main_v95 : Ref sig .tc := ⟨.hbm, 156, rfl⟩
abbrev main_c_21 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_22 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_23 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_24 : Ref sig .tc := ⟨.hbm, 181, rfl⟩
abbrev main_v117 : Ref sig .tc := ⟨.hbm, 182, rfl⟩
abbrev main_cst_25 : Ref sig .tc := ⟨.hbm, 183, rfl⟩
abbrev main_v118 : Ref sig .tc := ⟨.hbm, 184, rfl⟩
abbrev main_v119 : Ref sig .tc := ⟨.hbm, 185, rfl⟩
abbrev main_c_26 : Ref sig .tc := ⟨.hbm, 186, rfl⟩
abbrev main_call2_cst : Ref sig .tc := ⟨.hbm, 187, rfl⟩
abbrev main_call2_v0 : Ref sig .tc := ⟨.hbm, 188, rfl⟩
abbrev main_call2_v1 : Ref sig .tc := ⟨.hbm, 189, rfl⟩
abbrev main_call2_cst_0 : Ref sig .tc := ⟨.hbm, 190, rfl⟩
abbrev main_call2_v2 : Ref sig .tc := ⟨.hbm, 191, rfl⟩
abbrev main_call2_v3 : Ref sig .tc := ⟨.hbm, 192, rfl⟩
abbrev main_call2_v4 : Ref sig .tc := ⟨.hbm, 193, rfl⟩
abbrev main_call2_v5 : Ref sig .tc := ⟨.hbm, 194, rfl⟩
abbrev main_call2_v6 : Ref sig .tc := ⟨.hbm, 195, rfl⟩
abbrev main_call2_v7 : Ref sig .tc := ⟨.hbm, 196, rfl⟩
abbrev main_call2_cst_1 : Ref sig .tc := ⟨.hbm, 197, rfl⟩
abbrev main_call2_v8 : Ref sig .tc := ⟨.hbm, 198, rfl⟩
abbrev main_call2_cst_2 : Ref sig .tc := ⟨.hbm, 199, rfl⟩
abbrev main_call2_v9 : Ref sig .tc := ⟨.hbm, 200, rfl⟩
abbrev main_call2_v10 : Ref sig .tc := ⟨.hbm, 201, rfl⟩
abbrev main_call2_v11 : Ref sig .tc := ⟨.hbm, 202, rfl⟩
abbrev main_call2_cst_3 : Ref sig .tc := ⟨.hbm, 203, rfl⟩
abbrev main_call2_v12 : Ref sig .tc := ⟨.hbm, 204, rfl⟩
abbrev main_call2_cst_4 : Ref sig .tc := ⟨.hbm, 205, rfl⟩
abbrev main_call2_call0_v0 : Ref sig .tc := ⟨.hbm, 206, rfl⟩
abbrev main_call2_call0_v1 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_cst_27 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_call3_cst : Ref sig .tc := ⟨.hbm, 225, rfl⟩
abbrev main_call3_v0 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_cst_28 : Ref sig .tc := ⟨.hbm, 230, rfl⟩
abbrev main_v139 : Ref sig .tc := ⟨.hbm, 231, rfl⟩
abbrev main_cst_29 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_cst_30 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_c_31 : Ref sig .tc := ⟨.hbm, 240, rfl⟩
abbrev main_v146 : Ref sig .tc := ⟨.hbm, 241, rfl⟩
abbrev main_v147 : Ref sig .tc := ⟨.hbm, 242, rfl⟩
abbrev main_c_32 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_c_33 : Ref sig .tc := ⟨.hbm, 249, rfl⟩
abbrev main_v153 : Ref sig .tc := ⟨.hbm, 250, rfl⟩
abbrev main_v154 : Ref sig .tc := ⟨.hbm, 251, rfl⟩
abbrev main_c_34 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_c_35 : Ref sig .tc := ⟨.hbm, 259, rfl⟩
abbrev main_v161 : Ref sig .tc := ⟨.hbm, 260, rfl⟩
abbrev main_v162 : Ref sig .tc := ⟨.hbm, 261, rfl⟩
abbrev main_c_36 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_cst_37 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_cst_38 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_cst_39 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  dot_S512x128_S128x1_S512x1_1_0_0_1_n_n_wf : DotDims.WF S512x128 S128x1 S512x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The idealized kernel's run with its result named.

  @main is fifteen segments: seven stretches of host operations and eight kernel regions.  The buffer contents at
  each segment boundary are a fold from the launch memory: a stretch applies its operations to the contents it is
  entered with, a region replaces each of its arrays by what its write-backs leave and keeps every other buffer.
  Every weakly fair execution terminates in a state whose unscoped buffers hold the last boundary's contents; read
  at the result buffer this names the program's result, and read at the arguments it is the frame.
-/
import proofs.«124922_j63196148793943_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the
    last segment boundary's contents and every argument array as launched. -/
theorem run : θ_run defs (onTc (τ := τ) (main (F := F))) ⟨m, fun _ => 0, ρ⟩ (fun r => ∀ c : Dev nD,
      r.2.mem ((c.tc : Thread nD τ).loc main_v114) = W15 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v114 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c)⟩)

end Cert.KernelIdeal.Result

end
-- ==== Proof.Model.lean ====
/- The reference function as a composition of named pure functions of its arguments: a three-layer graph
   convolution network with batch normalisation, rectifier and residual connections, pooled per graph and read out
   through one linear layer. Each definition's body is the term the reference program's operations compute, in
   the program's own vocabulary, so the value the program's run leaves in its result buffer IS `refOut` of its
   arguments' contents by unfolding. -/
import proofs.«124922_j63196148793943_1_alg».proof.Proof.Gen.ReferenceIdeal

noncomputable section

namespace Cert.Model

open Cert.ReferenceIdeal Cert.ReferenceIdeal.Gen Idealize.ShloMosaic

variable {F : FTy → Type} [FloatOps F]

/-- The source node of each edge: row 0 of the 2 × E edge list, as a vector of length E. -/
def srcIdx (ei : IVec S2x1600000 32) : IVec S1600000 32 :=
  shapeCast S1600000 (extractStridedSlice S1x1600000 ![0, 0] ei slices_S2x1600000_S1x1600000_0_0) shapeCasts_S1x1600000_S1600000

/-- The destination node of each edge: row 1 of the edge list. -/
def dstIdx (ei : IVec S2x1600000 32) : IVec S1600000 32 :=
  shapeCast S1600000 (extractStridedSlice S1x1600000 ![1, 0] ei slices_S2x1600000_S1x1600000_1_0) shapeCasts_S1x1600000_S1600000

/-- A node index read the way an array subscript reads it: a negative index `v` stands for `v + N` (N = 100000
    nodes), any other for itself; then given a unit trailing axis (one index vector of length 1 per edge). -/
def wrapIdx (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The inverse square root of each node's degree, the degree counted with a self-loop of weight 2:
    `d⁻¹ᐟ²` where `d n = (the number of edges whose destination is n) + 2` — ones scatter-added at the
    destinations into zeros, plus 2, then the reciprocal square root. -/
def dinv (ei : IVec S2x1600000 32) : FVec F S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dstIdx ei))
      (broadcastInDim S1600000 ![] bcast_S_S1600000 (constant S_ .f32 0x3F800000#32)))
    (broadcastInDim S100000 ![] bcast_S_S100000 (constant S_ .f32 0x40000000#32)))

/-- The symmetric normalisation of each edge: `d⁻¹ᐟ²` at its source times `d⁻¹ᐟ²` at its destination. -/
def norm (ei : IVec S2x1600000 32) : FVec F S1600000 .f32 :=
  mulf (Host.gather gather_S100000_S1600000x1_S1600000_n_0_n_n_0_1_1 (dinv ei) (wrapIdx (srcIdx ei)))
    (Host.gather gather_S100000_S1600000x1_S1600000_n_0_n_n_0_1_1 (dinv ei) (wrapIdx (dstIdx ei)))

/-- The weight of each node's self-loop after normalisation: `(2 · d⁻¹ᐟ²) · d⁻¹ᐟ²`. -/
def selfScale (ei : IVec S2x1600000 32) : FVec F S100000 .f32 :=
  mulf (mulf (broadcastInDim S100000 ![] bcast_S_S100000 (constant S_ .f32 0x40000000#32)) (dinv ei)) (dinv ei)

/-- Neighbourhood aggregation: each edge carries its source's row of `h` times the edge's normalisation, and
    the rows are summed at the edges' destinations (scatter-added into zeros). -/
def aggregate (ei : IVec S2x1600000 32) (h : FVec F S100000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstIdx ei))
    (mulf (Host.gather gather_S100000x128_S1600000x1_S1600000x128_1_0_n_n_0_1_1128 h (wrapIdx (srcIdx ei)))
      (broadcastInDim S1600000x128 ![0, 1] bcast_S1600000x1_S1600000x128_0_1
        (broadcastInDim S1600000x1 ![0] bcast_S1600000_S1600000x1_0 (norm ei))))

/-- One graph convolution of already-projected features `h`: the aggregate over the edges, plus each node's own
    row times its self-loop weight, plus the bias along the rows. -/
def conv (ei : IVec S2x1600000 32) (h : FVec F S100000x128 .f32) (b : FVec F S128 .f32) : FVec F S100000x128 .f32 :=
  addf
    (addf (aggregate ei h)
      (mulf h (broadcastInDim S100000x128 ![0, 1] bcast_S100000x1_S100000x128_0_1
        (broadcastInDim S100000x1 ![0] bcast_S100000_S100000x1_0 (selfScale ei)))))
    (broadcastInDim S100000x128 ![0, 1] bcast_S1x128_S100000x128_0_1 (broadcastInDim S1x128 ![1] bcast_S128_S1x128_1 b))

/-- The mean of each feature over the N nodes: the column sums divided by N = 100000. -/
def mean (c : FVec F S100000x128 .f32) : FVec F S128 .f32 :=
  Host.divf (Host.reduceAdd c (constant S_ .f32 0x00000000#32) reducesTo_S100000x128_S128_d0 h_S_)
    (broadcastInDim S128 ![] bcast_S_S128 (constant S_ .f32 0x47C35000#32))

/-- The variance of each feature over the N nodes with `ddof = 0`: the column sums of the squared deviations from
    the column mean (recomputed here, the mean kept with a unit leading axis), divided by `N − ddof`; where that
    divisor is not positive the answer is NaN instead (it is positive: the guard is part of the term all the same). -/
def variance (c : FVec F S100000x128 .f32) : FVec F S128 .f32 :=
  let d : FVec F S100000x128 .f32 := subf c (broadcastInDim S100000x128 ![0, 1] bcast_S1x128_S100000x128_0_1
    (Host.divf (broadcastInDim S1x128 ![1] bcast_S128_S1x128_1 (Host.reduceAdd c (constant S_ .f32 0x00000000#32) reducesTo_S100000x128_S128_d0 h_S_))
      (broadcastInDim S1x128 ![] bcast_S_S1x128 (constant S_ .f32 0x47C35000#32))))
  let n : FVec F S_ .f32 := subf (constant S_ .f32 0x47C35000#32) (sitofp .f32 (constantI S_ 32 0#32))
  select (broadcastInDim S128 ![] bcast_S_S128 (cmpf .ogt n (constant S_ .f32 0x00000000#32)))
    (Host.divf (Host.reduceAdd (mulf d d) (constant S_ .f32 0x00000000#32) reducesTo_S100000x128_S128_d0 h_S_) (broadcastInDim S128 ![] bcast_S_S128 n))
    (broadcastInDim S128 ![] bcast_S_S128 (id (constant S_ .f32 0x7FC00000#32)))

/-- Batch normalisation, rectifier, residual: `max (γ · (c − mean c) · (variance c + ε)⁻¹ᐟ² + β) 0 + res`, the
    statistics over the nodes, γ, β and the statistics spread along the rows, ε = 1e-5. -/
def bnReluRes (c : FVec F S100000x128 .f32) (g be : FVec F S128 .f32) (res : FVec F S100000x128 .f32) :
    FVec F S100000x128 .f32 :=
  addf
    (maximumf
      (addf
        (mulf
          (mulf (broadcastInDim S100000x128 ![0, 1] bcast_S1x128_S100000x128_0_1 (broadcastInDim S1x128 ![1] bcast_S128_S1x128_1 g))
            (subf c (broadcastInDim S100000x128 ![0, 1] bcast_S1x128_S100000x128_0_1 (broadcastInDim S1x128 ![1] bcast_S128_S1x128_1 (mean c)))))
          (broadcastInDim S100000x128 ![0, 1] bcast_S1x128_S100000x128_0_1 (broadcastInDim S1x128 ![1] bcast_S128_S1x128_1 (Host.rsqrt (addf (variance c) (broadcastInDim S128 ![] bcast_S_S128 (constant S_ .f32 0x3727C5AC#32)))))))
        (broadcastInDim S100000x128 ![0, 1] bcast_S1x128_S100000x128_0_1 (broadcastInDim S1x128 ![1] bcast_S128_S1x128_1 be)))
      (broadcastInDim S100000x128 ![] bcast_S_S100000x128 (constant S_ .f32 0x00000000#32)))
    res

/-- The feature projection of a layer: the N × 128 features times the 128 × 128 weights. -/
def matProd (a : FVec F S100000x128 .f32) (w : FVec F S128x128 .f32) : FVec F S100000x128 .f32 :=
  Host.dotGeneral dot_S100000x128_S128x128_S100000x128_1_0_0_1_n_n none a w

/-- The read-out: the node rows summed per graph (scatter-added at each node's graph number into 512 rows of zeros),
    times the 128 × 1 read-out weights, plus the read-out bias on every row. -/
def head (h3 : FVec F S100000x128 .f32) (batch : IVec S100000 32) (fcW : FVec F S128x1 .f32) (fcb : FVec F S1 .f32) :
    FVec F S512x1 .f32 :=
  addf
    (Host.dotGeneral dot_S512x128_S128x1_S512x1_1_0_0_1_n_n none
      (Host.scatterAdd scatter_S512x128_S100000x1_S100000x128_1_0_0_1
        (broadcastInDim S512x128 ![] bcast_S_S512x128 (constant S_ .f32 0x00000000#32))
        (broadcastInDim S100000x1 ![0] bcast_S100000_S100000x1_0 batch)
        h3)
      fcW)
    (broadcastInDim S512x1 ![0, 1] bcast_S1x1_S512x1_0_1 (broadcastInDim S1x1 ![1] bcast_S1_S1x1_1 fcb))

/-- The whole reference: two convolution layers each followed by normalisation, rectifier and the residual of the
    layer's input, a third convolution, and the read-out. The arguments are in the program's order. -/
def refOut (x : FVec F S100000x128 .f32) (ei : IVec S2x1600000 32) (batch : IVec S100000 32)
    (W0 : FVec F S128x128 .f32) (b0 g0 be0 : FVec F S128 .f32)
    (W1 : FVec F S128x128 .f32) (b1 g1 be1 : FVec F S128 .f32)
    (W2 : FVec F S128x128 .f32) (b2 : FVec F S128 .f32)
    (fcW : FVec F S128x1 .f32) (fcb : FVec F S1 .f32) : FVec F S512x1 .f32 :=
  let h1 := bnReluRes (conv ei (matProd x W0) b0) g0 be0 x
  let h2 := bnReluRes (conv ei (matProd h1 W1) b1) g1 be1 h1
  head (conv ei (matProd h2 W2) b2) batch fcW fcb

end Cert.Model

end
-- ==== Proof.MatmulEntry.lean ====
/-
  A matrix product's entry, on the extended reals.

  The matrix unit's product of a 5000×128 block with a 128×128 array into a zero accumulator, the operands first
  rounded to bf16 (the identity on extended reals), has at (p, q) the sum over k of x[p, k]·w[k, q]; the full product
  of a 100000×128 array with a 128×128 array is the same sum at every row.
-/
import proofs.«124922_j63196148793943_1_alg».proof.Proof.Gen.KernelIdeal
import Idealize.ShloMosaic.Lib.ValueIdx
import Idealize.ShloMosaic.PureOps.Ideal.Laws

set_option maxRecDepth 16384

noncomputable section

namespace Cert.KernelIdeal.MatmulEntry

open Cert.KernelIdeal Cert.KernelIdeal.Gen Idealize.ShloMosaic Idealize.ShloMosaic.ValueIdx
open scoped BigOperators

theorem hz2 : (![0, 0] : Fin 2 → Nat) = fun _ => 0 := funext fun a => by fin_cases a <;> rfl

/-- The product of a 100000×128 array with a 128×128 array, entry by entry. -/
def fullProd (x : S100000x128.Idx → EReal) (w : S128x128.Idx → EReal) : S100000x128.Idx → EReal :=
  fun i => ∑ k : Fin 128, x (ix2 (i 0) k) * w (ix2 k (i 1))

/-- What a matmul body stores: the matrix unit's product of its two loaded blocks, rounded to bf16, into zero. -/
def blockProd (x0 : Vec Ideal S5000x128 .f32) (x1 : Vec Ideal S128x128 .f32) : FVec Ideal S5000x128 .f32 :=
  matmul (F := Ideal) dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32)

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a block's product is the sum over k of x[p, k]·w[k, q]. -/
theorem blockProd_apply (x0 : Vec Ideal S5000x128 .f32) (x1 : Vec Ideal S128x128 .f32) (p : Fin 5000) (q : Fin 128) :
    blockProd x0 x1 (ix2 p q) = ∑ k : Fin 128, x0 (ix2 p k) * x1 (ix2 k q) := by
  unfold blockProd
  show FloatOps.matmul (F := Ideal) dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  show truncf (F := Ideal) .bf16 x0 bitsLt_bf16_f32 _ * truncf (F := Ideal) .bf16 x1 bitsLt_bf16_f32 _ = _
  rw [el, er]
  rfl

end Cert.KernelIdeal.MatmulEntry

end
-- ==== Proof.Combine.lean ====
/-
  The convolution's combine step, pointwise.

  After the neighbours' contributions have been summed into `agg`, a graph convolution adds each node's own row scaled
  by its self-loop weight, and the bias:  out[i, j] = (agg[i, j] + h[i, j]·s[i]) + b[j],  with the scale carried as a
  column [n, 1] and the bias as a row [1, 128].  A kernel body computes this on a block of 5000 rows by broadcasting the
  column along the lanes and the row down the rows; read at (p, q) that is the same formula on the block's entries.
-/
import proofs.«124922_j63196148793943_1_alg».proof.Proof.Gen.KernelIdeal
import Idealize.ShloMosaic.Lib.Pipeline.Value
import Idealize.ShloMosaic.Lib.ValueIdx

set_option maxRecDepth 16384

noncomputable section

namespace Cert.KernelIdeal.Combine

open Cert.KernelIdeal Cert.KernelIdeal.Gen Idealize.ShloMosaic Idealize.ShloMosaic.ValueIdx

/-- The combine step on whole arrays: aggregated neighbours, plus the node's own row times its self-loop scale, plus
    the bias. -/
def combine (a h : S100000x128.Idx → EReal) (s : S100000x1.Idx → EReal) (b : S1x128.Idx → EReal) :
    S100000x128.Idx → EReal :=
  fun i => (a i + h i * s (ix2 (i 0) 0)) + b (ix2 0 (i 1))

/-- The same step as a kernel body computes it on one block of 5000 rows. -/
def combineBlock (v0 v2 : Vec Ideal S5000x128 .f32) (v4 : Vec Ideal S5000x1 .f32) (v9 : Vec Ideal S1x128 .f32) :
    FVec Ideal S5000x128 .f32 :=
  addf (F := Ideal)
    (addf (F := Ideal) (shapeCast S5000x128 v0 shapeCasts_S5000x128_S5000x128)
      (mulf (F := Ideal) (shapeCast S5000x128 v2 shapeCasts_S5000x128_S5000x128)
        (broadcastTo S5000x128 (shapeCast S5000x1 v4 shapeCasts_S5000x1_S5000x1) broadcasts_S5000x1_S5000x128)))
    (broadcastTo S5000x128 (shapeCast S1x128 v9 shapeCasts_S1x128_S1x128) broadcasts_S1x128_S5000x128)

/-- The block body at (p, q): the column is read at row p, the bias row at lane q. -/
theorem combineBlock_apply (v0 v2 : Vec Ideal S5000x128 .f32) (v4 : Vec Ideal S5000x1 .f32) (v9 : Vec Ideal S1x128 .f32)
    (p : Fin 5000) (q : Fin 128) :
    combineBlock v0 v2 v4 v9 (ix2 p q) = (v0 (ix2 p q) + v2 (ix2 p q) * v4 (ix2 p 0)) + v9 (ix2 0 q) := by
  unfold combineBlock
  simp only [shapeCast_self]
  show (v0 (ix2 p q) + v2 (ix2 p q) * broadcastTo S5000x128 v4 broadcasts_S5000x1_S5000x128 (ix2 p q))
      + broadcastTo S5000x128 v9 broadcasts_S1x128_S5000x128 (ix2 p q) = _
  rw [broadcastTo_apply v4 broadcasts_S5000x1_S5000x128 (ix2 p q) (ix2 p 0) (fun a => by
        match a with
        | ⟨0, _⟩ => rfl
        | ⟨1, _⟩ => rfl),
      broadcastTo_apply v9 broadcasts_S1x128_S5000x128 (ix2 p q) (ix2 0 q) (fun a => by
        match a with
        | ⟨0, _⟩ => rfl
        | ⟨1, _⟩ => rfl)]

end Cert.KernelIdeal.Combine

end
-- ==== Proof.NormRelu.lean ====
/-
  Normalize, rectify, add the residual: pointwise.

  Once a batch normalization's statistics have been folded into a per-column scale and shift, a layer's tail is
  out[i, j] = max(a[i, j]·scale[j] + shift[j], 0) + r[i, j],  with the scale and the shift carried as rows [1, 128] and
  `r` the residual stream.  A kernel body computes this on a block of 5000 rows by broadcasting the two rows down the
  block's rows and the scalar zero over the whole block; read at (p, q) that is the same formula on the block's entries
  (the pattern of +0.0 denotes the real 0, and the float maximum is the maximum of the extended reals).
-/
import proofs.«124922_j63196148793943_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormRelu

open Cert.KernelIdeal Cert.KernelIdeal.Gen Idealize.ShloMosaic Idealize.ShloMosaic.ValueIdx

/-- The layer's tail on whole arrays: the activations times the column's scale plus the column's shift, rectified,
    plus the residual. -/
def normReluRes (a r : S100000x128.Idx → EReal) (sc sh : S1x128.Idx → EReal) : S100000x128.Idx → EReal :=
  fun i => max (a i * sc (ix2 0 (i 1)) + sh (ix2 0 (i 1))) 0 + r i

/-- The same step as a kernel body computes it on one block of 5000 rows. -/
def normReluBlock (v0 : Vec Ideal S5000x128 .f32) (v2 v6 : Vec Ideal S1x128 .f32) (v12 : Vec Ideal S5000x128 .f32) :
    FVec Ideal S5000x128 .f32 :=
  addf (F := Ideal)
    (maximumf (F := Ideal)
      (addf (F := Ideal)
        (mulf (F := Ideal) (shapeCast S5000x128 v0 shapeCasts_S5000x128_S5000x128)
          (broadcastTo S5000x128 (shapeCast S1x128 v2 shapeCasts_S1x128_S1x128) broadcasts_S1x128_S5000x128))
        (broadcastTo S5000x128 (shapeCast S1x128 v6 shapeCasts_S1x128_S1x128) broadcasts_S1x128_S5000x128))
      (broadcast S5000x128 (Scalar.ofBits (F := Ideal) .f32 0x00000000#32)))
    v12

/-- Reshaping the residual block to its own shape first (as the second of the two bodies of this kind does) changes
    nothing. -/
theorem normReluBlock_shapeCast (v0 : Vec Ideal S5000x128 .f32) (v2 v6 : Vec Ideal S1x128 .f32) (v12 : Vec Ideal S5000x128 .f32) :
    normReluBlock v0 v2 v6 (shapeCast S5000x128 v12 shapeCasts_S5000x128_S5000x128) = normReluBlock v0 v2 v6 v12 := by
  rw [shapeCast_self]

/-- The block body at (p, q): the scale and shift rows are read at lane q. -/
theorem normReluBlock_apply (v0 : Vec Ideal S5000x128 .f32) (v2 v6 : Vec Ideal S1x128 .f32) (v12 : Vec Ideal S5000x128 .f32)
    (p : Fin 5000) (q : Fin 128) :
    normReluBlock v0 v2 v6 v12 (ix2 p q) = max (v0 (ix2 p q) * v2 (ix2 0 q) + v6 (ix2 0 q)) 0 + v12 (ix2 p q) := by
  unfold normReluBlock
  simp only [shapeCast_self]
  show max (v0 (ix2 p q) * broadcastTo S5000x128 v2 broadcasts_S1x128_S5000x128 (ix2 p q)
        + broadcastTo S5000x128 v6 broadcasts_S1x128_S5000x128 (ix2 p q)) (Ideal.ofBits .f32 0x00000000#32)
      + v12 (ix2 p q) = _
  rw [broadcastTo_apply v2 broadcasts_S1x128_S5000x128 (ix2 p q) (ix2 0 q) (fun a => by
        match a with
        | ⟨0, _⟩ => rfl
        | ⟨1, _⟩ => rfl),
      broadcastTo_apply v6 broadcasts_S1x128_S5000x128 (ix2 p q) (ix2 0 q) (fun a => by
        match a with
        | ⟨0, _⟩ => rfl
        | ⟨1, _⟩ => rfl),
      Ideal.ofBits_zero_f32]

end Cert.KernelIdeal.NormRelu

end
-- ==== Proof.HostBN.lean ====
/-
  The batch-normalisation coefficients as the kernel's host code computes them.

  From the column sums s and the column sums of squares q of an N-row array (N = 100000), kept as rows [1, 128]:
  the mean is s / N, the variance is q / N − mean², the scale is γ · (variance + ε)^(-1/2) and the shift is
  β − mean · scale, so that normalising an entry x is x · scale + shift.  γ, β and the convolution's bias come in as
  vectors [128] and are recast to rows [1, 128]; the self-loop scale comes in as a vector [N] and is recast to a
  column [N, 1].
-/
import proofs.«124922_j63196148793943_1_alg».proof.Proof.Gen.KernelIdeal

noncomputable section

namespace Cert.KernelIdeal.HostBN

open Cert.KernelIdeal Cert.KernelIdeal.Gen Idealize.ShloMosaic

variable {F : FTy → Type} [FloatOps F]

/-- A vector of 128 entries as a row [1, 128]. -/
def rowOf (v : FVec F S128 .f32) : FVec F S1x128 .f32 := shapeCast S1x128 v shapeCasts_S128_S1x128

/-- A vector of N entries as a column [N, 1]. -/
def colOf (v : FVec F S100000 .f32) : FVec F S100000x1 .f32 := shapeCast S100000x1 v shapeCasts_S100000_S100000x1

/-- The column means: the column sums over N. -/
def meanRow (s : FVec F S1x128 .f32) : FVec F S1x128 .f32 :=
  Host.divf s (broadcastInDim S1x128 ![] bcast_S_S1x128 (constant S_ .f32 0x47C35000#32))

/-- The scale γ · (q/N − mean² + ε)^(-1/2). -/
def scaleRow (s q : FVec F S1x128 .f32) (g : FVec F S128 .f32) : FVec F S1x128 .f32 :=
  mulf (rowOf g)
    (Host.rsqrt (addf
      (subf (Host.divf q (broadcastInDim S1x128 ![] bcast_S_S1x128 (constant S_ .f32 0x47C35000#32))) (mulf (meanRow s) (meanRow s)))
      (broadcastInDim S1x128 ![] bcast_S_S1x128 (constant S_ .f32 0x3727C5AC#32))))

/-- The shift β − mean · scale. -/
def shiftRow (s q : FVec F S1x128 .f32) (g be : FVec F S128 .f32) : FVec F S1x128 .f32 :=
  subf (rowOf be) (mulf (meanRow s) (scaleRow s q g))

end Cert.KernelIdeal.HostBN

end
-- ==== Proof.KernelModel.lean ====
/-
  The kernel's computation as one function of its arguments.

  Each layer projects the features by a tiled matrix product, aggregates over the edges on the host, and combines
  the aggregate with the self-loop term and the bias in a kernel region that also accumulates the column sums and the
  column sums of squares of what it stores.  From those two rows the host derives the normalisation's scale and shift,
  and a pointwise region applies them, rectifies and adds the residual.  The third layer has no normalisation; the host
  pools its output per graph and applies the read-out.
-/
import proofs.«124922_j63196148793943_1_alg».proof.Proof.Model
import proofs.«124922_j63196148793943_1_alg».proof.Proof.MatmulEntry
import proofs.«124922_j63196148793943_1_alg».proof.Proof.Combine
import proofs.«124922_j63196148793943_1_alg».proof.Proof.NormRelu
import proofs.«124922_j63196148793943_1_alg».proof.Proof.HostBN

noncomputable section

namespace Cert.KernelIdeal.KernelModel

open Cert.KernelIdeal Cert.KernelIdeal.Gen Idealize.ShloMosaic Idealize.ShloMosaic.ValueIdx
open Cert.KernelIdeal.MatmulEntry Cert.KernelIdeal.Combine Cert.KernelIdeal.NormRelu Cert.KernelIdeal.HostBN
open scoped BigOperators

/-- The column sums of an N × 128 array, as a row. -/
def colSum (C : S100000x128.Idx → EReal) : S1x128.Idx → EReal := fun j => ∑ i : Fin 100000, C (ix2 i (j 1))

/-- The column sums of its squares, as a row. -/
def colSumSq (C : S100000x128.Idx → EReal) : S1x128.Idx → EReal := fun j => ∑ i : Fin 100000, C (ix2 i (j 1)) * C (ix2 i (j 1))

/-- One convolution of projected features: the aggregate over the edges, the self-loop term, the bias. -/
def kconv (ei : IVec S2x1600000 32) (h : S100000x128.Idx → EReal) (b : S128.Idx → EReal) : S100000x128.Idx → EReal :=
  combine (Cert.Model.aggregate (F := Ideal) ei h) h (colOf (F := Ideal) (Cert.Model.selfScale (F := Ideal) ei)) (rowOf (F := Ideal) b)

/-- Normalisation by the statistics derived from the two accumulated rows, rectifier, residual. -/
def kbn (cc : S100000x128.Idx → EReal) (g be : S128.Idx → EReal) (res : S100000x128.Idx → EReal) : S100000x128.Idx → EReal :=
  normReluRes cc res (scaleRow (F := Ideal) (colSum cc) (colSumSq cc) g) (shiftRow (F := Ideal) (colSum cc) (colSumSq cc) g be)

/-- The kernel's result as a function of its fifteen arguments, in the program's order. -/
def kernOut (x : S100000x128.Idx → EReal) (ei : IVec S2x1600000 32) (batch : IVec S100000 32)
    (W0 : S128x128.Idx → EReal) (b0 g0 be0 : S128.Idx → EReal)
    (W1 : S128x128.Idx → EReal) (b1 g1 be1 : S128.Idx → EReal)
    (W2 : S128x128.Idx → EReal) (b2 : S128.Idx → EReal)
    (fcW : S128x1.Idx → EReal) (fcb : S1.Idx → EReal) : S512x1.Idx → EReal :=
  let h1 := kbn (kconv ei (fullProd x W0) b0) g0 be0 x
  let h2 := kbn (kconv ei (fullProd h1 W1) b1) g1 be1 h1
  Cert.Model.head (F := Ideal) (kconv ei (fullProd h2 W2) b2) batch fcW fcb

end Cert.KernelIdeal.KernelModel

end
-- ==== Proof.Stretches.lean ====
/-
  What each stretch of host operations of the kernel's @main computes, as functions of the buffers it reads.

  Stretch 0 slices the edge list into sources and destinations and computes the edge normalisation and the self-loop
  scale; the stretches before the three combine regions gather the projected rows at the sources, weight them, sum
  them at the destinations, and recast the bias to a row; the stretches before the two normalise regions turn the
  column sums into the scale and shift rows; the last stretch pools per graph and applies the read-out.
-/
import proofs.«124922_j63196148793943_1_alg».proof.Proof.Gen.KernelIdeal.Launch
import proofs.«124922_j63196148793943_1_alg».proof.Proof.Model
import proofs.«124922_j63196148793943_1_alg».proof.Proof.HostBN
import Idealize.ShloMosaic.Lib.StableHlo.Run

set_option maxRecDepth 16384

noncomputable section

namespace Cert.KernelIdeal.Stretch

open Cert.KernelIdeal Cert.KernelIdeal.Gen Cert.KernelIdeal.HostBN
open Idealize.ShloMosaic Idealize.ShloMosaic.TcCoe Idealize.SL.Sem Idealize.ShloMosaic.StableHlo

variable {F : FTy → Type} [FloatOps F]
variable (W : Valuation τ sig (Elt F))

set_option maxHeartbeats 1000000 in
theorem s0_src : after hostOps0 W (Proc.devRef .tc main_v1) = Cert.Model.srcIdx (W (Proc.devRef .tc main_arg1)) := by
  after_results_simp; rfl
set_option maxHeartbeats 1000000 in
theorem s0_dst : after hostOps0 W (Proc.devRef .tc main_v3) = Cert.Model.dstIdx (W (Proc.devRef .tc main_arg1)) := by
  after_results_simp; rfl
set_option maxHeartbeats 1000000 in
theorem s0_norm : after hostOps0 W (Proc.devRef .tc main_v25) = Cert.Model.norm (F := F) (W (Proc.devRef .tc main_arg1)) := by
  after_results_simp; rfl
set_option maxHeartbeats 1000000 in
theorem s0_scale : after hostOps0 W (Proc.devRef .tc main_v29) = colOf (Cert.Model.selfScale (F := F) (W (Proc.devRef .tc main_arg1))) := by
  after_results_simp; rfl

set_option maxHeartbeats 1000000 in
/-- The neighbours' rows of the projected features, weighted and summed at the destinations. -/
theorem s1_agg (ei : IVec S2x1600000 32) (h1 : (W (Proc.devRef .tc main_v1)) = Cert.Model.srcIdx ei) (h3 : (W (Proc.devRef .tc main_v3)) = Cert.Model.dstIdx ei)
    (h25 : (W (Proc.devRef .tc main_v25)) = Cert.Model.norm (F := F) ei) :
    after hostOps1 W (Proc.devRef .tc main_v43) = Cert.Model.aggregate (F := F) ei (W (Proc.devRef .tc main_v30)) := by
  after_results_simp
  rw [h1, h3, h25]
  rfl
set_option maxHeartbeats 1000000 in
theorem s1_bias : after hostOps1 W (Proc.devRef .tc main_v44) = rowOf (W (Proc.devRef .tc main_arg4)) := by
  after_results_simp; rfl

set_option maxHeartbeats 1000000 in
/-- The neighbours' rows of the projected features, weighted and summed at the destinations. -/
theorem s4_agg (ei : IVec S2x1600000 32) (h1 : (W (Proc.devRef .tc main_v1)) = Cert.Model.srcIdx ei) (h3 : (W (Proc.devRef .tc main_v3)) = Cert.Model.dstIdx ei)
    (h25 : (W (Proc.devRef .tc main_v25)) = Cert.Model.norm (F := F) ei) :
    after hostOps4 W (Proc.devRef .tc main_v74) = Cert.Model.aggregate (F := F) ei (W (Proc.devRef .tc main_v61)) := by
  after_results_simp
  rw [h1, h3, h25]
  rfl
set_option maxHeartbeats 1000000 in
theorem s4_bias : after hostOps4 W (Proc.devRef .tc main_v75) = rowOf (W (Proc.devRef .tc main_arg8)) := by
  after_results_simp; rfl

set_option maxHeartbeats 1000000 in
/-- The neighbours' rows of the projected features, weighted and summed at the destinations. -/
theorem s7_agg (ei : IVec S2x1600000 32) (h1 : (W (Proc.devRef .tc main_v1)) = Cert.Model.srcIdx ei) (h3 : (W (Proc.devRef .tc main_v3)) = Cert.Model.dstIdx ei)
    (h25 : (W (Proc.devRef .tc main_v25)) = Cert.Model.norm (F := F) ei) :
    after hostOps7 W (Proc.devRef .tc main_v105) = Cert.Model.aggregate (F := F) ei (W (Proc.devRef .tc main_v92)) := by
  after_results_simp
  rw [h1, h3, h25]
  rfl
set_option maxHeartbeats 1000000 in
theorem s7_bias : after hostOps7 W (Proc.devRef .tc main_v106) = rowOf (W (Proc.devRef .tc main_arg12)) := by
  after_results_simp; rfl

set_option maxHeartbeats 1000000 in
theorem s2_scale : after hostOps2 W (Proc.devRef .tc main_v56) = scaleRow (W (Proc.devRef .tc main_v45_1)) (W (Proc.devRef .tc main_v45_2)) (W (Proc.devRef .tc main_arg5)) := by
  after_results_simp; rfl
set_option maxHeartbeats 1000000 in
theorem s2_shift : after hostOps2 W (Proc.devRef .tc main_v59) = shiftRow (W (Proc.devRef .tc main_v45_1)) (W (Proc.devRef .tc main_v45_2)) (W (Proc.devRef .tc main_arg5)) (W (Proc.devRef .tc main_arg6)) := by
  after_results_simp; rfl

set_option maxHeartbeats 1000000 in
theorem s5_scale : after hostOps5 W (Proc.devRef .tc main_v87) = scaleRow (W (Proc.devRef .tc main_v76_1)) (W (Proc.devRef .tc main_v76_2)) (W (Proc.devRef .tc main_arg9)) := by
  after_results_simp; rfl
set_option maxHeartbeats 1000000 in
theorem s5_shift : after hostOps5 W (Proc.devRef .tc main_v90) = shiftRow (W (Proc.devRef .tc main_v76_1)) (W (Proc.devRef .tc main_v76_2)) (W (Proc.devRef .tc main_arg9)) (W (Proc.devRef .tc main_arg10)) := by
  after_results_simp; rfl

set_option maxHeartbeats 1000000 in
/-- The pooled read-out. -/
theorem s8_out : after hostOps8 W (Proc.devRef .tc main_v114)
    = Cert.Model.head (F := F) (W (Proc.devRef .tc main_v107)) (W (Proc.devRef .tc main_arg2)) (W (Proc.devRef .tc main_arg13)) (W (Proc.devRef .tc main_arg14)) := by
  after_results_simp; rfl

end Cert.KernelIdeal.Stretch

end
-- ==== Proof.Region0.lean ====
/-
  A row-tiled matrix product, read as one array.

  The region has twenty grid points; point t loads rows 5000·t … 5000·t+4999 of a 100000×128 array and the whole of a
  128×128 array, multiplies them on the matrix unit into a zero accumulator, and writes the 5000×128 product back as
  rows 5000·t … of the result.  Rounding the operands to bf16 is the identity on extended reals, so entry (p, q) of a
  block is the plain sum over k of x[5000·t+p, k]·w[k, q]: block t of the full product.  The twenty blocks tile the
  result, so the result array ends as the full product of the two arrays the region was entered with.
-/
import proofs.«124922_j63196148793943_1_alg».proof.Proof.Gen.KernelIdeal.Frame
import proofs.«124922_j63196148793943_1_alg».proof.Proof.MatmulEntry
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.MatmulEntry
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's one store is the matrix-unit product of its two loaded blocks. -/
theorem pay_eq (x0 : Vec Ideal S5000x128 .f32) (x1 : Vec Ideal S128x128 .f32) : k0_pay1 x0 x1 = blockProd x0 x1 := rfl

/-- How the three windows move over the grid: the row-block index of the left operand and of the result is the point's
    number, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A row block of the left operand, read at (p, k), is the array at row 5000·t + p. -/
theorem read_x (c : Dev nD) (t : Fin cfg0.N) (p : Fin 5000) (k : Fin 128) :
    iblk0 V c 0 t (ix2 p k) = (V c main_arg0 : S100000x128.Idx → EReal) (ix2 ⟨t.val * 5000 + p.val, by have := t.isLt; have := p.isLt; have h : cfg0.N = 20 := N_0; omega⟩ k) := by
  obtain ⟨e0, e1, -, -, -, -⟩ := idx_facts t
  show (V c main_arg0 : S100000x128.Idx → EReal) (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The right operand's one block is the whole array. -/
theorem read_w (c : Dev nD) (t : Fin cfg0.N) (k : Fin 128) (q : Fin 128) :
    iblk0 V c 1 t (ix2 k q) = (V c main_arg3 : S128x128.Idx → EReal) (ix2 k q) := by
  obtain ⟨-, -, e2, e3, -, -⟩ := idx_facts t
  show (V c main_arg3 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is block t of the full product. -/
theorem flushed_eq (c : Dev nD) (t : Fin cfg0.N) :
    (dat0 V c).flushed 2 t = ((cfg0.win 2).blk t).view.read (Elt Ideal) (fullProd (V c main_arg0) (V c main_arg3)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  rw [pay_eq]
  obtain ⟨-, -, -, -, e4, e5⟩ := idx_facts t
  funext j
  obtain ⟨p, q, rfl⟩ : ∃ (p : Fin 5000) (q : Fin 128), j = ix2 p q := ⟨j 0, j 1, eq_ix2 j⟩
  refine (blockProd_apply _ _ p q).trans ?_
  show _ = fullProd (V c main_arg0) (V c main_arg3) (((cfg0.win 2).blk t).view.emb (ix2 p q))
  have hemb : ((cfg0.win 2).blk t).view.emb (ix2 p q)
      = (ix2 ⟨t.val * 5000 + p.val, by have := t.isLt; have := p.isLt; have h : cfg0.N = 20 := N_0; omega⟩ q : S100000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  show _ = ∑ k : Fin 128, _
  exact Finset.sum_congr rfl fun k _ => by rw [read_x V c t p k, read_w V c t k q]

/-- An index of the result lies in point t's block iff its row is in rows 5000·t … 5000·t+4999. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the result is in the block of the point numbered by its row divided by 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by omega⟩, flush0_2 _, ?_⟩
  rw [mem_blk]
  obtain ⟨-, -, -, -, e4, e5⟩ := idx_facts ⟨(i 0).val / 5000, by omega⟩
  intro a
  match a with
  | ⟨0, _⟩ => show win0_2.index _ (0 : Fin 2) * 5000 ≤ (i 0).val ∧ (i 0).val < win0_2.index _ (0 : Fin 2) * 5000 + 5000; simp only at e4; omega
  | ⟨1, _⟩ => show win0_2.index _ (1 : Fin 2) * 128 ≤ (i 1).val ∧ (i 1).val < win0_2.index _ (1 : Fin 2) * 128 + 128; omega

/-- The result array after the region is the full product of the two arrays it was entered with. -/
theorem final (c : Dev nD) : (dat0 V c).arrAt 2 cfg0.N = fullProd (V c main_arg0) (V c main_arg3) :=
  (dat0 V c).arrAt_eq_of_cover 2 _ (fun t _ => flushed_eq V c t) cover

end Cert.KernelIdeal.Region0

end
-- ==== Proof.Region1Pieces.lean ====
/-
  One grid point of the row-tiled combine-and-reduce region, read as values.

  A point holds four loaded blocks: two 5000×128 blocks a and h, a 5000×1 column of scales s and the 1×128 bias row b.
  It stores the combined block c[p, q] = (a[p, q] + h[p, q]·s[p]) + b[q], and adds to two 1×128 accumulators the column
  sums of c and of c·c over the block's 5000 rows; the first point stores a zero row into each accumulator and reads
  it back before adding.

  First, for any float values: what each of the two cases of the body (the first point; a later point) leaves in each
  of the three outputs is the corresponding pure term of the body over the loaded blocks — the combined block, and the
  new accumulator rows over the old ones (the zero rows at the first point).  Then, over the extended reals, those
  terms read at an entry: the zero rows are zero; the combined block is the formula above; a new accumulator entry is
  the old entry plus the sum over the 5000 rows of the block's column (of its squares, for the second accumulator).
-/
import proofs.«124922_j63196148793943_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Ideal (multiReduction_add_single)
open scoped BigOperators

section Pieces

variable {F : FTy → Type} [FloatOps F]

/-- The zero offsets of a whole-block access, as a constant function. -/
theorem hz : (![0, 0] : Fin 2 → Nat) = fun _ => 0 := funext fun a => by fin_cases a <;> rfl

/-! ## What each case leaves in each output: the found pieces read as payloads -/

/-- At the first point the body leaves in the row-block output the combined block of its four loaded blocks. -/
theorem out_A_4 (c : Dev nD) (i : grid1.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond1_0 i) (x0 : Vec F S5000x128 .f32) (x1 : Vec F S5000x128 .f32) (x2 : Vec F S5000x1 .f32) (x3 : Vec F S1x128 .f32) :
    out1_A_4 c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At a later point the body leaves in the row-block output the combined block of its four loaded blocks. -/
theorem out_B_4 (c : Dev nD) (i : grid1.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond1_0 i) (x0 : Vec F S5000x128 .f32) (x1 : Vec F S5000x128 .f32) (x2 : Vec F S5000x1 .f32) (x3 : Vec F S1x128 .f32) (xo5 xo6 : Vec F S1x128 .f32) :
    out1_B_4 c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At the first point the body zeroes the column-sum accumulator, reads the zero row back and leaves it plus the
    column sums of the combined block. -/
theorem out_A_5 (c : Dev nD) (i : grid1.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond1_0 i) (x0 : Vec F S5000x128 .f32) (x1 : Vec F S5000x128 .f32) (x2 : Vec F S5000x1 .f32) (x3 : Vec F S1x128 .f32) :
    out1_A_5 c i a1 h1 a2 h2 a3 h3 a4 h4 a5 h5 a6 h6 a7 h7 hc x0 x1 x2 x3 = k1_pay4 x0 x1 x2 x3 k1_pay1 := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At a later point the body leaves in the column-sum accumulator what it held plus the column sums of the combined
    block. -/
theorem out_B_5 (c : Dev nD) (i : grid1.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond1_0 i) (x0 : Vec F S5000x128 .f32) (x1 : Vec F S5000x128 .f32) (x2 : Vec F S5000x1 .f32) (x3 : Vec F S1x128 .f32) (xo5 xo6 : Vec F S1x128 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At the first point the body zeroes the column-sum-of-squares accumulator, reads the zero row back and leaves it
    plus the column sums of the squared combined block. -/
theorem out_A_6 (c : Dev nD) (i : grid1.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond1_0 i) (x0 : Vec F S5000x128 .f32) (x1 : Vec F S5000x128 .f32) (x2 : Vec F S5000x1 .f32) (x3 : Vec F S1x128 .f32) :
    out1_A_6 c i a1 h1 a2 h2 a3 h3 a4 h4 a5 h5 a6 h6 a7 h7 hc x0 x1 x2 x3 = k1_pay5 x0 x1 x2 x3 k1_pay2 := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At a later point the body leaves in the column-sum-of-squares accumulator what it held plus the column sums of the
    squared combined block. -/
theorem out_B_6 (c : Dev nD) (i : grid1.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond1_0 i) (x0 : Vec F S5000x128 .f32) (x1 : Vec F S5000x128 .f32) (x2 : Vec F S5000x1 .f32) (x3 : Vec F S1x128 .f32) (xo5 xo6 : Vec F S1x128 .f32) :
    out1_B_6 c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

end Pieces

/-- A column broadcast over many columns: a [a, 1] array spread to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The combined block at row p and column q: the first block's entry plus the second block's entry times the row's
    scale, plus the column's bias. -/
theorem pay3_apply (x0 x1 : Vec Ideal S5000x128 .f32) (x2 : Vec Ideal S5000x1 .f32) (x3 : Vec Ideal S1x128 .f32)
    (p : Fin 5000) (q : Fin 128) :
    k1_pay3 (F := Ideal) x0 x1 x2 x3 (ix2 p q)
      = ((x0 (ix2 p q) : EReal) + x1 (ix2 p q) * x2 (ix2 p (0 : Fin 1))) + x3 (ix2 (0 : Fin 1) q) := by
  unfold k1_pay3
  show ((shapeCast S5000x128 x0 shapeCasts_S5000x128_S5000x128 (ix2 p q) : EReal)
      + shapeCast S5000x128 x1 shapeCasts_S5000x128_S5000x128 (ix2 p q)
        * broadcastTo S5000x128 (shapeCast S5000x1 x2 shapeCasts_S5000x1_S5000x1) broadcasts_S5000x1_S5000x128 (ix2 p q))
      + broadcastTo S5000x128 (shapeCast S1x128 x3 shapeCasts_S1x128_S1x128) broadcasts_S1x128_S5000x128 (ix2 p q) = _
  rw [shapeCast_self, shapeCast_self, shapeCast_self, shapeCast_self]
  rw [broadcastTo_1b_ab_apply x3 broadcasts_S1x128_S5000x128 p q,
    broadcastTo_a1_ab_apply x2 broadcasts_S5000x1_S5000x128 p q]

/-! ## The payloads read at an entry, over the extended reals -/

/-- The zero row the first point stores in the column-sum accumulator: every entry is zero. -/
theorem pay1_apply (j : S1x128.Idx) : k1_pay1 (F := Ideal) j = (0 : EReal) := by
  show Ideal.ofBits .f32 0x00000000#32 = 0
  exact Ideal.ofBits_zero_f32

/-- The zero row the first point stores in the column-sum-of-squares accumulator: every entry is zero. -/
theorem pay2_apply (j : S1x128.Idx) : k1_pay2 (F := Ideal) j = (0 : EReal) := by
  show Ideal.ofBits .f32 0x00000000#32 = 0
  exact Ideal.ofBits_zero_f32

/-- The index the reduction over the rows inserts: row p put in front of column q is the entry (p, q). -/
theorem lift_eq (p : Fin 5000) (q : Fin 128) :
    (reduces_S5000x128_S128.lift (ix1 q) p : S5000x128.Idx) = ix2 p q :=
  funext fun a => by match a with | ⟨0, _⟩ => rfl | ⟨1, _⟩ => rfl

/-- The new column-sum row at column q: the old entry plus the sum over the block's 5000 rows of the combined block's
    column q. -/
theorem pay4_apply (x0 x1 : Vec Ideal S5000x128 .f32) (x2 : Vec Ideal S5000x1 .f32) (x3 acc : Vec Ideal S1x128 .f32)
    (q : Fin 128) :
    k1_pay4 (F := Ideal) x0 x1 x2 x3 acc (ix2 0 q)
      = (acc (ix2 0 q) : EReal) + ∑ p : Fin 5000, (k1_pay3 (F := Ideal) x0 x1 x2 x3 (ix2 p q) : EReal) := by
  unfold k1_pay4
  show (shapeCast S1x128 acc shapeCasts_S1x128_S1x128 (ix2 0 q) : EReal)
    + (shapeCast S1x128 _ shapeCasts_S128_S1x128 (ix2 0 q) : EReal) = _
  rw [shapeCast_self]
  refine congrArg (fun z : EReal => acc (ix2 0 q) + z) ?_
  refine (shapeCast_a_1a_apply _ shapeCasts_S128_S1x128 0 q).trans ?_
  refine (multiReduction_add_single (k1_pay3 (F := Ideal) x0 x1 x2 x3) 0x00000000#32 reduces_S5000x128_S128 _ _
    (ix1 q)).trans ?_
  exact Finset.sum_congr rfl fun p _ => congrArg (k1_pay3 (F := Ideal) x0 x1 x2 x3) (lift_eq p q)

/-- The new column-sum-of-squares row at column q: the old entry plus the sum over the block's 5000 rows of the
    squared combined block's column q. -/
theorem pay5_apply (x0 x1 : Vec Ideal S5000x128 .f32) (x2 : Vec Ideal S5000x1 .f32) (x3 acc : Vec Ideal S1x128 .f32)
    (q : Fin 128) :
    k1_pay5 (F := Ideal) x0 x1 x2 x3 acc (ix2 0 q)
      = (acc (ix2 0 q) : EReal)
        + ∑ p : Fin 5000, (k1_pay3 (F := Ideal) x0 x1 x2 x3 (ix2 p q) : EReal) * k1_pay3 (F := Ideal) x0 x1 x2 x3 (ix2 p q) := by
  unfold k1_pay5
  show (shapeCast S1x128 acc shapeCasts_S1x128_S1x128 (ix2 0 q) : EReal)
    + (shapeCast S1x128 _ shapeCasts_S128_S1x128 (ix2 0 q) : EReal) = _
  rw [shapeCast_self]
  refine congrArg (fun z : EReal => acc (ix2 0 q) + z) ?_
  refine (shapeCast_a_1a_apply _ shapeCasts_S128_S1x128 0 q).trans ?_
  refine (multiReduction_add_single
    (mulf (k1_pay3 (F := Ideal) x0 x1 x2 x3) (k1_pay3 (F := Ideal) x0 x1 x2 x3)) 0x00000000#32 reduces_S5000x128_S128 _ _
    (ix1 q)).trans ?_
  refine Finset.sum_congr rfl fun p _ => ?_
  show (k1_pay3 (F := Ideal) x0 x1 x2 x3 (reduces_S5000x128_S128.lift (ix1 q) p) : EReal)
    * k1_pay3 (F := Ideal) x0 x1 x2 x3 (reduces_S5000x128_S128.lift (ix1 q) p) = _
  rw [lift_eq p q]

end Cert.KernelIdeal.Region1

end
-- ==== Proof.LibFocalAlgebra.lean ====
/-
  The algebra behind a class-balanced focal loss, over abstract finite index types.

  Rows `i : I` carry a picked softmax probability `p i`, its logarithm `L i` and a weight `q i` (a power of
  `1 - p i`); samples `j : J` carry a class weight `a j` that depends on the sample's class only through how many
  samples share that class. Four facts:

  * a sum of real numbers taken in the reals and then read as an extended real is the sum of the summands read as
    extended reals (`coe_finset_sum`, `coe_fintype_sum`);
  * the double sum `∑ i, ∑ j, ((-a j) * q i) * L i` factors as `(∑ j, a j) * ∑ i, q i * (0 - L i)`: the distributive
    law, which holds in the reals (and fails on the extended reals when an infinity meets a zero), stated in the reals
    and read on finite extended reals (`sum_sum_neg_mul_mul`, `ereal_sum_sum_neg_mul_mul`);
  * double counting: summing a function of the class over the samples is summing it over the classes with
    multiplicity (`sum_comp_eq_sum_card_mul`), so the weights `1 - (count of j's class / N) / 10` sum to
    `N - (∑ c, count c * count c) / (10 * N)` (`sum_one_sub_count_div`);
  * picking one entry of a softmax: for positive `e`, `log (e k) - log (∑ e) = log (e k / ∑ e)`, its exponential is
    `e k / ∑ e`, and the sum of the normalised entries against a one-hot row is the picked normalised entry
    (`log_sub_log_sum`, `exp_log_sub_log_sum`, `sum_div_mul_ite`); with them the ideal float operations at finite
    arguments (`ideal_log_coe_pos`, `ideal_div_coe_coe`, `ideal_pow_coe_two`, `ideal_exp_coe`).
-/
import Idealize.ShloMosaic.PureOps.Ideal

noncomputable section

open scoped BigOperators

namespace Idealize.ShloMosaic.FocalAlgebra

open Idealize.ShloMosaic

/-! ## Sums of reals read as extended reals -/

/-- The coercion of the reals into the extended reals commutes with a sum over a finite set. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with a sum over a finite type. -/
theorem coe_fintype_sum {ι : Type*} [Fintype ι] (f : ι → ℝ) :
    ((∑ i, f i : ℝ) : EReal) = ∑ i, (f i : EReal) :=
  coe_finset_sum Finset.univ f

/-! ## The double sum factors -/

/-- Over the reals, `∑ i, ∑ j, ((-a j) * q i) * L i = (∑ j, a j) * ∑ i, q i * (0 - L i)`: every summand is
    `a j * (q i * (0 - L i))`, and a product of two finite sums is the double sum of the products. -/
theorem sum_sum_neg_mul_mul {I J : Type*} [Fintype I] [Fintype J] (a : J → ℝ) (q L : I → ℝ) :
    ∑ i, ∑ j, ((-a j) * q i) * L i = (∑ j, a j) * ∑ i, q i * (0 - L i) := by
  rw [Finset.sum_mul_sum, Finset.sum_comm]
  refine Finset.sum_congr rfl fun j _ => Finset.sum_congr rfl fun i _ => ?_
  ring

/-- The same on extended reals that are finite: the double sum of `((-a j) * q i) * L i`, each factor a real read
    as an extended real, is the real `(∑ j, a j) * ∑ i, q i * (0 - L i)` read as an extended real. -/
theorem ereal_sum_sum_neg_mul_mul {I J : Type*} [Fintype I] [Fintype J] (a : J → ℝ) (q L : I → ℝ) :
    ∑ i, ∑ j, ((-(a j : EReal)) * (q i : EReal)) * (L i : EReal)
      = (((∑ j, a j) * ∑ i, q i * (0 - L i) : ℝ) : EReal) := by
  rw [← sum_sum_neg_mul_mul, coe_fintype_sum]
  refine Finset.sum_congr rfl fun i _ => ?_
  rw [coe_fintype_sum]
  refine Finset.sum_congr rfl fun j _ => ?_
  rw [EReal.coe_mul, EReal.coe_mul, EReal.coe_neg]

/-! ## Double counting -/

/-- Summing `f (t j)` over the samples `j` is summing `f c` over the classes `c`, each as many times as there are
    samples of class `c`. -/
theorem sum_comp_eq_sum_card_mul {I C : Type*} [Fintype I] [Fintype C] [DecidableEq C] (t : I → C) (f : C → ℝ) :
    ∑ j, f (t j) = ∑ c, ((Finset.univ.filter fun j => t j = c).card : ℝ) * f c := by
  rw [← Finset.sum_fiberwise Finset.univ t fun j => f (t j)]
  refine Finset.sum_congr rfl fun c _ => ?_
  have h : ∀ j ∈ Finset.univ.filter (fun j => t j = c), f (t j) = f c := fun j hj => by
    rw [(Finset.mem_filter.mp hj).2]
  rw [Finset.sum_congr rfl h, Finset.sum_const, nsmul_eq_mul]

/-- The class weights `1 - (count of j's class / N) / 10`, summed over the `N` samples, are
    `N - (∑ c, count c * count c) / (10 * N)`: the sum of the counts of the samples' classes is the sum of the
    squared counts. -/
theorem sum_one_sub_count_div {I C : Type*} [Fintype I] [Fintype C] [DecidableEq C] (t : I → C) (N : ℝ)
    (hN : (Fintype.card I : ℝ) = N) :
    ∑ j, (1 - ((Finset.univ.filter fun k => t k = t j).card : ℝ) / N / 10)
      = N - (∑ c, ((Finset.univ.filter fun k => t k = c).card : ℝ) * ((Finset.univ.filter fun k => t k = c).card : ℝ))
          / (10 * N) := by
  rw [Finset.sum_sub_distrib, Finset.sum_const, Finset.card_univ, nsmul_eq_mul, mul_one, hN]
  refine congrArg (N - ·) ?_
  rw [← Finset.sum_div, ← Finset.sum_div,
    sum_comp_eq_sum_card_mul t fun c => ((Finset.univ.filter fun k => t k = c).card : ℝ), div_div, mul_comm N 10]

/-! ## One entry of a softmax -/

section Softmax

variable {C : Type*} [Fintype C]

/-- A sum of positive terms over an inhabited finite type is positive. -/
theorem sum_pos_of_pos (e : C → ℝ) (he : ∀ c, 0 < e c) (k : C) : 0 < ∑ c, e c :=
  Finset.sum_pos (fun c _ => he c) ⟨k, Finset.mem_univ k⟩

/-- For positive `e`: `log (e k) - log (∑ c, e c) = log (e k / ∑ c, e c)`. -/
theorem log_sub_log_sum (e : C → ℝ) (he : ∀ c, 0 < e c) (k : C) :
    Real.log (e k) - Real.log (∑ c, e c) = Real.log (e k / ∑ c, e c) :=
  (Real.log_div (he k).ne' (sum_pos_of_pos e he k).ne').symm

/-- For positive `e`: the exponential of `log (e k) - log (∑ c, e c)` is `e k / ∑ c, e c`. -/
theorem exp_log_sub_log_sum (e : C → ℝ) (he : ∀ c, 0 < e c) (k : C) :
    Real.exp (Real.log (e k) - Real.log (∑ c, e c)) = e k / ∑ c, e c := by
  rw [Real.exp_sub, Real.exp_log (he k), Real.exp_log (sum_pos_of_pos e he k)]

/-- For positive `e` the picked normalised entry `e k / ∑ c, e c` is positive. -/
theorem div_sum_pos (e : C → ℝ) (he : ∀ c, 0 < e c) (k : C) : 0 < e k / ∑ c, e c :=
  div_pos (he k) (sum_pos_of_pos e he k)

/-- The normalised entries `e c / Z` summed against the one-hot row of `k` give the picked entry `e k / Z`. -/
theorem sum_div_mul_ite [DecidableEq C] (e : C → ℝ) (k : C) (Z : ℝ) :
    ∑ c, (e c / Z) * (if c = k then (1 : ℝ) else 0) = e k / Z := by
  simp only [mul_ite, mul_one, mul_zero, Finset.sum_ite_eq', Finset.mem_univ, if_true]

end Softmax

/-! ## The ideal float operations at finite arguments -/

/-- The ideal exponential of a real is the real exponential. -/
theorem ideal_exp_coe (r : ℝ) : Ideal.exp (r : EReal) = (Real.exp r : EReal) := rfl

/-- The ideal logarithm of a positive real is the real logarithm. -/
theorem ideal_log_coe_pos {r : ℝ} (h : 0 < r) : Ideal.log (r : EReal) = (Real.log r : EReal) := by
  rw [Ideal.log_coe, if_neg (not_le.mpr h)]

/-- The ideal quotient of two reals, the divisor not zero, is the real quotient. -/
theorem ideal_div_coe_coe (x : ℝ) {y : ℝ} (hy : y ≠ 0) : Ideal.div (x : EReal) (y : EReal) = ((x / y : ℝ) : EReal) := by
  rw [Ideal.div_coe hy, ← EReal.coe_mul, mul_one_div]

/-- The ideal power of a real with exponent two is the real times itself. -/
theorem ideal_pow_coe_two (x : ℝ) : Ideal.pow (x : EReal) ((2 : ℝ) : EReal) = ((x * x : ℝ) : EReal) := by
  rw [Ideal.pow_coe_coe, Real.rpow_eq_pow, Real.rpow_two, sq]

end Idealize.ShloMosaic.FocalAlgebra

end
-- ==== Proof.LibBatchNormAlgebra.lean ====
/-
  The algebra behind training-mode batch normalization, over abstract finite index types.

  A batch of real numbers `x i`, `i : I`, with `d` the number of indices, has the mean `m = (∑ i, x i) / d` and the
  (biased) variance `(∑ i, (x i - m) * (x i - m)) / d`; a normalised entry is `g * (c - m) * r + b` with
  `r = 1 / √(variance + ε)`. Four groups of facts:

  * an extended real is FINITE when it is a real number read as an extended real (`IsFin`); sums, differences,
    products, negations, maxima, finite sums, quotients by a nonzero real and the reciprocal square root of a
    positive real are finite when their arguments are, and on finite arguments every ideal float operation is the
    real operation (`IsFin.add` … `IsFin.rsqrt`, `rsqrt_coe_pos`);
  * the variance identity: the mean of the squared deviations from the mean is the mean of the squares minus the
    square of the mean (`variance_identity`), a nonnegative number (`variance_nonneg`), and the same identity between
    extended reals when every operation is the ideal one (`ereal_variance_identity` and its pieces
    `ideal_mean_coe`, `ideal_var_coe`, `ideal_meansq_sub_coe`; the forms with a zero initial value of the sums carry
    the suffix `_zero_add`);
  * the affine folding `(g * (c - m)) * r + b = c * (g * r) + (b - m * (g * r))` (`affine_fold`,
    `ereal_affine_fold`);
  * a sum over `Fin (A * B)` taken block by block (`sum_fin_mul`), and the running sum over the blocks as a
    recursion `S 0 = 0`, `S (n + 1) = S n + g n` (`sum_range_succ_acc`, `eq_sum_range_of_rec`).
-/
import Idealize.ShloMosaic.PureOps.Ideal
import proofs.«124922_j63196148793943_1_alg».proof.Proof.LibFocalAlgebra

noncomputable section

open scoped BigOperators

namespace Idealize.ShloMosaic.BatchNormAlgebra

open Idealize.ShloMosaic

/-! ## A. Finite extended reals -/

/-- An extended real is finite when it is a real number read as an extended real. -/
def IsFin (x : EReal) : Prop := ∃ r : ℝ, x = (r : EReal)

/-- A real number read as an extended real is finite. -/
theorem IsFin.coe (r : ℝ) : IsFin (r : EReal) := ⟨r, rfl⟩

/-- Zero is finite. -/
theorem IsFin.zero : IsFin (0 : EReal) := ⟨0, EReal.coe_zero.symm⟩

/-- One is finite. -/
theorem IsFin.one : IsFin (1 : EReal) := ⟨1, EReal.coe_one.symm⟩

/-- The sum of two finite extended reals is finite (the real sum). -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two finite extended reals is finite (the real difference). -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two finite extended reals is finite (the real product). -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- Reading a real as an extended real commutes with the maximum: the reading is monotone. -/
theorem coe_max (a b : ℝ) : ((Max.max a b : ℝ) : EReal) = Max.max (a : EReal) (b : EReal) :=
  EReal.coe_strictMono.monotone.map_max

/-- Reading a real as an extended real commutes with the minimum: the reading is monotone. -/
theorem coe_min (a b : ℝ) : ((Min.min a b : ℝ) : EReal) = Min.min (a : EReal) (b : EReal) :=
  EReal.coe_strictMono.monotone.map_min

/-- The maximum of two finite extended reals is finite (the real maximum). -/
theorem IsFin.max {x y : EReal} (hx : IsFin x) (hy : IsFin y) : IsFin (Max.max x y) := by
  obtain ⟨a, rfl⟩ := hx
  obtain ⟨b, rfl⟩ := hy
  exact ⟨Max.max a b, (coe_max a b).symm⟩

/-- The minimum of two finite extended reals is finite (the real minimum). -/
theorem IsFin.min {x y : EReal} (hx : IsFin x) (hy : IsFin y) : IsFin (Min.min x y) := by
  obtain ⟨a, rfl⟩ := hx
  obtain ⟨b, rfl⟩ := hy
  exact ⟨Min.min a b, (coe_min a b).symm⟩

/-- A sum of finitely many finite extended reals is finite. -/
theorem IsFin.sum {ι : Type*} (s : Finset ι) (f : ι → EReal) (h : ∀ i ∈ s, IsFin (f i)) :
    IsFin (∑ i ∈ s, f i) := by
  classical
  induction s using Finset.induction_on with
  | empty => rw [Finset.sum_empty]; exact IsFin.zero
  | insert a s ha ih =>
    rw [Finset.sum_insert ha]
    exact (h a (Finset.mem_insert_self a s)).add (ih fun i hi => h i (Finset.mem_insert_of_mem hi))

/-- A sum of finite extended reals over a finite type is finite. -/
theorem IsFin.fintype_sum {ι : Type*} [Fintype ι] (f : ι → EReal) (h : ∀ i, IsFin (f i)) : IsFin (∑ i, f i) :=
  IsFin.sum Finset.univ f fun i _ => h i

/-- The ideal quotient of a finite extended real by a nonzero real is finite (the real quotient). -/
theorem IsFin.div {x : EReal} (hx : IsFin x) {d : ℝ} (hd : d ≠ 0) : IsFin (Ideal.div x (d : EReal)) := by
  obtain ⟨a, rfl⟩ := hx
  exact ⟨a / d, FocalAlgebra.ideal_div_coe_coe a hd⟩

/-- The ideal reciprocal square root of a positive real `r` is the real `(√r)⁻¹`. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- For a positive real `r` the number `(√r)⁻¹` is positive. -/
theorem inv_sqrt_pos {r : ℝ} (h : 0 < r) : 0 < (Real.sqrt r)⁻¹ :=
  inv_pos.mpr (Real.sqrt_pos.mpr h)

/-- The ideal reciprocal square root of a positive real is finite. -/
theorem IsFin.rsqrt {r : ℝ} (h : 0 < r) : IsFin (Ideal.rsqrt (r : EReal)) :=
  ⟨(Real.sqrt r)⁻¹, rsqrt_coe_pos h⟩

/-- The ideal square root of a nonnegative real `r` is the real `√r`. -/
theorem sqrt_coe_nonneg {r : ℝ} (h : 0 ≤ r) : Ideal.sqrt (r : EReal) = ((Real.sqrt r : ℝ) : EReal) := by
  rw [Ideal.sqrt_coe, if_neg (not_lt.mpr h)]

/-- A finite extended real is not `⊤`. -/
theorem IsFin.ne_top {x : EReal} (hx : IsFin x) : x ≠ ⊤ := by
  obtain ⟨a, rfl⟩ := hx
  exact EReal.coe_ne_top a

/-- A finite extended real is not `⊥`. -/
theorem IsFin.ne_bot {x : EReal} (hx : IsFin x) : x ≠ ⊥ := by
  obtain ⟨a, rfl⟩ := hx
  exact EReal.coe_ne_bot a

/-- An extended real that is neither `⊤` nor `⊥` is finite. -/
theorem IsFin.of_ne {x : EReal} (ht : x ≠ ⊤) (hb : x ≠ ⊥) : IsFin x := by
  induction x using EReal.rec with
  | bot => exact absurd rfl hb
  | coe r => exact ⟨r, rfl⟩
  | top => exact absurd rfl ht

/-- Finite means neither `⊤` nor `⊥`. -/
theorem isFin_iff {x : EReal} : IsFin x ↔ x ≠ ⊤ ∧ x ≠ ⊥ :=
  ⟨fun h => ⟨h.ne_top, h.ne_bot⟩, fun h => IsFin.of_ne h.1 h.2⟩

/-- An extended real strictly between `⊥` and `⊤` is finite. -/
theorem IsFin.of_lt {x : EReal} (hb : ⊥ < x) (ht : x < ⊤) : IsFin x :=
  IsFin.of_ne ht.ne hb.ne'

/-- An extended real between two reals is finite. -/
theorem IsFin.of_bounds {x : EReal} {a b : ℝ} (ha : (a : EReal) ≤ x) (hb : x ≤ (b : EReal)) : IsFin x :=
  IsFin.of_lt (lt_of_lt_of_le (EReal.bot_lt_coe a) ha) (lt_of_le_of_lt hb (EReal.coe_lt_top b))

/-- A finite extended real is its own real part read back as an extended real. -/
theorem IsFin.coe_toReal {x : EReal} (hx : IsFin x) : ((x.toReal : ℝ) : EReal) = x :=
  EReal.coe_toReal hx.ne_top hx.ne_bot

/-! ## B. The variance identity -/

section Variance

variable {I : Type*} [Fintype I]

/-- The squared deviations from any number `m` sum to `∑ x² - 2 m ∑ x + (number of terms) · m²`. -/
theorem sum_sub_mul_sub (x : I → ℝ) (m : ℝ) :
    ∑ i, (x i - m) * (x i - m)
      = (∑ i, x i * x i) - 2 * m * (∑ i, x i) + (Fintype.card I : ℝ) * (m * m) := by
  have h : ∀ i, (x i - m) * (x i - m) = x i * x i - 2 * m * x i + m * m := fun i => by ring
  rw [Finset.sum_congr rfl fun i _ => h i, Finset.sum_add_distrib, Finset.sum_sub_distrib, ← Finset.mul_sum,
    Finset.sum_const, Finset.card_univ, nsmul_eq_mul]

/-- The variance identity over the reals: with `d` the number of terms and `m = (∑ x) / d` the mean, the mean of the
    squared deviations from the mean is the mean of the squares minus the square of the mean. -/
theorem variance_identity (x : I → ℝ) (d : ℝ) (hd : d = (Fintype.card I : ℝ)) (hd0 : d ≠ 0) :
    (∑ i, (x i - (∑ i, x i) / d) * (x i - (∑ i, x i) / d)) / d
      = (∑ i, x i * x i) / d - ((∑ i, x i) / d) * ((∑ i, x i) / d) := by
  rw [sum_sub_mul_sub, ← hd]
  field_simp
  ring

/-- The mean of the squared deviations from any number is nonnegative. -/
theorem variance_nonneg (x : I → ℝ) (m d : ℝ) (hd : d = (Fintype.card I : ℝ)) :
    0 ≤ (∑ i, (x i - m) * (x i - m)) / d :=
  div_nonneg (Finset.sum_nonneg fun i _ => mul_self_nonneg _) (hd ▸ Nat.cast_nonneg _)

/-- The mean of the squares minus the square of the mean is nonnegative: it is the mean of the squared deviations
    from the mean. -/
theorem meansq_sub_nonneg (x : I → ℝ) (d : ℝ) (hd : d = (Fintype.card I : ℝ)) (hd0 : d ≠ 0) :
    0 ≤ (∑ i, x i * x i) / d - ((∑ i, x i) / d) * ((∑ i, x i) / d) := by
  rw [← variance_identity x d hd hd0]
  exact variance_nonneg x _ d hd

/-- A sum of squares of reals, each read as an extended real, is the real sum of squares read as an extended
    real. -/
theorem ereal_sum_sq_coe (x : I → ℝ) :
    ∑ i, (x i : EReal) * (x i : EReal) = ((∑ i, x i * x i : ℝ) : EReal) := by
  rw [FocalAlgebra.coe_fintype_sum]
  refine Finset.sum_congr rfl fun i _ => ?_
  rw [EReal.coe_mul]

/-- A sum of squared deviations of reals from a real, each operation taken on extended reals, is the real sum of
    squared deviations read as an extended real. -/
theorem ereal_sum_sub_sq_coe (x : I → ℝ) (m : ℝ) :
    ∑ i, ((x i : EReal) - (m : EReal)) * ((x i : EReal) - (m : EReal))
      = ((∑ i, (x i - m) * (x i - m) : ℝ) : EReal) := by
  rw [FocalAlgebra.coe_fintype_sum]
  refine Finset.sum_congr rfl fun i _ => ?_
  rw [EReal.coe_mul, EReal.coe_sub]

/-- The ideal mean of reals: the ideal quotient of their extended-real sum by a nonzero real `d` is the real mean
    `(∑ x) / d`. -/
theorem ideal_mean_coe (x : I → ℝ) {d : ℝ} (hd0 : d ≠ 0) :
    Ideal.div (∑ i, (x i : EReal)) (d : EReal) = (((∑ i, x i) / d : ℝ) : EReal) := by
  rw [← FocalAlgebra.coe_fintype_sum, FocalAlgebra.ideal_div_coe_coe _ hd0]

/-- The ideal mean of squares of reals is the real mean of squares. -/
theorem ideal_meansq_coe (x : I → ℝ) {d : ℝ} (hd0 : d ≠ 0) :
    Ideal.div (∑ i, (x i : EReal) * (x i : EReal)) (d : EReal) = (((∑ i, x i * x i) / d : ℝ) : EReal) := by
  rw [ereal_sum_sq_coe, FocalAlgebra.ideal_div_coe_coe _ hd0]

/-- The ideal variance of reals, every operation the ideal one, is the real variance `(∑ (x - m)²) / d` with
    `m = (∑ x) / d`. -/
theorem ideal_var_coe (x : I → ℝ) {d : ℝ} (hd0 : d ≠ 0) :
    Ideal.div
        (∑ i, ((x i : EReal) - Ideal.div (∑ i, (x i : EReal)) (d : EReal))
          * ((x i : EReal) - Ideal.div (∑ i, (x i : EReal)) (d : EReal)))
        (d : EReal)
      = (((∑ i, (x i - (∑ i, x i) / d) * (x i - (∑ i, x i) / d)) / d : ℝ) : EReal) := by
  rw [ideal_mean_coe x hd0, ereal_sum_sub_sq_coe, FocalAlgebra.ideal_div_coe_coe _ hd0]

/-- The ideal `mean of squares minus square of the mean` of reals is the real one. -/
theorem ideal_meansq_sub_coe (x : I → ℝ) {d : ℝ} (hd0 : d ≠ 0) :
    Ideal.div (∑ i, (x i : EReal) * (x i : EReal)) (d : EReal)
        - Ideal.div (∑ i, (x i : EReal)) (d : EReal) * Ideal.div (∑ i, (x i : EReal)) (d : EReal)
      = (((∑ i, x i * x i) / d - ((∑ i, x i) / d) * ((∑ i, x i) / d) : ℝ) : EReal) := by
  rw [ideal_mean_coe x hd0, ideal_meansq_coe x hd0, ← EReal.coe_mul, ← EReal.coe_sub]

/-- The variance identity between extended reals, every operation the ideal one: with `d` the number of terms and
    `M` the ideal mean, the ideal mean of the squared deviations from `M` is the ideal mean of the squares minus
    `M * M`. -/
theorem ereal_variance_identity (x : I → ℝ) (d : ℝ) (hd : d = (Fintype.card I : ℝ)) (hd0 : d ≠ 0) :
    Ideal.div
        (∑ i, ((x i : EReal) - Ideal.div (∑ i, (x i : EReal)) (d : EReal))
          * ((x i : EReal) - Ideal.div (∑ i, (x i : EReal)) (d : EReal)))
        (d : EReal)
      = Ideal.div (∑ i, (x i : EReal) * (x i : EReal)) (d : EReal)
        - Ideal.div (∑ i, (x i : EReal)) (d : EReal) * Ideal.div (∑ i, (x i : EReal)) (d : EReal) := by
  rw [ideal_var_coe x hd0, ideal_meansq_sub_coe x hd0, variance_identity x d hd hd0]

/-- The ideal mean with a zero initial value of the sum: `0 + ∑ x` is `∑ x`. -/
theorem ideal_mean_coe_zero_add (x : I → ℝ) {d : ℝ} (hd0 : d ≠ 0) :
    Ideal.div (0 + ∑ i, (x i : EReal)) (d : EReal) = (((∑ i, x i) / d : ℝ) : EReal) := by
  rw [zero_add, ideal_mean_coe x hd0]

/-- The ideal mean of squares with a zero initial value of the sum. -/
theorem ideal_meansq_coe_zero_add (x : I → ℝ) {d : ℝ} (hd0 : d ≠ 0) :
    Ideal.div (0 + ∑ i, (x i : EReal) * (x i : EReal)) (d : EReal) = (((∑ i, x i * x i) / d : ℝ) : EReal) := by
  rw [zero_add, ideal_meansq_coe x hd0]

/-- The ideal variance with a zero initial value of both sums. -/
theorem ideal_var_coe_zero_add (x : I → ℝ) {d : ℝ} (hd0 : d ≠ 0) :
    Ideal.div
        (0 + ∑ i, ((x i : EReal) - Ideal.div (0 + ∑ i, (x i : EReal)) (d : EReal))
          * ((x i : EReal) - Ideal.div (0 + ∑ i, (x i : EReal)) (d : EReal)))
        (d : EReal)
      = (((∑ i, (x i - (∑ i, x i) / d) * (x i - (∑ i, x i) / d)) / d : ℝ) : EReal) := by
  rw [zero_add, zero_add, ideal_var_coe x hd0]

/-- The variance identity between extended reals with a zero initial value of every sum. -/
theorem ereal_variance_identity_zero_add (x : I → ℝ) (d : ℝ) (hd : d = (Fintype.card I : ℝ)) (hd0 : d ≠ 0) :
    Ideal.div
        (0 + ∑ i, ((x i : EReal) - Ideal.div (0 + ∑ i, (x i : EReal)) (d : EReal))
          * ((x i : EReal) - Ideal.div (0 + ∑ i, (x i : EReal)) (d : EReal)))
        (d : EReal)
      = Ideal.div (0 + ∑ i, (x i : EReal) * (x i : EReal)) (d : EReal)
        - Ideal.div (0 + ∑ i, (x i : EReal)) (d : EReal) * Ideal.div (0 + ∑ i, (x i : EReal)) (d : EReal) := by
  rw [zero_add, zero_add, zero_add]
  exact ereal_variance_identity x d hd hd0

end Variance

/-! ## C. The affine folding -/

/-- Over the reals: `(g * (c - m)) * r + b = c * (g * r) + (b - m * (g * r))`: the normalised entry is an affine
    function of `c` with slope `g * r` and offset `b - m * (g * r)`. -/
theorem affine_fold (c m g r b : ℝ) : (g * (c - m)) * r + b = c * (g * r) + (b - m * (g * r)) := by
  ring

/-- The affine folding between extended reals, every letter a real read as an extended real. -/
theorem ereal_affine_fold (c m g r b : ℝ) :
    ((g : EReal) * ((c : EReal) - (m : EReal))) * (r : EReal) + (b : EReal)
      = (c : EReal) * ((g : EReal) * (r : EReal)) + ((b : EReal) - (m : EReal) * ((g : EReal) * (r : EReal))) := by
  simp only [← EReal.coe_sub, ← EReal.coe_mul, ← EReal.coe_add]
  rw [affine_fold]

/-- The affine folding between finite extended reals. -/
theorem ereal_affine_fold_of_isFin {c m g r b : EReal} (hc : IsFin c) (hm : IsFin m) (hg : IsFin g) (hr : IsFin r)
    (hb : IsFin b) : (g * (c - m)) * r + b = c * (g * r) + (b - m * (g * r)) := by
  obtain ⟨c, rfl⟩ := hc
  obtain ⟨m, rfl⟩ := hm
  obtain ⟨g, rfl⟩ := hg
  obtain ⟨r, rfl⟩ := hr
  obtain ⟨b, rfl⟩ := hb
  exact ereal_affine_fold c m g r b

/-! ## D. Sums over `Fin (A * B)` block by block -/

section Blocks

variable {M : Type*} [AddCommMonoid M]

/-- The `r`-th entry of the `t`-th block of length `B` lies below `A * B`. -/
theorem mul_add_lt {A B : ℕ} (t : Fin A) (r : Fin B) : t.val * B + r.val < A * B :=
  calc t.val * B + r.val < t.val * B + B := Nat.add_lt_add_left r.isLt _
    _ = (t.val + 1) * B := (Nat.succ_mul _ _).symm
    _ ≤ A * B := Nat.mul_le_mul_right _ t.isLt

/-- A sum over `Fin (A * B)` is the sum over the `A` blocks of the sums over the `B` entries of each block. -/
theorem sum_fin_mul {A B : ℕ} (f : Fin (A * B) → M) :
    ∑ i, f i = ∑ t : Fin A, ∑ r : Fin B, f ⟨t.val * B + r.val, mul_add_lt t r⟩ := by
  rw [← Equiv.sum_comp finProdFinEquiv f, Fintype.sum_prod_type]
  refine Finset.sum_congr rfl fun t _ => Finset.sum_congr rfl fun r _ => ?_
  refine congrArg f (Fin.ext ?_)
  show r.val + B * t.val = t.val * B + r.val
  rw [Nat.mul_comm, Nat.add_comm]

/-- The running sum over no blocks is zero. -/
theorem sum_range_zero_acc (g : ℕ → M) : ∑ t ∈ Finset.range 0, g t = 0 :=
  Finset.sum_range_zero g

/-- The running sum over `n + 1` blocks is the running sum over `n` blocks plus the `n`-th block. -/
theorem sum_range_succ_acc (g : ℕ → M) (n : ℕ) :
    ∑ t ∈ Finset.range (n + 1), g t = (∑ t ∈ Finset.range n, g t) + g n :=
  Finset.sum_range_succ g n

/-- A sequence that starts at zero and adds the `n`-th block at step `n` is the running sum of the blocks. -/
theorem eq_sum_range_of_rec (g S : ℕ → M) (h0 : S 0 = 0) (hs : ∀ n, S (n + 1) = S n + g n) (n : ℕ) :
    S n = ∑ t ∈ Finset.range n, g t := by
  induction n with
  | zero => rw [h0, Finset.sum_range_zero]
  | succ n ih => rw [hs, ih, Finset.sum_range_succ]

/-- The same up to a bound: a sequence that starts at zero and adds the `n`-th block at every step `n < A` is the
    running sum of the blocks up to `A`. -/
theorem eq_sum_range_of_rec_le (g S : ℕ → M) (A : ℕ) (h0 : S 0 = 0) (hs : ∀ n, n < A → S (n + 1) = S n + g n)
    (n : ℕ) (hn : n ≤ A) : S n = ∑ t ∈ Finset.range n, g t := by
  induction n with
  | zero => rw [h0, Finset.sum_range_zero]
  | succ n ih => rw [hs n hn, ih (Nat.le_of_succ_le hn), Finset.sum_range_succ]

/-- A sum over `Fin A` of a function of the index's value is the sum over the naturals below `A`. -/
theorem sum_fin_eq_sum_range (g : ℕ → M) (A : ℕ) : ∑ t : Fin A, g t.val = ∑ t ∈ Finset.range A, g t :=
  (Finset.sum_range g).symm

end Blocks

end Idealize.ShloMosaic.BatchNormAlgebra

end
-- ==== Proof.Region1.lean ====
/-
  The row-tiled combine-and-reduce region, read as whole arrays.

  The region has twenty grid points; point t loads rows 5000·t … 5000·t + 4999 of two 100000×128 arrays a and h and of
  a 100000×1 column of scales s, and the whole 1×128 bias row b.  It writes back, as rows 5000·t … of the first
  result, the combined block c[i, j] = (a[i, j] + h[i, j]·s[i]) + b[j]; the twenty blocks tile the result, so the first
  result array ends as the combine of the four arrays the region was entered with.

  Two 1×128 accumulators stay resident over the whole grid: the first point stores zero rows into them, every point
  adds the column sums of its combined block (of its squares, for the second) over its 5000 rows, and they are written
  back once, after the last point.  By induction on the point, after point n an accumulator holds at column j the sum
  of the block sums of points 0 … n; the twenty blocks of 5000 rows are the 100000 rows, so the two other result arrays
  end holding, at column j, the sum over all rows i of c[i, j] and of c[i, j]·c[i, j].
-/
import proofs.«124922_j63196148793943_1_alg».proof.Proof.Gen.KernelIdeal.Frame
import proofs.«124922_j63196148793943_1_alg».proof.Proof.Region1Pieces
import proofs.«124922_j63196148793943_1_alg».proof.Proof.Combine
import proofs.«124922_j63196148793943_1_alg».proof.Proof.LibBatchNormAlgebra
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Combine
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The whole-array combine of the four arrays the region is entered with. -/
abbrev comb (c : Dev nD) : S100000x128.Idx → EReal :=
  combine (V c (Pipeline.arrRef spec1 0)) (V c (Pipeline.arrRef spec1 1)) (V c (Pipeline.arrRef spec1 2))
    (V c (Pipeline.arrRef spec1 3))

/-- How the seven windows move over the grid: the row-block index of the two row-tiled inputs, of the scale column and
    of the row-tiled output is the point's number; every other block index is zero. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- Row p of block t is row 5000·t + p of the array. -/
theorem row_lt (t : Fin cfg1.N) (p : Fin 5000) : t.val * 5000 + p.val < 100000 := by
  have := t.isLt; have := p.isLt; have h : cfg1.N = 20 := N_1; omega

/-- The first row-tiled input's block t, read at (p, q), is the array at row 5000·t + p. -/
theorem read_0 (c : Dev nD) (t : Fin cfg1.N) (p : Fin 5000) (q : Fin 128) :
    iblk1 V c 0 t (ix2 p q)
      = (V c (Pipeline.arrRef spec1 0) : S100000x128.Idx → EReal) (ix2 ⟨t.val * 5000 + p.val, row_lt t p⟩ q) := by
  obtain ⟨⟨e0, e1⟩, -⟩ := idx_facts t
  show (V c (Pipeline.arrRef spec1 0) : S100000x128.Idx → EReal) (((cfg1.win 0).blk t).view.emb (ix2 p q)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The second row-tiled input's block t, read at (p, q), is the array at row 5000·t + p. -/
theorem read_1 (c : Dev nD) (t : Fin cfg1.N) (p : Fin 5000) (q : Fin 128) :
    iblk1 V c 1 t (ix2 p q)
      = (V c (Pipeline.arrRef spec1 1) : S100000x128.Idx → EReal) (ix2 ⟨t.val * 5000 + p.val, row_lt t p⟩ q) := by
  obtain ⟨-, ⟨e0, e1⟩, -⟩ := idx_facts t
  show (V c (Pipeline.arrRef spec1 1) : S100000x128.Idx → EReal) (((cfg1.win 1).blk t).view.emb (ix2 p q)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * q.val = q.val; omega

/-- The scale column's block t, read at row p, is the column at row 5000·t + p. -/
theorem read_2 (c : Dev nD) (t : Fin cfg1.N) (p : Fin 5000) :
    iblk1 V c 2 t (ix2 p (0 : Fin 1))
      = (V c (Pipeline.arrRef spec1 2) : S100000x1.Idx → EReal) (ix2 ⟨t.val * 5000 + p.val, row_lt t p⟩ (0 : Fin 1)) := by
  obtain ⟨-, -, ⟨e0, e1⟩, -⟩ := idx_facts t
  show (V c (Pipeline.arrRef spec1 2) : S100000x1.Idx → EReal) (((cfg1.win 2).blk t).view.emb (ix2 p (0 : Fin 1))) = _
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- The bias row's one block is the whole row. -/
theorem read_3 (c : Dev nD) (t : Fin cfg1.N) (q : Fin 128) :
    iblk1 V c 3 t (ix2 (0 : Fin 1) q) = (V c (Pipeline.arrRef spec1 3) : S1x128.Idx → EReal) (ix2 (0 : Fin 1) q) := by
  obtain ⟨-, -, -, ⟨e0, e1⟩, -⟩ := idx_facts t
  show (V c (Pipeline.arrRef spec1 3) : S1x128.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The combined block of point t's four loaded blocks, at (p, q), is the whole-array combine at row 5000·t + p. -/
theorem block_eq (c : Dev nD) (t : Fin cfg1.N) (p : Fin 5000) (q : Fin 128) :
    k1_pay3 (F := Ideal) (iblk1 V c 0 t) (iblk1 V c 1 t) (iblk1 V c 2 t) (iblk1 V c 3 t) (ix2 p q) = comb V c (ix2 ⟨t.val * 5000 + p.val, row_lt t p⟩ q) := by
  rw [pay3_apply, read_0 V c t p q, read_1 V c t p q, read_2 V c t p, read_3 V c t q]
  rfl

/-- What every point leaves in the row-tiled output's buffer: the combined block of its four loaded blocks. -/
theorem after4_eq (c : Dev nD) (t : Fin cfg1.N) :
    (outsAt1 V c t.val t.isLt).1 = k1_pay3 (F := Ideal) (iblk1 V c 0 t) (iblk1 V c 1 t) (iblk1 V c 2 t) (iblk1 V c 3 t) := by
  by_cases h0 : t.val % 20 = 0
  · rw [outsAt1_A V c t h0]
    dsimp only
    exact out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)
  · rw [outsAt1_B V c t h0]
    dsimp only
    exact out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)).2.1
      (outsAt1 V c (t.val - 1) (Nat.lt_of_le_of_lt (Nat.sub_le _ _) t.isLt)).2.2

/-- What point t writes back of the row-tiled output is block t of the whole-array combine. -/
theorem flushed_eq4 (c : Dev nD) (t : Fin cfg1.N) :
    (dat1 V c).flushed 4 t = ((cfg1.win 4).blk t).view.read (Elt Ideal) (comb V c) := by
  show (cfg1.win 4).cut (grid1.coords t) ((dat1 V c).after 4 t) = _
  rw [after1_4, after4_eq]
  obtain ⟨-, -, -, -, ⟨e0, e1⟩, -⟩ := idx_facts t
  funext j
  obtain ⟨p, q, rfl⟩ : ∃ (p : Fin 5000) (q : Fin 128), j = ix2 p q := ⟨j 0, j 1, eq_ix2 j⟩
  refine (block_eq V c t p q).trans ?_
  show _ = comb V c (((cfg1.win 4).blk t).view.emb (ix2 p q))
  refine congrArg _ (funext fun a => Fin.ext ?_)
  match a with
  | ⟨0, _⟩ => show t.val * 5000 + p.val = win1_4.index t (0 : Fin 2) * 5000 + 1 * p.val; omega
  | ⟨1, _⟩ => show q.val = win1_4.index t (1 : Fin 2) * 128 + 1 * q.val; omega

/-- An index of the row-tiled output lies in point t's block iff its row is among rows 5000·t … 5000·t + 4999. -/
theorem mem_blk4 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v45_0).slice (win1_4.rect t)).set ↔ _
  rw [View.set_slice_whole, Rect.mem_set_unit]
  exact Iff.rfl

/-- Every index of the row-tiled output is in the block of the point numbered by its row divided by 5000. -/
theorem cover4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by omega⟩, flush1_4 _, ?_⟩
  rw [mem_blk4]
  obtain ⟨-, -, -, -, ⟨e0, e1⟩, -⟩ := idx_facts ⟨(i 0).val / 5000, by omega⟩
  intro a
  match a with
  | ⟨0, _⟩ =>
    show win1_4.index _ (0 : Fin 2) * 5000 ≤ (i 0).val ∧ (i 0).val < win1_4.index _ (0 : Fin 2) * 5000 + 5000
    simp only at e0; omega
  | ⟨1, _⟩ =>
    show win1_4.index _ (1 : Fin 2) * 128 ≤ (i 1).val ∧ (i 1).val < win1_4.index _ (1 : Fin 2) * 128 + 128
    omega

/-- The row-tiled output array after the region is the whole-array combine of the four arrays it was entered with. -/
theorem final4 (c : Dev nD) : (dat1 V c).arrAt 4 cfg1.N = comb V c :=
  (dat1 V c).arrAt_eq_of_cover 4 _ (fun t _ => flushed_eq4 V c t) cover4

/-! ## The column-sum accumulator -/

/-- The sum over block t's 5000 rows of column q of the whole-array combine (zero past the last block). -/
def blk5 (c : Dev nD) (q : Fin 128) (t : ℕ) : EReal :=
  if h : t < 20 then ∑ r : Fin 5000, comb V c (ix2 ⟨t * 5000 + r.val, by have := r.isLt; omega⟩ q) else 0

/-- The first point leaves in the column-sum accumulator the zero row plus its block's column sums. -/
theorem acc5_zero (c : Dev nD) (hn : 0 < cfg1.N) :
    (outsAt1 V c 0 hn).2.1 = k1_pay4 (F := Ideal) (iblk1 V c 0 ⟨0, hn⟩) (iblk1 V c 1 ⟨0, hn⟩) (iblk1 V c 2 ⟨0, hn⟩) (iblk1 V c 3 ⟨0, hn⟩) (k1_pay1 (F := Ideal)) := by
  rw [outsAt1_A V c ⟨0, hn⟩ (Nat.zero_mod _)]
  dsimp only
  exact out_A_5 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _))
    (iblk1 V c 0 ⟨0, hn⟩) (iblk1 V c 1 ⟨0, hn⟩) (iblk1 V c 2 ⟨0, hn⟩) (iblk1 V c 3 ⟨0, hn⟩)

/-- A later point leaves in the column-sum accumulator what the point before left plus its block's column sums. -/
theorem acc5_succ (c : Dev nD) (n : ℕ) (hn : n + 1 < cfg1.N) :
    (outsAt1 V c (n + 1) hn).2.1
      = k1_pay4 (F := Ideal) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.1 := by
  have hN : cfg1.N = 20 := N_1
  have hB : ¬(⟨n + 1, hn⟩ : Fin cfg1.N).val % 20 = 0 := by dsimp only; omega
  rw [outsAt1_B V c ⟨n + 1, hn⟩ hB]
  dsimp only
  exact out_B_5 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩)
    (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    (outsAt1 V c n (Nat.lt_of_succ_lt hn)).2.1 (outsAt1 V c n (Nat.lt_of_succ_lt hn)).2.2

/-- After point n the column-sum accumulator holds, at column q, the sum of the block sums of points 0 … n: by
    induction on the point. -/
theorem inv5 (c : Dev nD) : ∀ (n : ℕ) (hn : n < cfg1.N) (q : Fin 128),
    (outsAt1 V c n hn).2.1 (ix2 (0 : Fin 1) q) = ∑ t ∈ Finset.range (n + 1), blk5 V c q t
  | 0, hn, q => by
    rw [acc5_zero V c hn, pay4_apply, pay1_apply, zero_add, Finset.sum_range_one]
    unfold blk5
    rw [dif_pos (by omega : 0 < 20)]
    exact Finset.sum_congr rfl fun p _ => block_eq V c ⟨0, hn⟩ p q
  | n + 1, hn, q => by
    have hN : cfg1.N = 20 := N_1
    rw [acc5_succ V c n hn, pay4_apply, inv5 c n (Nat.lt_of_succ_lt hn) q,
      Finset.sum_range_succ (fun t => blk5 V c q t) (n + 1)]
    refine congrArg (fun z : EReal => (∑ t ∈ Finset.range (n + 1), blk5 V c q t) + z) ?_
    unfold blk5
    rw [dif_pos (by omega : n + 1 < 20)]
    exact Finset.sum_congr rfl fun p _ => block_eq V c ⟨n + 1, hn⟩ p q

/-- The twenty block sums add up to the sum over all 100000 rows. -/
theorem sum_blk5 (c : Dev nD) (q : Fin 128) :
    ∑ t ∈ Finset.range 20, blk5 V c q t = ∑ i : Fin 100000, comb V c (ix2 i q) := by
  rw [← BatchNormAlgebra.sum_fin_eq_sum_range (fun t => blk5 V c q t) 20]
  refine Eq.trans ?_ (BatchNormAlgebra.sum_fin_mul (A := 20) (B := 5000)
    (fun i : Fin (20 * 5000) => comb V c (ix2 i q))).symm
  refine Finset.sum_congr rfl fun t _ => ?_
  unfold blk5
  rw [dif_pos t.isLt]

/-- The column-sum row of the whole-array combine: at column j, the sum over all 100000 rows. -/
def row5 (c : Dev nD) : S1x128.Idx → EReal := fun j => ∑ i : Fin 100000, comb V c (ix2 i (j 1))

/-- After the last point the column-sum accumulator holds that row. -/
theorem last5 (c : Dev nD) (hn : 19 < cfg1.N) : (outsAt1 V c 19 hn).2.1 = row5 V c := by
  funext j
  obtain ⟨u, q, rfl⟩ : ∃ (u : Fin 1) (q : Fin 128), j = ix2 u q := ⟨j 0, j 1, eq_ix2 j⟩
  obtain rfl : u = 0 := Subsingleton.elim _ _
  exact (inv5 V c 19 hn q).trans (sum_blk5 V c q)

/-- The same at the point numbered 19, however it is written. -/
theorem last5_at (c : Dev nD) (t : Fin cfg1.N) (h19 : t.val = 19) :
    (outsAt1 V c t.val t.isLt).2.1 = row5 V c := by
  funext j
  obtain ⟨u, q, rfl⟩ : ∃ (u : Fin 1) (q : Fin 128), j = ix2 u q := ⟨j 0, j 1, eq_ix2 j⟩
  obtain rfl : u = 0 := Subsingleton.elim _ _
  refine (inv5 V c t.val t.isLt q).trans ?_
  rw [h19]
  exact sum_blk5 V c q

/-- The one write-back of the column-sum accumulator, after the last point, writes that row: the block is the whole
    array. -/
theorem flushed_eq5 (c : Dev nD) (t : Fin cfg1.N) (hf : (cfg1.win 5).flush t = true) :
    (dat1 V c).flushed 5 t = ((cfg1.win 5).blk t).view.read (Elt Ideal) (row5 V c) := by
  have hN : cfg1.N = 20 := N_1
  have h19 : t.val = 19 := by have := (flush1_5 t).mp hf; have := t.isLt; omega
  show (cfg1.win 5).cut (grid1.coords t) ((dat1 V c).after 5 t) = _
  rw [after1_5, last5_at V c t h19]
  generalize row5 V c = G
  obtain ⟨-, -, -, -, -, ⟨e5a, e5b⟩, ⟨e6a, e6b⟩⟩ := idx_facts t
  funext j
  obtain ⟨u, q, rfl⟩ : ∃ (u : Fin 1) (q : Fin 128), j = ix2 u q := ⟨j 0, j 1, eq_ix2 j⟩
  show G (ix2 u q) = G (((cfg1.win 5).blk t).view.emb (ix2 u q))
  refine congrArg G (funext fun a => Fin.ext ?_)
  match a with
  | ⟨0, _⟩ => show u.val = win1_5.index t (0 : Fin 2) * 1 + 1 * u.val; omega
  | ⟨1, _⟩ => show q.val = win1_5.index t (1 : Fin 2) * 128 + 1 * q.val; omega

/-- Every index of the column-sum array is in the last point's block. -/
theorem cover5 (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  have hN : cfg1.N = 20 := N_1
  have h19 : 19 < cfg1.N := by omega
  refine ⟨⟨19, h19⟩, (flush1_5 ⟨19, h19⟩).mpr rfl, ?_⟩
  show i ∈ ((View.whole main_v45_1).slice (win1_5.rect ⟨19, h19⟩)).set
  rw [View.set_slice_whole, Rect.mem_set_unit]
  obtain ⟨-, -, -, -, -, ⟨e5a, e5b⟩, ⟨e6a, e6b⟩⟩ := idx_facts ⟨19, h19⟩
  intro a
  match a with
  | ⟨0, _⟩ =>
    show win1_5.index ⟨19, h19⟩ (0 : Fin 2) * 1 ≤ (i 0).val ∧ (i 0).val < win1_5.index ⟨19, h19⟩ (0 : Fin 2) * 1 + 1
    omega
  | ⟨1, _⟩ =>
    show win1_5.index ⟨19, h19⟩ (1 : Fin 2) * 128 ≤ (i 1).val ∧ (i 1).val < win1_5.index ⟨19, h19⟩ (1 : Fin 2) * 128 + 128
    omega

/-- The column-sum array after the region: at column j, the sum over all 100000 rows of the whole-array combine. -/
theorem final5 (c : Dev nD) :
    (dat1 V c).arrAt 5 cfg1.N = fun j => ∑ i : Fin 100000, comb V c (ix2 i (j 1)) :=
  (dat1 V c).arrAt_eq_of_cover 5 (row5 V c) (flushed_eq5 V c) cover5

/-! ## The column-sum-of-squares accumulator -/

/-- The sum over block t's 5000 rows of column q of the squared whole-array combine (zero past the last block). -/
def blk6 (c : Dev nD) (q : Fin 128) (t : ℕ) : EReal :=
  if h : t < 20 then ∑ r : Fin 5000, comb V c (ix2 ⟨t * 5000 + r.val, by have := r.isLt; omega⟩ q) * comb V c (ix2 ⟨t * 5000 + r.val, by have := r.isLt; omega⟩ q) else 0

/-- The first point leaves in the column-sum-of-squares accumulator the zero row plus its block's column sums. -/
theorem acc6_zero (c : Dev nD) (hn : 0 < cfg1.N) :
    (outsAt1 V c 0 hn).2.2 = k1_pay5 (F := Ideal) (iblk1 V c 0 ⟨0, hn⟩) (iblk1 V c 1 ⟨0, hn⟩) (iblk1 V c 2 ⟨0, hn⟩) (iblk1 V c 3 ⟨0, hn⟩) (k1_pay2 (F := Ideal)) := by
  rw [outsAt1_A V c ⟨0, hn⟩ (Nat.zero_mod _)]
  dsimp only
  exact out_A_6 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _))
    (iblk1 V c 0 ⟨0, hn⟩) (iblk1 V c 1 ⟨0, hn⟩) (iblk1 V c 2 ⟨0, hn⟩) (iblk1 V c 3 ⟨0, hn⟩)

/-- A later point leaves in the column-sum-of-squares accumulator what the point before left plus its block's column sums. -/
theorem acc6_succ (c : Dev nD) (n : ℕ) (hn : n + 1 < cfg1.N) :
    (outsAt1 V c (n + 1) hn).2.2
      = k1_pay5 (F := Ideal) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2 := by
  have hN : cfg1.N = 20 := N_1
  have hB : ¬(⟨n + 1, hn⟩ : Fin cfg1.N).val % 20 = 0 := by dsimp only; omega
  rw [outsAt1_B V c ⟨n + 1, hn⟩ hB]
  dsimp only
  exact out_B_6 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩)
    (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    (outsAt1 V c n (Nat.lt_of_succ_lt hn)).2.1 (outsAt1 V c n (Nat.lt_of_succ_lt hn)).2.2

/-- After point n the column-sum-of-squares accumulator holds, at column q, the sum of the block sums of points 0 … n: by
    induction on the point. -/
theorem inv6 (c : Dev nD) : ∀ (n : ℕ) (hn : n < cfg1.N) (q : Fin 128),
    (outsAt1 V c n hn).2.2 (ix2 (0 : Fin 1) q) = ∑ t ∈ Finset.range (n + 1), blk6 V c q t
  | 0, hn, q => by
    rw [acc6_zero V c hn, pay5_apply, pay2_apply, zero_add, Finset.sum_range_one]
    unfold blk6
    rw [dif_pos (by omega : 0 < 20)]
    exact Finset.sum_congr rfl fun p _ => by rw [block_eq V c ⟨0, hn⟩ p q]
  | n + 1, hn, q => by
    have hN : cfg1.N = 20 := N_1
    rw [acc6_succ V c n hn, pay5_apply, inv6 c n (Nat.lt_of_succ_lt hn) q,
      Finset.sum_range_succ (fun t => blk6 V c q t) (n + 1)]
    refine congrArg (fun z : EReal => (∑ t ∈ Finset.range (n + 1), blk6 V c q t) + z) ?_
    unfold blk6
    rw [dif_pos (by omega : n + 1 < 20)]
    exact Finset.sum_congr rfl fun p _ => by rw [block_eq V c ⟨n + 1, hn⟩ p q]

/-- The twenty block sums add up to the sum over all 100000 rows. -/
theorem sum_blk6 (c : Dev nD) (q : Fin 128) :
    ∑ t ∈ Finset.range 20, blk6 V c q t = ∑ i : Fin 100000, comb V c (ix2 i q) * comb V c (ix2 i q) := by
  rw [← BatchNormAlgebra.sum_fin_eq_sum_range (fun t => blk6 V c q t) 20]
  refine Eq.trans ?_ (BatchNormAlgebra.sum_fin_mul (A := 20) (B := 5000)
    (fun i : Fin (20 * 5000) => comb V c (ix2 i q) * comb V c (ix2 i q))).symm
  refine Finset.sum_congr rfl fun t _ => ?_
  unfold blk6
  rw [dif_pos t.isLt]

/-- The column-sum-of-squares row of the whole-array combine: at column j, the sum over all 100000 rows. -/
def row6 (c : Dev nD) : S1x128.Idx → EReal := fun j => ∑ i : Fin 100000, comb V c (ix2 i (j 1)) * comb V c (ix2 i (j 1))

/-- After the last point the column-sum-of-squares accumulator holds that row. -/
theorem last6 (c : Dev nD) (hn : 19 < cfg1.N) : (outsAt1 V c 19 hn).2.2 = row6 V c := by
  funext j
  obtain ⟨u, q, rfl⟩ : ∃ (u : Fin 1) (q : Fin 128), j = ix2 u q := ⟨j 0, j 1, eq_ix2 j⟩
  obtain rfl : u = 0 := Subsingleton.elim _ _
  exact (inv6 V c 19 hn q).trans (sum_blk6 V c q)

/-- The same at the point numbered 19, however it is written. -/
theorem last6_at (c : Dev nD) (t : Fin cfg1.N) (h19 : t.val = 19) :
    (outsAt1 V c t.val t.isLt).2.2 = row6 V c := by
  funext j
  obtain ⟨u, q, rfl⟩ : ∃ (u : Fin 1) (q : Fin 128), j = ix2 u q := ⟨j 0, j 1, eq_ix2 j⟩
  obtain rfl : u = 0 := Subsingleton.elim _ _
  refine (inv6 V c t.val t.isLt q).trans ?_
  rw [h19]
  exact sum_blk6 V c q

/-- The one write-back of the column-sum-of-squares accumulator, after the last point, writes that row: the block is the whole
    array. -/
theorem flushed_eq6 (c : Dev nD) (t : Fin cfg1.N) (hf : (cfg1.win 6).flush t = true) :
    (dat1 V c).flushed 6 t = ((cfg1.win 6).blk t).view.read (Elt Ideal) (row6 V c) := by
  have hN : cfg1.N = 20 := N_1
  have h19 : t.val = 19 := by have := (flush1_6 t).mp hf; have := t.isLt; omega
  show (cfg1.win 6).cut (grid1.coords t) ((dat1 V c).after 6 t) = _
  rw [after1_6, last6_at V c t h19]
  generalize row6 V c = G
  obtain ⟨-, -, -, -, -, ⟨e5a, e5b⟩, ⟨e6a, e6b⟩⟩ := idx_facts t
  funext j
  obtain ⟨u, q, rfl⟩ : ∃ (u : Fin 1) (q : Fin 128), j = ix2 u q := ⟨j 0, j 1, eq_ix2 j⟩
  show G (ix2 u q) = G (((cfg1.win 6).blk t).view.emb (ix2 u q))
  refine congrArg G (funext fun a => Fin.ext ?_)
  match a with
  | ⟨0, _⟩ => show u.val = win1_6.index t (0 : Fin 2) * 1 + 1 * u.val; omega
  | ⟨1, _⟩ => show q.val = win1_6.index t (1 : Fin 2) * 128 + 1 * q.val; omega

/-- Every index of the column-sum-of-squares array is in the last point's block. -/
theorem cover6 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  have hN : cfg1.N = 20 := N_1
  have h19 : 19 < cfg1.N := by omega
  refine ⟨⟨19, h19⟩, (flush1_6 ⟨19, h19⟩).mpr rfl, ?_⟩
  show i ∈ ((View.whole main_v45_2).slice (win1_6.rect ⟨19, h19⟩)).set
  rw [View.set_slice_whole, Rect.mem_set_unit]
  obtain ⟨-, -, -, -, -, ⟨e5a, e5b⟩, ⟨e6a, e6b⟩⟩ := idx_facts ⟨19, h19⟩
  intro a
  match a with
  | ⟨0, _⟩ =>
    show win1_6.index ⟨19, h19⟩ (0 : Fin 2) * 1 ≤ (i 0).val ∧ (i 0).val < win1_6.index ⟨19, h19⟩ (0 : Fin 2) * 1 + 1
    omega
  | ⟨1, _⟩ =>
    show win1_6.index ⟨19, h19⟩ (1 : Fin 2) * 128 ≤ (i 1).val ∧ (i 1).val < win1_6.index ⟨19, h19⟩ (1 : Fin 2) * 128 + 128
    omega

/-- The column-sum-of-squares array after the region: at column j, the sum over all 100000 rows of the squared whole-array combine. -/
theorem final6 (c : Dev nD) :
    (dat1 V c).arrAt 6 cfg1.N = fun j => ∑ i : Fin 100000, comb V c (ix2 i (j 1)) * comb V c (ix2 i (j 1)) :=
  (dat1 V c).arrAt_eq_of_cover 6 (row6 V c) (flushed_eq6 V c) cover6

end Cert.KernelIdeal.Region1

end
-- ==== Proof.Region2.lean ====
/-
  A row-tiled normalize-rectify-residual step, read as one array.

  The region has twenty grid points; point t loads rows 5000·t … 5000·t+4999 of the activations and of the residual
  (both 100000×128) and the whole of a scale row and a shift row (both 1×128), computes
  max(a·scale + shift, 0) + r on the block, and writes the 5000×128 result back as rows 5000·t … of the output.
  Entry (p, q) of block t depends only on row 5000·t + p of the two arrays and lane q of the two rows, so it is entry
  (5000·t + p, q) of the step applied to the whole arrays; the twenty blocks tile the output, so the output array ends
  as that step of the four arrays the region was entered with.
-/
import proofs.«124922_j63196148793943_1_alg».proof.Proof.Gen.KernelIdeal.Frame
import proofs.«124922_j63196148793943_1_alg».proof.Proof.NormRelu
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.NormRelu
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a rank-2 block, spelt as a constant function. -/
theorem hz2 : (![0, 0] : Fin 2 → Nat) = fun _ => 0 := funext fun a => by fin_cases a <;> rfl

/-- The body's one store is the normalize-rectify-residual step on its four loaded blocks. -/
theorem pay_eq (v0 : Vec Ideal S5000x128 .f32) (v2 v6 : Vec Ideal S1x128 .f32) (v12 : Vec Ideal S5000x128 .f32) :
    k2_pay1 v0 v2 v6 v12 = normReluBlock v0 v2 v6 v12 := rfl

/-- How the five windows move over the grid: the row-block index of the activations, of the residual and of the result
    is the point's number; the scale and shift rows are one block; every column-block index is zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row 5000·t + p is a row of the array. -/
theorem row_lt (t : Fin cfg2.N) (p : Fin 5000) : t.val * 5000 + p.val < 100000 := by
  have := t.isLt; have := p.isLt; have h : cfg2.N = 20 := N_2; omega

/-- A row block of the activations, read at (p, q), is the array at row 5000·t + p. -/
theorem read_a (c : Dev nD) (t : Fin cfg2.N) (p : Fin 5000) (q : Fin 128) :
    iblk2 V c 0 t (ix2 p q) = (V c main_v45_0 : S100000x128.Idx → EReal) (ix2 ⟨t.val * 5000 + p.val, row_lt t p⟩ q) := by
  obtain ⟨e0, e1, -, -, -, -, -, -, -, -⟩ := idx_facts t
  show (V c main_v45_0 : S100000x128.Idx → EReal) (((cfg2.win 0).blk t).view.emb (ix2 p q)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * q.val = q.val; omega

/-- A row block of the residual, read at (p, q), is the array at row 5000·t + p. -/
theorem read_r (c : Dev nD) (t : Fin cfg2.N) (p : Fin 5000) (q : Fin 128) :
    iblk2 V c 1 t (ix2 p q) = (V c main_arg0 : S100000x128.Idx → EReal) (ix2 ⟨t.val * 5000 + p.val, row_lt t p⟩ q) := by
  obtain ⟨-, -, e2, e3, -, -, -, -, -, -⟩ := idx_facts t
  show (V c main_arg0 : S100000x128.Idx → EReal) (((cfg2.win 1).blk t).view.emb (ix2 p q)) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * q.val = q.val; omega

/-- The scale row's one block is the whole row. -/
theorem read_sc (c : Dev nD) (t : Fin cfg2.N) (q : Fin 128) :
    iblk2 V c 2 t (ix2 0 q) = (V c main_v56 : S1x128.Idx → EReal) (ix2 0 q) := by
  obtain ⟨-, -, -, -, e4, e5, -, -, -, -⟩ := idx_facts t
  show (V c main_v56 : S1x128.Idx → EReal) (((cfg2.win 2).blk t).view.emb (ix2 0 q)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- The shift row's one block is the whole row. -/
theorem read_sh (c : Dev nD) (t : Fin cfg2.N) (q : Fin 128) :
    iblk2 V c 3 t (ix2 0 q) = (V c main_v59 : S1x128.Idx → EReal) (ix2 0 q) := by
  obtain ⟨-, -, -, -, -, -, e6, e7, -, -⟩ := idx_facts t
  show (V c main_v59 : S1x128.Idx → EReal) (((cfg2.win 3).blk t).view.emb (ix2 0 q)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- What point t writes back is block t of the step applied to the whole arrays. -/
theorem flushed_eq (c : Dev nD) (t : Fin cfg2.N) :
    (dat2 V c).flushed 4 t
      = ((cfg2.win 4).blk t).view.read (Elt Ideal) (normReluRes (V c main_v45_0) (V c main_arg0) (V c main_v56) (V c main_v59)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S1x128) hz2]
  rw [pay_eq]
  obtain ⟨-, -, -, -, -, -, -, -, e8, e9⟩ := idx_facts t
  funext j
  obtain ⟨p, q, rfl⟩ : ∃ (p : Fin 5000) (q : Fin 128), j = ix2 p q := ⟨j 0, j 1, eq_ix2 j⟩
  refine (normReluBlock_apply _ _ _ _ p q).trans ?_
  show _ = normReluRes (V c main_v45_0) (V c main_arg0) (V c main_v56) (V c main_v59) (((cfg2.win 4).blk t).view.emb (ix2 p q))
  have hemb : ((cfg2.win 4).blk t).view.emb (ix2 p q)
      = (ix2 ⟨t.val * 5000 + p.val, row_lt t p⟩ q : S100000x128.Idx) := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  rw [hemb, read_a V c t p q, read_r V c t p q, read_sc V c t q, read_sh V c t q]
  rfl

/-- An index of the result lies in point t's block iff its row is in rows 5000·t … 5000·t+4999. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v60).slice (win2_4.rect t)).set ↔ _
  rw [View.set_slice_whole, Rect.mem_set_unit]
  exact Iff.rfl

/-- Every index of the result is in the block of the point numbered by its row divided by 5000. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  refine ⟨⟨(i 0).val / 5000, by omega⟩, flush2_4 _, ?_⟩
  rw [mem_blk]
  obtain ⟨-, -, -, -, -, -, -, -, e8, e9⟩ := idx_facts ⟨(i 0).val / 5000, by omega⟩
  intro a
  match a with
  | ⟨0, _⟩ => show win2_4.index _ (0 : Fin 2) * 5000 ≤ (i 0).val ∧ (i 0).val < win2_4.index _ (0 : Fin 2) * 5000 + 5000; simp only at e8; omega
  | ⟨1, _⟩ => show win2_4.index _ (1 : Fin 2) * 128 ≤ (i 1).val ∧ (i 1).val < win2_4.index _ (1 : Fin 2) * 128 + 128; omega

/-- The result array after the region is the step applied to the four arrays it was entered with. -/
theorem final (c : Dev nD) :
    (dat2 V c).arrAt 4 cfg2.N = normReluRes (V c main_v45_0) (V c main_arg0) (V c main_v56) (V c main_v59) :=
  (dat2 V c).arrAt_eq_of_cover 4 _ (fun t _ => flushed_eq V c t) cover

end Cert.KernelIdeal.Region2

end
-- ==== Proof.Region3.lean ====
/-
  A row-tiled matrix product, read as one array.

  The region has twenty grid points; point t loads rows 5000·t … 5000·t+4999 of a 100000×128 array and the whole of a
  128×128 array, multiplies them on the matrix unit into a zero accumulator, and writes the 5000×128 product back as
  rows 5000·t … of the result.  Rounding the operands to bf16 is the identity on extended reals, so entry (p, q) of a
  block is the plain sum over k of x[5000·t+p, k]·w[k, q]: block t of the full product.  The twenty blocks tile the
  result, so the result array ends as the full product of the two arrays the region was entered with.
-/
import proofs.«124922_j63196148793943_1_alg».proof.Proof.Gen.KernelIdeal.Frame
import proofs.«124922_j63196148793943_1_alg».proof.Proof.MatmulEntry
import Idealize.ShloMosaic.Lib.Pipeline.Value
import Idealize.ShloMosaic.Lib.ValueIdx

set_option maxRecDepth 16384

noncomputable section

namespace Cert.KernelIdeal.Region3

open Cert.KernelIdeal Cert.KernelIdeal.Gen Cert.KernelIdeal.MatmulEntry
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's one store is the matrix-unit product of its two loaded blocks (the left one first recast to its own shape). -/
theorem pay_eq (x0 : Vec Ideal S5000x128 .f32) (x1 : Vec Ideal S128x128 .f32) : k3_pay1 x0 x1 = blockProd x0 x1 := by
  unfold k3_pay1
  simp only [shapeCast_self]
  rfl

/-- How the three windows move over the grid: the row-block index of the left operand and of the result is the point's
    number, every other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A row block of the left operand, read at (p, k), is the array at row 5000·t + p. -/
theorem read_x (c : Dev nD) (t : Fin cfg3.N) (p : Fin 5000) (k : Fin 128) :
    iblk3 V c 0 t (ix2 p k) = (V c main_v60 : S100000x128.Idx → EReal) (ix2 ⟨t.val * 5000 + p.val, by have := t.isLt; have := p.isLt; have h : cfg3.N = 20 := N_3; omega⟩ k) := by
  obtain ⟨e0, e1, -, -, -, -⟩ := idx_facts t
  show (V c main_v60 : S100000x128.Idx → EReal) (((cfg3.win 0).blk t).view.emb (ix2 p k)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- The right operand's one block is the whole array. -/
theorem read_w (c : Dev nD) (t : Fin cfg3.N) (k : Fin 128) (q : Fin 128) :
    iblk3 V c 1 t (ix2 k q) = (V c main_arg7 : S128x128.Idx → EReal) (ix2 k q) := by
  obtain ⟨-, -, e2, e3, -, -⟩ := idx_facts t
  show (V c main_arg7 : S128x128.Idx → EReal) (((cfg3.win 1).blk t).view.emb (ix2 k q)) = _
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- What point t writes back is block t of the full product. -/
theorem flushed_eq (c : Dev nD) (t : Fin cfg3.N) :
    (dat3 V c).flushed 2 t = ((cfg3.win 2).blk t).view.read (Elt Ideal) (fullProd (V c main_v60) (V c main_arg7)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128x128) hz2]
  rw [pay_eq]
  obtain ⟨-, -, -, -, e4, e5⟩ := idx_facts t
  funext j
  obtain ⟨p, q, rfl⟩ : ∃ (p : Fin 5000) (q : Fin 128), j = ix2 p q := ⟨j 0, j 1, eq_ix2 j⟩
  refine (blockProd_apply _ _ p q).trans ?_
  show _ = fullProd (V c main_v60) (V c main_arg7) (((cfg3.win 2).blk t).view.emb (ix2 p q))
  have hemb : ((cfg3.win 2).blk t).view.emb (ix2 p q)
      = (ix2 ⟨t.val * 5000 + p.val, by have := t.isLt; have := p.isLt; have h : cfg3.N = 20 := N_3; omega⟩ q : S100000x128.Idx) := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  rw [hemb]
  show _ = ∑ k : Fin 128, _
  exact Finset.sum_congr rfl fun k _ => by rw [read_x V c t p k, read_w V c t k q]

/-- An index of the result lies in point t's block iff its row is in rows 5000·t … 5000·t+4999. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every index of the result is in the block of the point numbered by its row divided by 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by omega⟩, flush3_2 _, ?_⟩
  rw [mem_blk]
  obtain ⟨-, -, -, -, e4, e5⟩ := idx_facts ⟨(i 0).val / 5000, by omega⟩
  intro a
  match a with
  | ⟨0, _⟩ => show win3_2.index _ (0 : Fin 2) * 5000 ≤ (i 0).val ∧ (i 0).val < win3_2.index _ (0 : Fin 2) * 5000 + 5000; simp only at e4; omega
  | ⟨1, _⟩ => show win3_2.index _ (1 : Fin 2) * 128 ≤ (i 1).val ∧ (i 1).val < win3_2.index _ (1 : Fin 2) * 128 + 128; omega

/-- The result array after the region is the full product of the two arrays it was entered with. -/
theorem final (c : Dev nD) : (dat3 V c).arrAt 2 cfg3.N = fullProd (V c main_v60) (V c main_arg7) :=
  (dat3 V c).arrAt_eq_of_cover 2 _ (fun t _ => flushed_eq V c t) cover

end Cert.KernelIdeal.Region3

end
-- ==== Proof.Region4Pieces.lean ====
/-
  One grid point of the row-tiled combine-and-reduce region, read as values.

  A point holds four loaded blocks: two 5000×128 blocks a and h, a 5000×1 column of scales s and the 1×128 bias row b.
  It stores the combined block c[p, q] = (a[p, q] + h[p, q]·s[p]) + b[q], and adds to two 1×128 accumulators the column
  sums of c and of c·c over the block's 5000 rows; the first point stores a zero row into each accumulator and reads
  it back before adding.

  First, for any float values: what each of the two cases of the body (the first point; a later point) leaves in each
  of the three outputs is the corresponding pure term of the body over the loaded blocks — the combined block, and the
  new accumulator rows over the old ones (the zero rows at the first point).  Then, over the extended reals, those
  terms read at an entry: the zero rows are zero; the combined block is the formula above; a new accumulator entry is
  the old entry plus the sum over the 5000 rows of the block's column (of its squares, for the second accumulator).
-/
import proofs.«124922_j63196148793943_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Ideal (multiReduction_add_single)
open scoped BigOperators

section Pieces

variable {F : FTy → Type} [FloatOps F]

/-- The zero offsets of a whole-block access, as a constant function. -/
theorem hz : (![0, 0] : Fin 2 → Nat) = fun _ => 0 := funext fun a => by fin_cases a <;> rfl

/-! ## What each case leaves in each output: the found pieces read as payloads -/

/-- At the first point the body leaves in the row-block output the combined block of its four loaded blocks. -/
theorem out_A_4 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond4_0 i) (x0 : Vec F S5000x128 .f32) (x1 : Vec F S5000x128 .f32) (x2 : Vec F S5000x1 .f32) (x3 : Vec F S1x128 .f32) :
    out4_A_4 c i a1 h1 a2 h2 a3 h3 a4 h4 a5 h5 a6 h6 a7 h7 hc x0 x1 x2 x3 = k4_pay3 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At a later point the body leaves in the row-block output the combined block of its four loaded blocks. -/
theorem out_B_4 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond4_0 i) (x0 : Vec F S5000x128 .f32) (x1 : Vec F S5000x128 .f32) (x2 : Vec F S5000x1 .f32) (x3 : Vec F S1x128 .f32) (xo5 xo6 : Vec F S1x128 .f32) :
    out4_B_4 c i a1 h1 a2 h2 a3 h3 a4 h4 a5 h5 a6 h6 a7 h7 hc x0 x1 x2 x3 xo5 xo6 = k4_pay3 x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At the first point the body zeroes the column-sum accumulator, reads the zero row back and leaves it plus the
    column sums of the combined block. -/
theorem out_A_5 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond4_0 i) (x0 : Vec F S5000x128 .f32) (x1 : Vec F S5000x128 .f32) (x2 : Vec F S5000x1 .f32) (x3 : Vec F S1x128 .f32) :
    out4_A_5 c i a1 h1 a2 h2 a3 h3 a4 h4 a5 h5 a6 h6 a7 h7 hc x0 x1 x2 x3 = k4_pay4 x0 x1 x2 x3 k4_pay1 := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At a later point the body leaves in the column-sum accumulator what it held plus the column sums of the combined
    block. -/
theorem out_B_5 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond4_0 i) (x0 : Vec F S5000x128 .f32) (x1 : Vec F S5000x128 .f32) (x2 : Vec F S5000x1 .f32) (x3 : Vec F S1x128 .f32) (xo5 xo6 : Vec F S1x128 .f32) :
    out4_B_5 c i a1 h1 a2 h2 a3 h3 a4 h4 a5 h5 a6 h6 a7 h7 hc x0 x1 x2 x3 xo5 xo6 = k4_pay4 x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At the first point the body zeroes the column-sum-of-squares accumulator, reads the zero row back and leaves it
    plus the column sums of the squared combined block. -/
theorem out_A_6 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond4_0 i) (x0 : Vec F S5000x128 .f32) (x1 : Vec F S5000x128 .f32) (x2 : Vec F S5000x1 .f32) (x3 : Vec F S1x128 .f32) :
    out4_A_6 c i a1 h1 a2 h2 a3 h3 a4 h4 a5 h5 a6 h6 a7 h7 hc x0 x1 x2 x3 = k4_pay5 x0 x1 x2 x3 k4_pay2 := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

/-- At a later point the body leaves in the column-sum-of-squares accumulator what it held plus the column sums of the
    squared combined block. -/
theorem out_B_6 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond4_0 i) (x0 : Vec F S5000x128 .f32) (x1 : Vec F S5000x128 .f32) (x2 : Vec F S5000x1 .f32) (x3 : Vec F S1x128 .f32) (xo5 xo6 : Vec F S1x128 .f32) :
    out4_B_6 c i a1 h1 a2 h2 a3 h3 a4 h4 a5 h5 a6 h6 a7 h7 hc x0 x1 x2 x3 xo5 xo6 = k4_pay5 x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S5000x1) hz, View.ld_unit_zero (S := S1x128) hz]

end Pieces

/-- A column broadcast over many columns: a [a, 1] array spread to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The combined block at row p and column q: the first block's entry plus the second block's entry times the row's
    scale, plus the column's bias. -/
theorem pay3_apply (x0 x1 : Vec Ideal S5000x128 .f32) (x2 : Vec Ideal S5000x1 .f32) (x3 : Vec Ideal S1x128 .f32)
    (p : Fin 5000) (q : Fin 128) :
    k4_pay3 (F := Ideal) x0 x1 x2 x3 (ix2 p q)
      = ((x0 (ix2 p q) : EReal) + x1 (ix2 p q) * x2 (ix2 p (0 : Fin 1))) + x3 (ix2 (0 : Fin 1) q) := by
  unfold k4_pay3
  show ((shapeCast S5000x128 x0 shapeCasts_S5000x128_S5000x128 (ix2 p q) : EReal)
      + shapeCast S5000x128 x1 shapeCasts_S5000x128_S5000x128 (ix2 p q)
        * broadcastTo S5000x128 (shapeCast S5000x1 x2 shapeCasts_S5000x1_S5000x1) broadcasts_S5000x1_S5000x128 (ix2 p q))
      + broadcastTo S5000x128 (shapeCast S1x128 x3 shapeCasts_S1x128_S1x128) broadcasts_S1x128_S5000x128 (ix2 p q) = _
  rw [shapeCast_self, shapeCast_self, shapeCast_self, shapeCast_self]
  rw [broadcastTo_1b_ab_apply x3 broadcasts_S1x128_S5000x128 p q,
    broadcastTo_a1_ab_apply x2 broadcasts_S5000x1_S5000x128 p q]

/-! ## The payloads read at an entry, over the extended reals -/

/-- The zero row the first point stores in the column-sum accumulator: every entry is zero. -/
theorem pay1_apply (j : S1x128.Idx) : k4_pay1 (F := Ideal) j = (0 : EReal) := by
  show Ideal.ofBits .f32 0x00000000#32 = 0
  exact Ideal.ofBits_zero_f32

/-- The zero row the first point stores in the column-sum-of-squares accumulator: every entry is zero. -/
theorem pay2_apply (j : S1x128.Idx) : k4_pay2 (F := Ideal) j = (0 : EReal) := by
  show Ideal.ofBits .f32 0x00000000#32 = 0
  exact Ideal.ofBits_zero_f32

/-- The index the reduction over the rows inserts: row p put in front of column q is the entry (p, q). -/
theorem lift_eq (p : Fin 5000) (q : Fin 128) :
    (reduces_S5000x128_S128.lift (ix1 q) p : S5000x128.Idx) = ix2 p q :=
  funext fun a => by match a with | ⟨0, _⟩ => rfl | ⟨1, _⟩ => rfl

/-- The new column-sum row at column q: the old entry plus the sum over the block's 5000 rows of the combined block's
    column q. -/
theorem pay4_apply (x0 x1 : Vec Ideal S5000x128 .f32) (x2 : Vec Ideal S5000x1 .f32) (x3 acc : Vec Ideal S1x128 .f32)
    (q : Fin 128) :
    k4_pay4 (F := Ideal) x0 x1 x2 x3 acc (ix2 0 q)
      = (acc (ix2 0 q) : EReal) + ∑ p : Fin 5000, (k4_pay3 (F := Ideal) x0 x1 x2 x3 (ix2 p q) : EReal) := by
  unfold k4_pay4
  show (shapeCast S1x128 acc shapeCasts_S1x128_S1x128 (ix2 0 q) : EReal)
    + (shapeCast S1x128 _ shapeCasts_S128_S1x128 (ix2 0 q) : EReal) = _
  rw [shapeCast_self]
  refine congrArg (fun z : EReal => acc (ix2 0 q) + z) ?_
  refine (shapeCast_a_1a_apply _ shapeCasts_S128_S1x128 0 q).trans ?_
  refine (multiReduction_add_single (k4_pay3 (F := Ideal) x0 x1 x2 x3) 0x00000000#32 reduces_S5000x128_S128 _ _
    (ix1 q)).trans ?_
  exact Finset.sum_congr rfl fun p _ => congrArg (k4_pay3 (F := Ideal) x0 x1 x2 x3) (lift_eq p q)

/-- The new column-sum-of-squares row at column q: the old entry plus the sum over the block's 5000 rows of the
    squared combined block's column q. -/
theorem pay5_apply (x0 x1 : Vec Ideal S5000x128 .f32) (x2 : Vec Ideal S5000x1 .f32) (x3 acc : Vec Ideal S1x128 .f32)
    (q : Fin 128) :
    k4_pay5 (F := Ideal) x0 x1 x2 x3 acc (ix2 0 q)
      = (acc (ix2 0 q) : EReal)
        + ∑ p : Fin 5000, (k4_pay3 (F := Ideal) x0 x1 x2 x3 (ix2 p q) : EReal) * k4_pay3 (F := Ideal) x0 x1 x2 x3 (ix2 p q) := by
  unfold k4_pay5
  show (shapeCast S1x128 acc shapeCasts_S1x128_S1x128 (ix2 0 q) : EReal)
    + (shapeCast S1x128 _ shapeCasts_S128_S1x128 (ix2 0 q) : EReal) = _
  rw [shapeCast_self]
  refine congrArg (fun z : EReal => acc (ix2 0 q) + z) ?_
  refine (shapeCast_a_1a_apply _ shapeCasts_S128_S1x128 0 q).trans ?_
  refine (multiReduction_add_single
    (mulf (k4_pay3 (F := Ideal) x0 x1 x2 x3) (k4_pay3 (F := Ideal) x0 x1 x2 x3)) 0x00000000#32 reduces_S5000x128_S128 _ _
    (ix1 q)).trans ?_
  refine Finset.sum_congr rfl fun p _ => ?_
  show (k4_pay3 (F := Ideal) x0 x1 x2 x3 (reduces_S5000x128_S128.lift (ix1 q) p) : EReal)
    * k4_pay3 (F := Ideal) x0 x1 x2 x3 (reduces_S5000x128_S128.lift (ix1 q) p) = _
  rw [lift_eq p q]

end Cert.KernelIdeal.Region4

end
-- ==== Proof.Region4.lean ====
/-
  The row-tiled combine-and-reduce region, read as whole arrays.

  The region has twenty grid points; point t loads rows 5000·t … 5000·t + 4999 of two 100000×128 arrays a and h and of
  a 100000×1 column of scales s, and the whole 1×128 bias row b.  It writes back, as rows 5000·t … of the first
  result, the combined block c[i, j] = (a[i, j] + h[i, j]·s[i]) + b[j]; the twenty blocks tile the result, so the first
  result array ends as the combine of the four arrays the region was entered with.

  Two 1×128 accumulators stay resident over the whole grid: the first point stores zero rows into them, every point
  adds the column sums of its combined block (of its squares, for the second) over its 5000 rows, and they are written
  back once, after the last point.  By induction on the point, after point n an accumulator holds at column j the sum
  of the block sums of points 0 … n; the twenty blocks of 5000 rows are the 100000 rows, so the two other result arrays
  end holding, at column j, the sum over all rows i of c[i, j] and of c[i, j]·c[i, j].
-/
import proofs.«124922_j63196148793943_1_alg».proof.Proof.Gen.KernelIdeal.Frame
import proofs.«124922_j63196148793943_1_alg».proof.Proof.Region4Pieces
import proofs.«124922_j63196148793943_1_alg».proof.Proof.Combine
import proofs.«124922_j63196148793943_1_alg».proof.Proof.LibBatchNormAlgebra
import Idealize.ShloMosaic.Lib.Pipeline.Value
import Idealize.ShloMosaic.Lib.ValueIdx

set_option maxRecDepth 16384

noncomputable section

namespace Cert.KernelIdeal.Region4

open Cert.KernelIdeal Cert.KernelIdeal.Gen Cert.KernelIdeal.Combine
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The whole-array combine of the four arrays the region is entered with. -/
abbrev comb (c : Dev nD) : S100000x128.Idx → EReal :=
  combine (V c (Pipeline.arrRef spec4 0)) (V c (Pipeline.arrRef spec4 1)) (V c (Pipeline.arrRef spec4 2))
    (V c (Pipeline.arrRef spec4 3))

/-- How the seven windows move over the grid: the row-block index of the two row-tiled inputs, of the scale column and
    of the row-tiled output is the point's number; every other block index is zero. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

/-- Row p of block t is row 5000·t + p of the array. -/
theorem row_lt (t : Fin cfg4.N) (p : Fin 5000) : t.val * 5000 + p.val < 100000 := by
  have := t.isLt; have := p.isLt; have h : cfg4.N = 20 := N_4; omega

/-- The first row-tiled input's block t, read at (p, q), is the array at row 5000·t + p. -/
theorem read_0 (c : Dev nD) (t : Fin cfg4.N) (p : Fin 5000) (q : Fin 128) :
    iblk4 V c 0 t (ix2 p q)
      = (V c (Pipeline.arrRef spec4 0) : S100000x128.Idx → EReal) (ix2 ⟨t.val * 5000 + p.val, row_lt t p⟩ q) := by
  obtain ⟨⟨e0, e1⟩, -⟩ := idx_facts t
  show (V c (Pipeline.arrRef spec4 0) : S100000x128.Idx → EReal) (((cfg4.win 0).blk t).view.emb (ix2 p q)) = _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * q.val = q.val; omega

/-- The second row-tiled input's block t, read at (p, q), is the array at row 5000·t + p. -/
theorem read_1 (c : Dev nD) (t : Fin cfg4.N) (p : Fin 5000) (q : Fin 128) :
    iblk4 V c 1 t (ix2 p q)
      = (V c (Pipeline.arrRef spec4 1) : S100000x128.Idx → EReal) (ix2 ⟨t.val * 5000 + p.val, row_lt t p⟩ q) := by
  obtain ⟨-, ⟨e0, e1⟩, -⟩ := idx_facts t
  show (V c (Pipeline.arrRef spec4 1) : S100000x128.Idx → EReal) (((cfg4.win 1).blk t).view.emb (ix2 p q)) = _
  refine congrArg _ (funext fun a => Fin.ext ?_)
  match a with
  | ⟨0, _⟩ => show win4_1.index t (0 : Fin 2) * 5000 + 1 * p.val = t.val * 5000 + p.val; omega
  | ⟨1, _⟩ => show win4_1.index t (1 : Fin 2) * 128 + 1 * q.val = q.val; omega

/-- The scale column's block t, read at row p, is the column at row 5000·t + p. -/
theorem read_2 (c : Dev nD) (t : Fin cfg4.N) (p : Fin 5000) :
    iblk4 V c 2 t (ix2 p (0 : Fin 1))
      = (V c (Pipeline.arrRef spec4 2) : S100000x1.Idx → EReal) (ix2 ⟨t.val * 5000 + p.val, row_lt t p⟩ (0 : Fin 1)) := by
  obtain ⟨-, -, ⟨e0, e1⟩, -⟩ := idx_facts t
  show (V c (Pipeline.arrRef spec4 2) : S100000x1.Idx → EReal) (((cfg4.win 2).blk t).view.emb (ix2 p (0 : Fin 1))) = _
  refine congrArg _ (funext fun a => Fin.ext ?_)
  match a with
  | ⟨0, _⟩ => show win4_2.index t (0 : Fin 2) * 5000 + 1 * p.val = t.val * 5000 + p.val; omega
  | ⟨1, _⟩ => show win4_2.index t (1 : Fin 2) * 1 + 1 * 0 = 0; omega

/-- The bias row's one block is the whole row. -/
theorem read_3 (c : Dev nD) (t : Fin cfg4.N) (q : Fin 128) :
    iblk4 V c 3 t (ix2 (0 : Fin 1) q) = (V c (Pipeline.arrRef spec4 3) : S1x128.Idx → EReal) (ix2 (0 : Fin 1) q) := by
  obtain ⟨-, -, -, ⟨e0, e1⟩, -⟩ := idx_facts t
  show (V c (Pipeline.arrRef spec4 3) : S1x128.Idx → EReal) (((cfg4.win 3).blk t).view.emb (ix2 (0 : Fin 1) q)) = _
  refine congrArg _ (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

/-- The combined block of point t's four loaded blocks, at (p, q), is the whole-array combine at row 5000·t + p. -/
theorem block_eq (c : Dev nD) (t : Fin cfg4.N) (p : Fin 5000) (q : Fin 128) :
    k4_pay3 (F := Ideal) (iblk4 V c 0 t) (iblk4 V c 1 t) (iblk4 V c 2 t) (iblk4 V c 3 t) (ix2 p q) = comb V c (ix2 ⟨t.val * 5000 + p.val, row_lt t p⟩ q) := by
  rw [pay3_apply, read_0 V c t p q, read_1 V c t p q, read_2 V c t p, read_3 V c t q]
  rfl

/-- What every point leaves in the row-tiled output's buffer: the combined block of its four loaded blocks. -/
theorem after4_eq (c : Dev nD) (t : Fin cfg4.N) :
    (outsAt4 V c t.val t.isLt).1 = k4_pay3 (F := Ideal) (iblk4 V c 0 t) (iblk4 V c 1 t) (iblk4 V c 2 t) (iblk4 V c 3 t) := by
  by_cases h0 : t.val % 20 = 0
  · rw [outsAt4_A V c t h0]
    dsimp only
    exact out_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  · rw [outsAt4_B V c t h0]
    dsimp only
    exact out_B_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t)
      (outsAt4 V c (t.val - 1) (Nat.lt_of_le_of_lt (Nat.sub_le _ _) t.isLt)).2.1
      (outsAt4 V c (t.val - 1) (Nat.lt_of_le_of_lt (Nat.sub_le _ _) t.isLt)).2.2

/-- What point t writes back of the row-tiled output is block t of the whole-array combine. -/
theorem flushed_eq4 (c : Dev nD) (t : Fin cfg4.N) :
    (dat4 V c).flushed 4 t = ((cfg4.win 4).blk t).view.read (Elt Ideal) (comb V c) := by
  show (cfg4.win 4).cut (grid4.coords t) ((dat4 V c).after 4 t) = _
  rw [after4_4, after4_eq]
  obtain ⟨-, -, -, -, ⟨e0, e1⟩, -⟩ := idx_facts t
  funext j
  obtain ⟨p, q, rfl⟩ : ∃ (p : Fin 5000) (q : Fin 128), j = ix2 p q := ⟨j 0, j 1, eq_ix2 j⟩
  refine (block_eq V c t p q).trans ?_
  show _ = comb V c (((cfg4.win 4).blk t).view.emb (ix2 p q))
  refine congrArg _ (funext fun a => Fin.ext ?_)
  match a with
  | ⟨0, _⟩ => show t.val * 5000 + p.val = win4_4.index t (0 : Fin 2) * 5000 + 1 * p.val; omega
  | ⟨1, _⟩ => show q.val = win4_4.index t (1 : Fin 2) * 128 + 1 * q.val; omega

/-- An index of the row-tiled output lies in point t's block iff its row is among rows 5000·t … 5000·t + 4999. -/
theorem mem_blk4 (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v76_0).slice (win4_4.rect t)).set ↔ _
  rw [View.set_slice_whole, Rect.mem_set_unit]
  exact Iff.rfl

/-- Every index of the row-tiled output is in the block of the point numbered by its row divided by 5000. -/
theorem cover4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  refine ⟨⟨(i 0).val / 5000, by omega⟩, flush4_4 _, ?_⟩
  rw [mem_blk4]
  obtain ⟨-, -, -, -, ⟨e0, e1⟩, -⟩ := idx_facts ⟨(i 0).val / 5000, by omega⟩
  intro a
  match a with
  | ⟨0, _⟩ =>
    show win4_4.index _ (0 : Fin 2) * 5000 ≤ (i 0).val ∧ (i 0).val < win4_4.index _ (0 : Fin 2) * 5000 + 5000
    simp only at e0; omega
  | ⟨1, _⟩ =>
    show win4_4.index _ (1 : Fin 2) * 128 ≤ (i 1).val ∧ (i 1).val < win4_4.index _ (1 : Fin 2) * 128 + 128
    omega

/-- The row-tiled output array after the region is the whole-array combine of the four arrays it was entered with. -/
theorem final4 (c : Dev nD) : (dat4 V c).arrAt 4 cfg4.N = comb V c :=
  (dat4 V c).arrAt_eq_of_cover 4 _ (fun t _ => flushed_eq4 V c t) cover4

/-! ## The column-sum accumulator -/

/-- The sum over block t's 5000 rows of column q of the whole-array combine (zero past the last block). -/
def blk5 (c : Dev nD) (q : Fin 128) (t : ℕ) : EReal :=
  if h : t < 20 then ∑ r : Fin 5000, comb V c (ix2 ⟨t * 5000 + r.val, by have := r.isLt; omega⟩ q) else 0

/-- The first point leaves in the column-sum accumulator the zero row plus its block's column sums. -/
theorem acc5_zero (c : Dev nD) (hn : 0 < cfg4.N) :
    (outsAt4 V c 0 hn).2.1 = k4_pay4 (F := Ideal) (iblk4 V c 0 ⟨0, hn⟩) (iblk4 V c 1 ⟨0, hn⟩) (iblk4 V c 2 ⟨0, hn⟩) (iblk4 V c 3 ⟨0, hn⟩) (k4_pay1 (F := Ideal)) := by
  rw [outsAt4_A V c ⟨0, hn⟩ (Nat.zero_mod _)]
  dsimp only
  exact out_A_5 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _))
    (iblk4 V c 0 ⟨0, hn⟩) (iblk4 V c 1 ⟨0, hn⟩) (iblk4 V c 2 ⟨0, hn⟩) (iblk4 V c 3 ⟨0, hn⟩)

/-- A later point leaves in the column-sum accumulator what the point before left plus its block's column sums. -/
theorem acc5_succ (c : Dev nD) (n : ℕ) (hn : n + 1 < cfg4.N) :
    (outsAt4 V c (n + 1) hn).2.1
      = k4_pay4 (F := Ideal) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.1 := by
  have hN : cfg4.N = 20 := N_4
  have hB : ¬(⟨n + 1, hn⟩ : Fin cfg4.N).val % 20 = 0 := by dsimp only; omega
  rw [outsAt4_B V c ⟨n + 1, hn⟩ hB]
  dsimp only
  exact out_B_5 (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩)
    (fun h => hB ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩)
    (outsAt4 V c n (Nat.lt_of_succ_lt hn)).2.1 (outsAt4 V c n (Nat.lt_of_succ_lt hn)).2.2

/-- After point n the column-sum accumulator holds, at column q, the sum of the block sums of points 0 … n: by
    induction on the point. -/
theorem inv5 (c : Dev nD) : ∀ (n : ℕ) (hn : n < cfg4.N) (q : Fin 128),
    (outsAt4 V c n hn).2.1 (ix2 (0 : Fin 1) q) = ∑ t ∈ Finset.range (n + 1), blk5 V c q t
  | 0, hn, q => by
    rw [acc5_zero V c hn, pay4_apply, pay1_apply, zero_add, Finset.sum_range_one]
    unfold blk5
    rw [dif_pos (by omega : 0 < 20)]
    exact Finset.sum_congr rfl fun p _ => block_eq V c ⟨0, hn⟩ p q
  | n + 1, hn, q => by
    have hN : cfg4.N = 20 := N_4
    rw [acc5_succ V c n hn, pay4_apply, inv5 c n (Nat.lt_of_succ_lt hn) q,
      Finset.sum_range_succ (fun t => blk5 V c q t) (n + 1)]
    refine congrArg (fun z : EReal => (∑ t ∈ Finset.range (n + 1), blk5 V c q t) + z) ?_
    unfold blk5
    rw [dif_pos (by omega : n + 1 < 20)]
    exact Finset.sum_congr rfl fun p _ => block_eq V c ⟨n + 1, hn⟩ p q

/-- The twenty block sums add up to the sum over all 100000 rows. -/
theorem sum_blk5 (c : Dev nD) (q : Fin 128) :
    ∑ t ∈ Finset.range 20, blk5 V c q t = ∑ i : Fin 100000, comb V c (ix2 i q) := by
  rw [← BatchNormAlgebra.sum_fin_eq_sum_range (fun t => blk5 V c q t) 20]
  refine Eq.trans ?_ (BatchNormAlgebra.sum_fin_mul (A := 20) (B := 5000)
    (fun i : Fin (20 * 5000) => comb V c (ix2 i q))).symm
  refine Finset.sum_congr rfl fun t _ => ?_
  unfold blk5
  rw [dif_pos t.isLt]

/-- The column-sum row of the whole-array combine: at column j, the sum over all 100000 rows. -/
def row5 (c : Dev nD) : S1x128.Idx → EReal := fun j => ∑ i : Fin 100000, comb V c (ix2 i (j 1))

/-- After the last point the column-sum accumulator holds that row. -/
theorem last5 (c : Dev nD) (hn : 19 < cfg4.N) : (outsAt4 V c 19 hn).2.1 = row5 V c := by
  funext j
  obtain ⟨u, q, rfl⟩ : ∃ (u : Fin 1) (q : Fin 128), j = ix2 u q := ⟨j 0, j 1, eq_ix2 j⟩
  obtain rfl : u = 0 := Subsingleton.elim _ _
  exact (inv5 V c 19 hn q).trans (sum_blk5 V c q)

/-- The same at the point numbered 19, however it is written. -/
theorem last5_at (c : Dev nD) (t : Fin cfg4.N) (h19 : t.val = 19) :
    (outsAt4 V c t.val t.isLt).2.1 = row5 V c := by
  funext j
  obtain ⟨u, q, rfl⟩ : ∃ (u : Fin 1) (q : Fin 128), j = ix2 u q := ⟨j 0, j 1, eq_ix2 j⟩
  obtain rfl : u = 0 := Subsingleton.elim _ _
  refine (inv5 V c t.val t.isLt q).trans ?_
  rw [h19]
  exact sum_blk5 V c q

/-- The one write-back of the column-sum accumulator, after the last point, writes that row: the block is the whole
    array. -/
theorem flushed_eq5 (c : Dev nD) (t : Fin cfg4.N) (hf : (cfg4.win 5).flush t = true) :
    (dat4 V c).flushed 5 t = ((cfg4.win 5).blk t).view.read (Elt Ideal) (row5 V c) := by
  have hN : cfg4.N = 20 := N_4
  have h19 : t.val = 19 := by have := (flush4_5 t).mp hf; have := t.isLt; omega
  show (cfg4.win 5).cut (grid4.coords t) ((dat4 V c).after 5 t) = _
  rw [after4_5, last5_at V c t h19]
  generalize row5 V c = G
  obtain ⟨-, -, -, -, -, ⟨e5a, e5b⟩, ⟨e6a, e6b⟩⟩ := idx_facts t
  funext j
  obtain ⟨u, q, rfl⟩ : ∃ (u : Fin 1) (q : Fin 128), j = ix2 u q := ⟨j 0, j 1, eq_ix2 j⟩
  show G (ix2 u q) = G (((cfg4.win 5).blk t).view.emb (ix2 u q))
  refine congrArg G (funext fun a => Fin.ext ?_)
  match a with
  | ⟨0, _⟩ => show u.val = win4_5.index t (0 : Fin 2) * 1 + 1 * u.val; omega
  | ⟨1, _⟩ => show q.val = win4_5.index t (1 : Fin 2) * 128 + 1 * q.val; omega

/-- Every index of the column-sum array is in the last point's block. -/
theorem cover5 (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  have hN : cfg4.N = 20 := N_4
  have h19 : 19 < cfg4.N := by omega
  refine ⟨⟨19, h19⟩, (flush4_5 ⟨19, h19⟩).mpr rfl, ?_⟩
  show i ∈ ((View.whole main_v76_1).slice (win4_5.rect ⟨19, h19⟩)).set
  rw [View.set_slice_whole, Rect.mem_set_unit]
  obtain ⟨-, -, -, -, -, ⟨e5a, e5b⟩, ⟨e6a, e6b⟩⟩ := idx_facts ⟨19, h19⟩
  intro a
  match a with
  | ⟨0, _⟩ =>
    show win4_5.index ⟨19, h19⟩ (0 : Fin 2) * 1 ≤ (i 0).val ∧ (i 0).val < win4_5.index ⟨19, h19⟩ (0 : Fin 2) * 1 + 1
    omega
  | ⟨1, _⟩ =>
    show win4_5.index ⟨19, h19⟩ (1 : Fin 2) * 128 ≤ (i 1).val ∧ (i 1).val < win4_5.index ⟨19, h19⟩ (1 : Fin 2) * 128 + 128
    omega

/-- The column-sum array after the region: at column j, the sum over all 100000 rows of the whole-array combine. -/
theorem final5 (c : Dev nD) :
    (dat4 V c).arrAt 5 cfg4.N = fun j => ∑ i : Fin 100000, comb V c (ix2 i (j 1)) :=
  (dat4 V c).arrAt_eq_of_cover 5 (row5 V c) (flushed_eq5 V c) cover5

/-! ## The column-sum-of-squares accumulator -/

/-- The sum over block t's 5000 rows of column q of the squared whole-array combine (zero past the last block). -/
def blk6 (c : Dev nD) (q : Fin 128) (t : ℕ) : EReal :=
  if h : t < 20 then ∑ r : Fin 5000, comb V c (ix2 ⟨t * 5000 + r.val, by have := r.isLt; omega⟩ q) * comb V c (ix2 ⟨t * 5000 + r.val, by have := r.isLt; omega⟩ q) else 0

/-- The first point leaves in the column-sum-of-squares accumulator the zero row plus its block's column sums. -/
theorem acc6_zero (c : Dev nD) (hn : 0 < cfg4.N) :
    (outsAt4 V c 0 hn).2.2 = k4_pay5 (F := Ideal) (iblk4 V c 0 ⟨0, hn⟩) (iblk4 V c 1 ⟨0, hn⟩) (iblk4 V c 2 ⟨0, hn⟩) (iblk4 V c 3 ⟨0, hn⟩) (k4_pay2 (F := Ideal)) := by
  rw [outsAt4_A V c ⟨0, hn⟩ (Nat.zero_mod _)]
  dsimp only
  exact out_A_6 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _))
    (iblk4 V c 0 ⟨0, hn⟩) (iblk4 V c 1 ⟨0, hn⟩) (iblk4 V c 2 ⟨0, hn⟩) (iblk4 V c 3 ⟨0, hn⟩)

/-- A later point leaves in the column-sum-of-squares accumulator what the point before left plus its block's column sums. -/
theorem acc6_succ (c : Dev nD) (n : ℕ) (hn : n + 1 < cfg4.N) :
    (outsAt4 V c (n + 1) hn).2.2
      = k4_pay5 (F := Ideal) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2 := by
  have hN : cfg4.N = 20 := N_4
  have hB : ¬(⟨n + 1, hn⟩ : Fin cfg4.N).val % 20 = 0 := by dsimp only; omega
  rw [outsAt4_B V c ⟨n + 1, hn⟩ hB]
  dsimp only
  exact out_B_6 (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩)
    (fun h => hB ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩)
    (outsAt4 V c n (Nat.lt_of_succ_lt hn)).2.1 (outsAt4 V c n (Nat.lt_of_succ_lt hn)).2.2

/-- After point n the column-sum-of-squares accumulator holds, at column q, the sum of the block sums of points 0 … n: by
    induction on the point. -/
theorem inv6 (c : Dev nD) : ∀ (n : ℕ) (hn : n < cfg4.N) (q : Fin 128),
    (outsAt4 V c n hn).2.2 (ix2 (0 : Fin 1) q) = ∑ t ∈ Finset.range (n + 1), blk6 V c q t
  | 0, hn, q => by
    rw [acc6_zero V c hn, pay5_apply, pay2_apply, zero_add, Finset.sum_range_one]
    unfold blk6
    rw [dif_pos (by omega : 0 < 20)]
    exact Finset.sum_congr rfl fun p _ => by rw [block_eq V c ⟨0, hn⟩ p q]
  | n + 1, hn, q => by
    have hN : cfg4.N = 20 := N_4
    rw [acc6_succ V c n hn, pay5_apply, inv6 c n (Nat.lt_of_succ_lt hn) q,
      Finset.sum_range_succ (fun t => blk6 V c q t) (n + 1)]
    refine congrArg (fun z : EReal => (∑ t ∈ Finset.range (n + 1), blk6 V c q t) + z) ?_
    unfold blk6
    rw [dif_pos (by omega : n + 1 < 20)]
    exact Finset.sum_congr rfl fun p _ => by rw [block_eq V c ⟨n + 1, hn⟩ p q]

/-- The twenty block sums add up to the sum over all 100000 rows. -/
theorem sum_blk6 (c : Dev nD) (q : Fin 128) :
    ∑ t ∈ Finset.range 20, blk6 V c q t = ∑ i : Fin 100000, comb V c (ix2 i q) * comb V c (ix2 i q) := by
  rw [← BatchNormAlgebra.sum_fin_eq_sum_range (fun t => blk6 V c q t) 20]
  refine Eq.trans ?_ (BatchNormAlgebra.sum_fin_mul (A := 20) (B := 5000)
    (fun i : Fin (20 * 5000) => comb V c (ix2 i q) * comb V c (ix2 i q))).symm
  refine Finset.sum_congr rfl fun t _ => ?_
  unfold blk6
  rw [dif_pos t.isLt]

/-- The column-sum-of-squares row of the whole-array combine: at column j, the sum over all 100000 rows. -/
def row6 (c : Dev nD) : S1x128.Idx → EReal := fun j => ∑ i : Fin 100000, comb V c (ix2 i (j 1)) * comb V c (ix2 i (j 1))

/-- After the last point the column-sum-of-squares accumulator holds that row. -/
theorem last6 (c : Dev nD) (hn : 19 < cfg4.N) : (outsAt4 V c 19 hn).2.2 = row6 V c := by
  funext j
  obtain ⟨u, q, rfl⟩ : ∃ (u : Fin 1) (q : Fin 128), j = ix2 u q := ⟨j 0, j 1, eq_ix2 j⟩
  obtain rfl : u = 0 := Subsingleton.elim _ _
  exact (inv6 V c 19 hn q).trans (sum_blk6 V c q)

/-- The same at the point numbered 19, however it is written. -/
theorem last6_at (c : Dev nD) (t : Fin cfg4.N) (h19 : t.val = 19) :
    (outsAt4 V c t.val t.isLt).2.2 = row6 V c := by
  funext j
  obtain ⟨u, q, rfl⟩ : ∃ (u : Fin 1) (q : Fin 128), j = ix2 u q := ⟨j 0, j 1, eq_ix2 j⟩
  obtain rfl : u = 0 := Subsingleton.elim _ _
  refine (inv6 V c t.val t.isLt q).trans ?_
  rw [h19]
  exact sum_blk6 V c q

/-- The one write-back of the column-sum-of-squares accumulator, after the last point, writes that row: the block is the whole
    array. -/
theorem flushed_eq6 (c : Dev nD) (t : Fin cfg4.N) (hf : (cfg4.win 6).flush t = true) :
    (dat4 V c).flushed 6 t = ((cfg4.win 6).blk t).view.read (Elt Ideal) (row6 V c) := by
  have hN : cfg4.N = 20 := N_4
  have h19 : t.val = 19 := by have := (flush4_6 t).mp hf; have := t.isLt; omega
  show (cfg4.win 6).cut (grid4.coords t) ((dat4 V c).after 6 t) = _
  rw [after4_6, last6_at V c t h19]
  generalize row6 V c = G
  obtain ⟨-, -, -, -, -, ⟨e5a, e5b⟩, ⟨e6a, e6b⟩⟩ := idx_facts t
  funext j
  obtain ⟨u, q, rfl⟩ : ∃ (u : Fin 1) (q : Fin 128), j = ix2 u q := ⟨j 0, j 1, eq_ix2 j⟩
  show G (ix2 u q) = G (((cfg4.win 6).blk t).view.emb (ix2 u q))
  refine congrArg G (funext fun a => Fin.ext ?_)
  match a with
  | ⟨0, _⟩ => show u.val = win4_6.index t (0 : Fin 2) * 1 + 1 * u.val; omega
  | ⟨1, _⟩ => show q.val = win4_6.index t (1 : Fin 2) * 128 + 1 * q.val; omega

/-- Every index of the column-sum-of-squares array is in the last point's block. -/
theorem cover6 (i : S1x128.Idx) :
    ∃ t : Fin cfg4.N, (cfg4.win 6).flush t = true ∧ i ∈ ((cfg4.win 6).blk t).view.set := by
  have hi0 : (i 0).val < 1 := (i 0).isLt
  have hi1 : (i 1).val < 128 := (i 1).isLt
  have hN : cfg4.N = 20 := N_4
  have h19 : 19 < cfg4.N := by omega
  refine ⟨⟨19, h19⟩, (flush4_6 ⟨19, h19⟩).mpr rfl, ?_⟩
  show i ∈ ((View.whole main_v76_2).slice (win4_6.rect ⟨19, h19⟩)).set
  rw [View.set_slice_whole, Rect.mem_set_unit]
  obtain ⟨-, -, -, -, -, ⟨e5a, e5b⟩, ⟨e6a, e6b⟩⟩ := idx_facts ⟨19, h19⟩
  intro a
  match a with
  | ⟨0, _⟩ =>
    show win4_6.index ⟨19, h19⟩ (0 : Fin 2) * 1 ≤ (i 0).val ∧ (i 0).val < win4_6.index ⟨19, h19⟩ (0 : Fin 2) * 1 + 1
    omega
  | ⟨1, _⟩ =>
    show win4_6.index ⟨19, h19⟩ (1 : Fin 2) * 128 ≤ (i 1).val ∧ (i 1).val < win4_6.index ⟨19, h19⟩ (1 : Fin 2) * 128 + 128
    omega

/-- The column-sum-of-squares array after the region: at column j, the sum over all 100000 rows of the squared whole-array combine. -/
theorem final6 (c : Dev nD) :
    (dat4 V c).arrAt 6 cfg4.N = fun j => ∑ i : Fin 100000, comb V c (ix2 i (j 1)) * comb V c (ix2 i (j 1)) :=
  (dat4 V c).arrAt_eq_of_cover 6 (row6 V c) (flushed_eq6 V c) cover6

end Cert.KernelIdeal.Region4

end
-- ==== Proof.Region5.lean ====
/-
  A row-tiled normalize-rectify-residual step, read as one array.

  The region has twenty grid points; point t loads rows 5000·t … 5000·t+4999 of the activations and of the residual
  (both 100000×128) and the whole of a scale row and a shift row (both 1×128), computes
  max(a·scale + shift, 0) + r on the block, and writes the 5000×128 result back as rows 5000·t … of the output.
  Entry (p, q) of block t depends only on row 5000·t + p of the two arrays and lane q of the two rows, so it is entry
  (5000·t + p, q) of the step applied to the whole arrays; the twenty blocks tile the output, so the output array ends
  as that step of the four arrays the region was entered with.
  (This body reshapes the residual block to its own shape before adding it, which is the identity.)
-/
import proofs.«124922_j63196148793943_1_alg».proof.Proof.Gen.KernelIdeal.Frame
import proofs.«124922_j63196148793943_1_alg».proof.Proof.NormRelu
import Idealize.ShloMosaic.Lib.Pipeline.Value
import Idealize.ShloMosaic.Lib.ValueIdx

set_option maxRecDepth 16384

noncomputable section

namespace Cert.KernelIdeal.Region5

open Cert.KernelIdeal Cert.KernelIdeal.Gen Cert.KernelIdeal.NormRelu
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a rank-2 block, spelt as a constant function. -/
theorem hz2 : (![0, 0] : Fin 2 → Nat) = fun _ => 0 := funext fun a => by fin_cases a <;> rfl

/-- The body's one store is the normalize-rectify-residual step on its four loaded blocks. -/
theorem pay_eq (v0 : Vec Ideal S5000x128 .f32) (v2 v6 : Vec Ideal S1x128 .f32) (v12 : Vec Ideal S5000x128 .f32) :
    k5_pay1 v0 v2 v6 v12 = normReluBlock v0 v2 v6 v12 := normReluBlock_shapeCast v0 v2 v6 v12

/-- How the five windows move over the grid: the row-block index of the activations, of the residual and of the result
    is the point's number; the scale and shift rows are one block; every column-block index is zero. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row 5000·t + p is a row of the array. -/
theorem row_lt (t : Fin cfg5.N) (p : Fin 5000) : t.val * 5000 + p.val < 100000 := by
  have := t.isLt; have := p.isLt; have h : cfg5.N = 20 := N_5; omega

/-- A row block of the activations, read at (p, q), is the array at row 5000·t + p. -/
theorem read_a (c : Dev nD) (t : Fin cfg5.N) (p : Fin 5000) (q : Fin 128) :
    iblk5 V c 0 t (ix2 p q) = (V c main_v76_0 : S100000x128.Idx → EReal) (ix2 ⟨t.val * 5000 + p.val, row_lt t p⟩ q) := by
  obtain ⟨e0, e1, -, -, -, -, -, -, -, -⟩ := idx_facts t
  show (V c main_v76_0 : S100000x128.Idx → EReal) (((cfg5.win 0).blk t).view.emb (ix2 p q)) = _
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * q.val = q.val; omega

/-- A row block of the residual, read at (p, q), is the array at row 5000·t + p. -/
theorem read_r (c : Dev nD) (t : Fin cfg5.N) (p : Fin 5000) (q : Fin 128) :
    iblk5 V c 1 t (ix2 p q) = (V c main_v60 : S100000x128.Idx → EReal) (ix2 ⟨t.val * 5000 + p.val, row_lt t p⟩ q) := by
  obtain ⟨-, -, e2, e3, -, -, -, -, -, -⟩ := idx_facts t
  show (V c main_v60 : S100000x128.Idx → EReal) (((cfg5.win 1).blk t).view.emb (ix2 p q)) = _
  refine congrArg _ (funext fun a => Fin.ext ?_)
  match a with
  | ⟨0, _⟩ => show win5_1.index t (0 : Fin 2) * 5000 + 1 * p.val = t.val * 5000 + p.val; omega
  | ⟨1, _⟩ => show win5_1.index t (1 : Fin 2) * 128 + 1 * q.val = q.val; omega

/-- The scale row's one block is the whole row. -/
theorem read_sc (c : Dev nD) (t : Fin cfg5.N) (q : Fin 128) :
    iblk5 V c 2 t (ix2 0 q) = (V c main_v87 : S1x128.Idx → EReal) (ix2 0 q) := by
  obtain ⟨-, -, -, -, e4, e5, -, -, -, -⟩ := idx_facts t
  show (V c main_v87 : S1x128.Idx → EReal) (((cfg5.win 2).blk t).view.emb (ix2 0 q)) = _
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega

/-- The shift row's one block is the whole row. -/
theorem read_sh (c : Dev nD) (t : Fin cfg5.N) (q : Fin 128) :
    iblk5 V c 3 t (ix2 0 q) = (V c main_v90 : S1x128.Idx → EReal) (ix2 0 q) := by
  obtain ⟨-, -, -, -, -, -, e6, e7, -, -⟩ := idx_facts t
  show (V c main_v90 : S1x128.Idx → EReal) (((cfg5.win 3).blk t).view.emb (ix2 0 q)) = _
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

/-- What point t writes back is block t of the step applied to the whole arrays. -/
theorem flushed_eq (c : Dev nD) (t : Fin cfg5.N) :
    (dat5 V c).flushed 4 t
      = ((cfg5.win 4).blk t).view.read (Elt Ideal) (normReluRes (V c main_v76_0) (V c main_v60) (V c main_v87) (V c main_v90)) := by
  show (cfg5.win 4).cut (grid5.coords t) ((dat5 V c).after 4 t) = _
  rw [after5_4]
  unfold out5_4
  rw [View.canon_unit_zero hz2]
  simp only [View.ld_unit_zero (S := S5000x128) hz2, View.ld_unit_zero (S := S1x128) hz2]
  rw [pay_eq]
  obtain ⟨-, -, -, -, -, -, -, -, e8, e9⟩ := idx_facts t
  funext j
  obtain ⟨p, q, rfl⟩ : ∃ (p : Fin 5000) (q : Fin 128), j = ix2 p q := ⟨j 0, j 1, eq_ix2 j⟩
  refine (normReluBlock_apply _ _ _ _ p q).trans ?_
  show _ = normReluRes (V c main_v76_0) (V c main_v60) (V c main_v87) (V c main_v90) (((cfg5.win 4).blk t).view.emb (ix2 p q))
  have hemb : ((cfg5.win 4).blk t).view.emb (ix2 p q)
      = (ix2 ⟨t.val * 5000 + p.val, row_lt t p⟩ q : S100000x128.Idx) := by
    funext a; apply Fin.ext
    match a with
    | ⟨0, _⟩ => show win5_4.index t (0 : Fin 2) * 5000 + 1 * p.val = t.val * 5000 + p.val; omega
    | ⟨1, _⟩ => show win5_4.index t (1 : Fin 2) * 128 + 1 * q.val = q.val; omega
  rw [hemb, read_a V c t p q, read_r V c t p q, read_sc V c t q, read_sh V c t q]
  rfl

/-- An index of the result lies in point t's block iff its row is in rows 5000·t … 5000·t+4999. -/
theorem mem_blk (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v91).slice (win5_4.rect t)).set ↔ _
  rw [View.set_slice_whole, Rect.mem_set_unit]
  exact Iff.rfl

/-- Every index of the result is in the block of the point numbered by its row divided by 5000. -/
theorem cover (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  refine ⟨⟨(i 0).val / 5000, by omega⟩, flush5_4 _, ?_⟩
  rw [mem_blk]
  obtain ⟨-, -, -, -, -, -, -, -, e8, e9⟩ := idx_facts ⟨(i 0).val / 5000, by omega⟩
  intro a
  match a with
  | ⟨0, _⟩ => show win5_4.index _ (0 : Fin 2) * 5000 ≤ (i 0).val ∧ (i 0).val < win5_4.index _ (0 : Fin 2) * 5000 + 5000; simp only at e8; omega
  | ⟨1, _⟩ => show win5_4.index _ (1 : Fin 2) * 128 ≤ (i 1).val ∧ (i 1).val < win5_4.index _ (1 : Fin 2) * 128 + 128; omega

/-- The result array after the region is the step applied to the four arrays it was entered with. -/
theorem final (c : Dev nD) :
    (dat5 V c).arrAt 4 cfg5.N = normReluRes (V c main_v76_0) (V c main_v60) (V c main_v87) (V c main_v90) :=
  (dat5 V c).arrAt_eq_of_cover 4 _ (fun t _ => flushed_eq V c t) cover

end Cert.KernelIdeal.Region5

end
-- ==== Proof.Region6.lean ====
/-
  A row-tiled matrix product, read as one array.

  The region has twenty grid points; point t loads rows 5000·t … 5000·t+4999 of a 100000×128 array and the whole of a
  128×128 array, multiplies them on the matrix unit into a zero accumulator, and writes the 5000×128 product back as
  rows 5000·t … of the result.  Rounding the operands to bf16 is the identity on extended reals, so entry (p, q) of a
  block is the plain sum over k of x[5000·t+p, k]·w[k, q]: block t of the full product.  The twenty blocks tile the
  result, so the result array ends as the full product of the two arrays the region was entered with.
-/
import proofs.«124922_j63196148793943_1_alg».proof.Proof.Gen.KernelIdeal.Frame
import proofs.«124922_j63196148793943_1_alg».proof.Proof.MatmulEntry
import Idealize.ShloMosaic.Lib.Pipeline.Value
import Idealize.ShloMosaic.Lib.ValueIdx

set_option maxRecDepth 16384

noncomputable section

namespace Cert.KernelIdeal.Region6

open Cert.KernelIdeal Cert.KernelIdeal.Gen Cert.KernelIdeal.MatmulEntry
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's one store is the matrix-unit product of its two loaded blocks (the left one first recast to its own shape). -/
theorem pay_eq (x0 : Vec Ideal S5000x128 .f32) (x1 : Vec Ideal S128x128 .f32) : k6_pay1 x0 x1 = blockProd x0 x1 := by
  unfold k6_pay1
  simp only [shapeCast_self]
  rfl

/-- How the three windows move over the grid: the row-block index of the left operand and of the result is the point's
    number, every other block index is zero. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- A row block of the left operand, read at (p, k), is the array at row 5000·t + p. -/
theorem read_x (c : Dev nD) (t : Fin cfg6.N) (p : Fin 5000) (k : Fin 128) :
    iblk6 V c 0 t (ix2 p k) = (V c main_v91 : S100000x128.Idx → EReal) (ix2 ⟨t.val * 5000 + p.val, by have := t.isLt; have := p.isLt; have h : cfg6.N = 20 := N_6; omega⟩ k) := by
  obtain ⟨e0, e1, -, -, -, -⟩ := idx_facts t
  show (V c main_v91 : S100000x128.Idx → EReal) (((cfg6.win 0).blk t).view.emb (ix2 p k)) = _
  refine congrArg _ (funext fun a => Fin.ext ?_)
  match a with
  | ⟨0, _⟩ => show win6_0.index t (0 : Fin 2) * 5000 + 1 * p.val = t.val * 5000 + p.val; omega
  | ⟨1, _⟩ => show win6_0.index t (1 : Fin 2) * 128 + 1 * k.val = k.val; omega

/-- The right operand's one block is the whole array. -/
theorem read_w (c : Dev nD) (t : Fin cfg6.N) (k : Fin 128) (q : Fin 128) :
    iblk6 V c 1 t (ix2 k q) = (V c main_arg11 : S128x128.Idx → EReal) (ix2 k q) := by
  obtain ⟨-, -, e2, e3, -, -⟩ := idx_facts t
  show (V c main_arg11 : S128x128.Idx → EReal) (((cfg6.win 1).blk t).view.emb (ix2 k q)) = _
  refine congrArg _ (funext fun a => Fin.ext ?_)
  match a with
  | ⟨0, _⟩ => show win6_1.index t (0 : Fin 2) * 128 + 1 * k.val = k.val; omega
  | ⟨1, _⟩ => show win6_1.index t (1 : Fin 2) * 128 + 1 * q.val = q.val; omega

/-- What point t writes back is block t of the full product. -/
theorem flushed_eq (c : Dev nD) (t : Fin cfg6.N) :
    (dat6 V c).flushed 2 t = ((cfg6.win 2).blk t).view.read (Elt Ideal) (fullProd (V c main_v91) (V c main_arg11)) := by
  show (cfg6.win 2).cut (grid6.coords t) ((dat6 V c).after 2 t) = _
  rw [after6_2]
  unfold out6_2
  rw [View.canon_unit_zero hz2]
  simp only [View.ld_unit_zero (S := S5000x128) hz2, View.ld_unit_zero (S := S128x128) hz2]
  rw [pay_eq]
  obtain ⟨-, -, -, -, e4, e5⟩ := idx_facts t
  funext j
  obtain ⟨p, q, rfl⟩ : ∃ (p : Fin 5000) (q : Fin 128), j = ix2 p q := ⟨j 0, j 1, eq_ix2 j⟩
  refine (blockProd_apply _ _ p q).trans ?_
  show _ = fullProd (V c main_v91) (V c main_arg11) (((cfg6.win 2).blk t).view.emb (ix2 p q))
  have hemb : ((cfg6.win 2).blk t).view.emb (ix2 p q)
      = (ix2 ⟨t.val * 5000 + p.val, by have := t.isLt; have := p.isLt; have h : cfg6.N = 20 := N_6; omega⟩ q : S100000x128.Idx) := by
    funext a; apply Fin.ext
    match a with
    | ⟨0, _⟩ => show win6_2.index t (0 : Fin 2) * 5000 + 1 * p.val = t.val * 5000 + p.val; omega
    | ⟨1, _⟩ => show win6_2.index t (1 : Fin 2) * 128 + 1 * q.val = q.val; omega
  rw [hemb]
  show _ = ∑ k : Fin 128, _
  exact Finset.sum_congr rfl fun k _ => by rw [read_x V c t p k, read_w V c t k q]

/-- An index of the result lies in point t's block iff its row is in rows 5000·t … 5000·t+4999. -/
theorem mem_blk (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v92).slice (win6_2.rect t)).set ↔ _
  rw [View.set_slice_whole, Rect.mem_set_unit]
  exact Iff.rfl

/-- Every index of the result is in the block of the point numbered by its row divided by 5000. -/
theorem cover (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  refine ⟨⟨(i 0).val / 5000, by omega⟩, flush6_2 _, ?_⟩
  rw [mem_blk]
  obtain ⟨-, -, -, -, e4, e5⟩ := idx_facts ⟨(i 0).val / 5000, by omega⟩
  intro a
  match a with
  | ⟨0, _⟩ => show win6_2.index _ (0 : Fin 2) * 5000 ≤ (i 0).val ∧ (i 0).val < win6_2.index _ (0 : Fin 2) * 5000 + 5000; simp only at e4; omega
  | ⟨1, _⟩ => show win6_2.index _ (1 : Fin 2) * 128 ≤ (i 1).val ∧ (i 1).val < win6_2.index _ (1 : Fin 2) * 128 + 128; omega

/-- The result array after the region is the full product of the two arrays it was entered with. -/
theorem final (c : Dev nD) : (dat6 V c).arrAt 2 cfg6.N = fullProd (V c main_v91) (V c main_arg11) :=
  (dat6 V c).arrAt_eq_of_cover 2 _ (fun t _ => flushed_eq V c t) cover

end Cert.KernelIdeal.Region6

end
-- ==== Proof.Region7.lean ====
/-
  A row-tiled combine step, read as one array.

  The region has twenty grid points; point t loads rows 5000·t … 5000·t+4999 of the aggregated neighbours and of the
  nodes' own rows (both 100000×128) and of the self-loop scale column (100000×1), and the whole of the bias row (1×128),
  computes (agg + h·s) + b on the block, and writes the 5000×128 result back as rows 5000·t … of the output.
  Entry (p, q) of block t depends only on row 5000·t + p of the three arrays and lane q of the bias, so it is entry
  (5000·t + p, q) of the step applied to the whole arrays; the twenty blocks tile the output, so the output array ends
  as that step of the four arrays the region was entered with.
-/
import proofs.«124922_j63196148793943_1_alg».proof.Proof.Gen.KernelIdeal.Frame
import proofs.«124922_j63196148793943_1_alg».proof.Proof.Combine
import Idealize.ShloMosaic.Lib.Pipeline.Value
import Idealize.ShloMosaic.Lib.ValueIdx

set_option maxRecDepth 16384

noncomputable section

namespace Cert.KernelIdeal.Region7

open Cert.KernelIdeal Cert.KernelIdeal.Gen Cert.KernelIdeal.Combine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a rank-2 block, spelt as a constant function. -/
theorem hz2 : (![0, 0] : Fin 2 → Nat) = fun _ => 0 := funext fun a => by fin_cases a <;> rfl

/-- The body's one store is the combine step on its four loaded blocks. -/
theorem pay_eq (v0 v2 : Vec Ideal S5000x128 .f32) (v4 : Vec Ideal S5000x1 .f32) (v9 : Vec Ideal S1x128 .f32) :
    k7_pay1 v0 v2 v4 v9 = combineBlock v0 v2 v4 v9 := rfl

/-- How the five windows move over the grid: the row-block index of the aggregate, of the nodes' rows, of the scale
    column and of the result is the point's number; the bias row is one block; every column-block index is zero. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Row 5000·t + p is a row of the array. -/
theorem row_lt (t : Fin cfg7.N) (p : Fin 5000) : t.val * 5000 + p.val < 100000 := by
  have := t.isLt; have := p.isLt; have h : cfg7.N = 20 := N_7; omega

/-- A row block of the aggregate, read at (p, q), is the array at row 5000·t + p. -/
theorem read_a (c : Dev nD) (t : Fin cfg7.N) (p : Fin 5000) (q : Fin 128) :
    iblk7 V c 0 t (ix2 p q) = (V c main_v105 : S100000x128.Idx → EReal) (ix2 ⟨t.val * 5000 + p.val, row_lt t p⟩ q) := by
  obtain ⟨e0, e1, -, -, -, -, -, -, -, -⟩ := idx_facts t
  show (V c main_v105 : S100000x128.Idx → EReal) (((cfg7.win 0).blk t).view.emb (ix2 p q)) = _
  refine congrArg _ (funext fun a => Fin.ext ?_)
  match a with
  | ⟨0, _⟩ => show win7_0.index t (0 : Fin 2) * 5000 + 1 * p.val = t.val * 5000 + p.val; omega
  | ⟨1, _⟩ => show win7_0.index t (1 : Fin 2) * 128 + 1 * q.val = q.val; omega

/-- A row block of the nodes' own rows, read at (p, q), is the array at row 5000·t + p. -/
theorem read_h (c : Dev nD) (t : Fin cfg7.N) (p : Fin 5000) (q : Fin 128) :
    iblk7 V c 1 t (ix2 p q) = (V c main_v92 : S100000x128.Idx → EReal) (ix2 ⟨t.val * 5000 + p.val, row_lt t p⟩ q) := by
  obtain ⟨-, -, e2, e3, -, -, -, -, -, -⟩ := idx_facts t
  show (V c main_v92 : S100000x128.Idx → EReal) (((cfg7.win 1).blk t).view.emb (ix2 p q)) = _
  refine congrArg _ (funext fun a => Fin.ext ?_)
  match a with
  | ⟨0, _⟩ => show win7_1.index t (0 : Fin 2) * 5000 + 1 * p.val = t.val * 5000 + p.val; omega
  | ⟨1, _⟩ => show win7_1.index t (1 : Fin 2) * 128 + 1 * q.val = q.val; omega

/-- A row block of the scale column, read at (p, 0), is the column at row 5000·t + p. -/
theorem read_s (c : Dev nD) (t : Fin cfg7.N) (p : Fin 5000) :
    iblk7 V c 2 t (ix2 p 0) = (V c main_v29 : S100000x1.Idx → EReal) (ix2 ⟨t.val * 5000 + p.val, row_lt t p⟩ 0) := by
  obtain ⟨-, -, -, -, e4, e5, -, -, -, -⟩ := idx_facts t
  show (V c main_v29 : S100000x1.Idx → EReal) (((cfg7.win 2).blk t).view.emb (ix2 p 0)) = _
  refine congrArg _ (funext fun a => Fin.ext ?_)
  match a with
  | ⟨0, _⟩ => show win7_2.index t (0 : Fin 2) * 5000 + 1 * p.val = t.val * 5000 + p.val; omega
  | ⟨1, _⟩ => show win7_2.index t (1 : Fin 2) * 1 + 1 * 0 = 0; omega

/-- The bias row's one block is the whole row. -/
theorem read_b (c : Dev nD) (t : Fin cfg7.N) (q : Fin 128) :
    iblk7 V c 3 t (ix2 0 q) = (V c main_v106 : S1x128.Idx → EReal) (ix2 0 q) := by
  obtain ⟨-, -, -, -, -, -, e6, e7, -, -⟩ := idx_facts t
  show (V c main_v106 : S1x128.Idx → EReal) (((cfg7.win 3).blk t).view.emb (ix2 0 q)) = _
  refine congrArg _ (funext fun a => Fin.ext ?_)
  match a with
  | ⟨0, _⟩ => show win7_3.index t (0 : Fin 2) * 1 + 1 * 0 = 0; omega
  | ⟨1, _⟩ => show win7_3.index t (1 : Fin 2) * 128 + 1 * q.val = q.val; omega

/-- What point t writes back is block t of the step applied to the whole arrays. -/
theorem flushed_eq (c : Dev nD) (t : Fin cfg7.N) :
    (dat7 V c).flushed 4 t
      = ((cfg7.win 4).blk t).view.read (Elt Ideal) (combine (V c main_v105) (V c main_v92) (V c main_v29) (V c main_v106)) := by
  show (cfg7.win 4).cut (grid7.coords t) ((dat7 V c).after 4 t) = _
  rw [after7_4]
  unfold out7_4
  rw [View.canon_unit_zero hz2]
  simp only [View.ld_unit_zero (S := S5000x128) hz2, View.ld_unit_zero (S := S5000x1) hz2, View.ld_unit_zero (S := S1x128) hz2]
  rw [pay_eq]
  obtain ⟨-, -, -, -, -, -, -, -, e8, e9⟩ := idx_facts t
  funext j
  obtain ⟨p, q, rfl⟩ : ∃ (p : Fin 5000) (q : Fin 128), j = ix2 p q := ⟨j 0, j 1, eq_ix2 j⟩
  refine (combineBlock_apply _ _ _ _ p q).trans ?_
  show _ = combine (V c main_v105) (V c main_v92) (V c main_v29) (V c main_v106) (((cfg7.win 4).blk t).view.emb (ix2 p q))
  have hemb : ((cfg7.win 4).blk t).view.emb (ix2 p q)
      = (ix2 ⟨t.val * 5000 + p.val, row_lt t p⟩ q : S100000x128.Idx) := by
    funext a; apply Fin.ext
    match a with
    | ⟨0, _⟩ => show win7_4.index t (0 : Fin 2) * 5000 + 1 * p.val = t.val * 5000 + p.val; omega
    | ⟨1, _⟩ => show win7_4.index t (1 : Fin 2) * 128 + 1 * q.val = q.val; omega
  rw [hemb, read_a V c t p q, read_h V c t p q, read_s V c t p, read_b V c t q]
  rfl

/-- An index of the result lies in point t's block iff its row is in rows 5000·t … 5000·t+4999. -/
theorem mem_blk (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v107).slice (win7_4.rect t)).set ↔ _
  rw [View.set_slice_whole, Rect.mem_set_unit]
  exact Iff.rfl

/-- Every index of the result is in the block of the point numbered by its row divided by 5000. -/
theorem cover (i : S100000x128.Idx) :
    ∃ t : Fin cfg7.N, (cfg7.win 4).flush t = true ∧ i ∈ ((cfg7.win 4).blk t).view.set := by
  have hi0 : (i 0).val < 100000 := (i 0).isLt
  have hi1 : (i 1).val < 128 := (i 1).isLt
  have hN : cfg7.N = 20 := N_7
  refine ⟨⟨(i 0).val / 5000, by omega⟩, flush7_4 _, ?_⟩
  rw [mem_blk]
  obtain ⟨-, -, -, -, -, -, -, -, e8, e9⟩ := idx_facts ⟨(i 0).val / 5000, by omega⟩
  intro a
  match a with
  | ⟨0, _⟩ => show win7_4.index _ (0 : Fin 2) * 5000 ≤ (i 0).val ∧ (i 0).val < win7_4.index _ (0 : Fin 2) * 5000 + 5000; simp only at e8; omega
  | ⟨1, _⟩ => show win7_4.index _ (1 : Fin 2) * 128 ≤ (i 1).val ∧ (i 1).val < win7_4.index _ (1 : Fin 2) * 128 + 128; omega

/-- The result array after the region is the combine step of the four arrays it was entered with. -/
theorem final (c : Dev nD) :
    (dat7 V c).arrAt 4 cfg7.N = combine (V c main_v105) (V c main_v92) (V c main_v29) (V c main_v106) :=
  (dat7 V c).arrAt_eq_of_cover 4 _ (fun t _ => flushed_eq V c t) cover

end Cert.KernelIdeal.Region7

end
-- ==== Proof.Chain.lean ====
/-
  The kernel's run, read boundary by boundary.

  @main is fifteen segments.  At each boundary between two segments the contents of every buffer still to be read
  are named here as functions of the arguments' launch contents: a host stretch rewrites the buffers it computes
  (read off its operations) and keeps the others; a kernel region replaces its output arrays by what its write-backs
  assemble (the tiled product, the combine and its two accumulated rows, the normalise-rectify-add) and keeps its
  inputs and every other buffer.  The last boundary's result buffer is the kernel's closed form of its arguments.
-/
import proofs.«124922_j63196148793943_1_alg».proof.Proof.Gen.KernelIdeal.Frame
import proofs.«124922_j63196148793943_1_alg».proof.Proof.KernelModel
import proofs.«124922_j63196148793943_1_alg».proof.Proof.Stretches
import proofs.«124922_j63196148793943_1_alg».proof.Proof.Region0
import proofs.«124922_j63196148793943_1_alg».proof.Proof.Region1
import proofs.«124922_j63196148793943_1_alg».proof.Proof.Region2
import proofs.«124922_j63196148793943_1_alg».proof.Proof.Region3
import proofs.«124922_j63196148793943_1_alg».proof.Proof.Region4
import proofs.«124922_j63196148793943_1_alg».proof.Proof.Region5
import proofs.«124922_j63196148793943_1_alg».proof.Proof.Region6
import proofs.«124922_j63196148793943_1_alg».proof.Proof.Region7
import Idealize.ShloMosaic.Lib.StableHlo.Run

set_option maxRecDepth 16384
set_option maxHeartbeats 1000000

noncomputable section

namespace Cert.KernelIdeal.Chain

open Cert.KernelIdeal Cert.KernelIdeal.Gen
open Cert.KernelIdeal.MatmulEntry Cert.KernelIdeal.Combine Cert.KernelIdeal.NormRelu Cert.KernelIdeal.HostBN Cert.KernelIdeal.KernelModel
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The projected features, the combined convolution output and the layer output of each layer, as the kernel
    computes them from the launch contents of its arguments. -/
def H0 : S100000x128.Idx → EReal := fullProd (m ((c : Thread nD τ).loc main_arg0)) (m ((c : Thread nD τ).loc main_arg3))
def C0 : S100000x128.Idx → EReal := kconv (m ((c : Thread nD τ).loc main_arg1)) (H0 m c) (m ((c : Thread nD τ).loc main_arg4))
def Y1 : S100000x128.Idx → EReal := kbn (C0 m c) (m ((c : Thread nD τ).loc main_arg5)) (m ((c : Thread nD τ).loc main_arg6)) (m ((c : Thread nD τ).loc main_arg0))
def H1 : S100000x128.Idx → EReal := fullProd (Y1 m c) (m ((c : Thread nD τ).loc main_arg7))
def C1 : S100000x128.Idx → EReal := kconv (m ((c : Thread nD τ).loc main_arg1)) (H1 m c) (m ((c : Thread nD τ).loc main_arg8))
def Y2 : S100000x128.Idx → EReal := kbn (C1 m c) (m ((c : Thread nD τ).loc main_arg9)) (m ((c : Thread nD τ).loc main_arg10)) (Y1 m c)
def H2 : S100000x128.Idx → EReal := fullProd (Y2 m c) (m ((c : Thread nD τ).loc main_arg11))
def C2 : S100000x128.Idx → EReal := kconv (m ((c : Thread nD τ).loc main_arg1)) (H2 m c) (m ((c : Thread nD τ).loc main_arg12))

/-! ### At launch -/

theorem at0_arg0 : W0 m ρ c (Proc.devRef .tc main_arg0) = (m ((c : Thread nD τ).loc main_arg0)) := rfl
theorem at0_arg1 : W0 m ρ c (Proc.devRef .tc main_arg1) = (m ((c : Thread nD τ).loc main_arg1)) := rfl
theorem at0_arg2 : W0 m ρ c (Proc.devRef .tc main_arg2) = (m ((c : Thread nD τ).loc main_arg2)) := rfl
theorem at0_arg3 : W0 m ρ c (Proc.devRef .tc main_arg3) = (m ((c : Thread nD τ).loc main_arg3)) := rfl
theorem at0_arg4 : W0 m ρ c (Proc.devRef .tc main_arg4) = (m ((c : Thread nD τ).loc main_arg4)) := rfl
theorem at0_arg5 : W0 m ρ c (Proc.devRef .tc main_arg5) = (m ((c : Thread nD τ).loc main_arg5)) := rfl
theorem at0_arg6 : W0 m ρ c (Proc.devRef .tc main_arg6) = (m ((c : Thread nD τ).loc main_arg6)) := rfl
theorem at0_arg7 : W0 m ρ c (Proc.devRef .tc main_arg7) = (m ((c : Thread nD τ).loc main_arg7)) := rfl
theorem at0_arg8 : W0 m ρ c (Proc.devRef .tc main_arg8) = (m ((c : Thread nD τ).loc main_arg8)) := rfl
theorem at0_arg9 : W0 m ρ c (Proc.devRef .tc main_arg9) = (m ((c : Thread nD τ).loc main_arg9)) := rfl
theorem at0_arg10 : W0 m ρ c (Proc.devRef .tc main_arg10) = (m ((c : Thread nD τ).loc main_arg10)) := rfl
theorem at0_arg11 : W0 m ρ c (Proc.devRef .tc main_arg11) = (m ((c : Thread nD τ).loc main_arg11)) := rfl
theorem at0_arg12 : W0 m ρ c (Proc.devRef .tc main_arg12) = (m ((c : Thread nD τ).loc main_arg12)) := rfl
theorem at0_arg13 : W0 m ρ c (Proc.devRef .tc main_arg13) = (m ((c : Thread nD τ).loc main_arg13)) := rfl
theorem at0_arg14 : W0 m ρ c (Proc.devRef .tc main_arg14) = (m ((c : Thread nD τ).loc main_arg14)) := rfl

/-! ### After segment 1: the host stretch hostOps0 -/

theorem at1_arg0 : W1 m ρ c (Proc.devRef .tc main_arg0) = (m ((c : Thread nD τ).loc main_arg0)) :=
  (show StableHlo.after hostOps0 (W0 m ρ c) (Proc.devRef .tc main_arg0) = W0 m ρ c (Proc.devRef .tc main_arg0) by after_results_simp).trans (at0_arg0 m ρ c)
theorem at1_arg2 : W1 m ρ c (Proc.devRef .tc main_arg2) = (m ((c : Thread nD τ).loc main_arg2)) :=
  (show StableHlo.after hostOps0 (W0 m ρ c) (Proc.devRef .tc main_arg2) = W0 m ρ c (Proc.devRef .tc main_arg2) by after_results_simp).trans (at0_arg2 m ρ c)
theorem at1_arg3 : W1 m ρ c (Proc.devRef .tc main_arg3) = (m ((c : Thread nD τ).loc main_arg3)) :=
  (show StableHlo.after hostOps0 (W0 m ρ c) (Proc.devRef .tc main_arg3) = W0 m ρ c (Proc.devRef .tc main_arg3) by after_results_simp).trans (at0_arg3 m ρ c)
theorem at1_arg4 : W1 m ρ c (Proc.devRef .tc main_arg4) = (m ((c : Thread nD τ).loc main_arg4)) :=
  (show StableHlo.after hostOps0 (W0 m ρ c) (Proc.devRef .tc main_arg4) = W0 m ρ c (Proc.devRef .tc main_arg4) by after_results_simp).trans (at0_arg4 m ρ c)
theorem at1_arg5 : W1 m ρ c (Proc.devRef .tc main_arg5) = (m ((c : Thread nD τ).loc main_arg5)) :=
  (show StableHlo.after hostOps0 (W0 m ρ c) (Proc.devRef .tc main_arg5) = W0 m ρ c (Proc.devRef .tc main_arg5) by after_results_simp).trans (at0_arg5 m ρ c)
theorem at1_arg6 : W1 m ρ c (Proc.devRef .tc main_arg6) = (m ((c : Thread nD τ).loc main_arg6)) :=
  (show StableHlo.after hostOps0 (W0 m ρ c) (Proc.devRef .tc main_arg6) = W0 m ρ c (Proc.devRef .tc main_arg6) by after_results_simp).trans (at0_arg6 m ρ c)
theorem at1_arg7 : W1 m ρ c (Proc.devRef .tc main_arg7) = (m ((c : Thread nD τ).loc main_arg7)) :=
  (show StableHlo.after hostOps0 (W0 m ρ c) (Proc.devRef .tc main_arg7) = W0 m ρ c (Proc.devRef .tc main_arg7) by after_results_simp).trans (at0_arg7 m ρ c)
theorem at1_arg8 : W1 m ρ c (Proc.devRef .tc main_arg8) = (m ((c : Thread nD τ).loc main_arg8)) :=
  (show StableHlo.after hostOps0 (W0 m ρ c) (Proc.devRef .tc main_arg8) = W0 m ρ c (Proc.devRef .tc main_arg8) by after_results_simp).trans (at0_arg8 m ρ c)
theorem at1_arg9 : W1 m ρ c (Proc.devRef .tc main_arg9) = (m ((c : Thread nD τ).loc main_arg9)) :=
  (show StableHlo.after hostOps0 (W0 m ρ c) (Proc.devRef .tc main_arg9) = W0 m ρ c (Proc.devRef .tc main_arg9) by after_results_simp).trans (at0_arg9 m ρ c)
theorem at1_arg10 : W1 m ρ c (Proc.devRef .tc main_arg10) = (m ((c : Thread nD τ).loc main_arg10)) :=
  (show StableHlo.after hostOps0 (W0 m ρ c) (Proc.devRef .tc main_arg10) = W0 m ρ c (Proc.devRef .tc main_arg10) by after_results_simp).trans (at0_arg10 m ρ c)
theorem at1_arg11 : W1 m ρ c (Proc.devRef .tc main_arg11) = (m ((c : Thread nD τ).loc main_arg11)) :=
  (show StableHlo.after hostOps0 (W0 m ρ c) (Proc.devRef .tc main_arg11) = W0 m ρ c (Proc.devRef .tc main_arg11) by after_results_simp).trans (at0_arg11 m ρ c)
theorem at1_arg12 : W1 m ρ c (Proc.devRef .tc main_arg12) = (m ((c : Thread nD τ).loc main_arg12)) :=
  (show StableHlo.after hostOps0 (W0 m ρ c) (Proc.devRef .tc main_arg12) = W0 m ρ c (Proc.devRef .tc main_arg12) by after_results_simp).trans (at0_arg12 m ρ c)
theorem at1_arg13 : W1 m ρ c (Proc.devRef .tc main_arg13) = (m ((c : Thread nD τ).loc main_arg13)) :=
  (show StableHlo.after hostOps0 (W0 m ρ c) (Proc.devRef .tc main_arg13) = W0 m ρ c (Proc.devRef .tc main_arg13) by after_results_simp).trans (at0_arg13 m ρ c)
theorem at1_arg14 : W1 m ρ c (Proc.devRef .tc main_arg14) = (m ((c : Thread nD τ).loc main_arg14)) :=
  (show StableHlo.after hostOps0 (W0 m ρ c) (Proc.devRef .tc main_arg14) = W0 m ρ c (Proc.devRef .tc main_arg14) by after_results_simp).trans (at0_arg14 m ρ c)
theorem at1_v1 : W1 m ρ c (Proc.devRef .tc main_v1) = Cert.Model.srcIdx (m ((c : Thread nD τ).loc main_arg1)) :=
  (Stretch.s0_src (W0 m ρ c)).trans (congrArg Cert.Model.srcIdx (at0_arg1 m ρ c))
theorem at1_v3 : W1 m ρ c (Proc.devRef .tc main_v3) = Cert.Model.dstIdx (m ((c : Thread nD τ).loc main_arg1)) :=
  (Stretch.s0_dst (W0 m ρ c)).trans (congrArg Cert.Model.dstIdx (at0_arg1 m ρ c))
theorem at1_v25 : W1 m ρ c (Proc.devRef .tc main_v25) = Cert.Model.norm (F := Ideal) (m ((c : Thread nD τ).loc main_arg1)) :=
  (Stretch.s0_norm (W0 m ρ c)).trans (congrArg (Cert.Model.norm (F := Ideal)) (at0_arg1 m ρ c))
theorem at1_v29 : W1 m ρ c (Proc.devRef .tc main_v29) = (colOf (F := Ideal) (Cert.Model.selfScale (F := Ideal) (m ((c : Thread nD τ).loc main_arg1)))) :=
  (Stretch.s0_scale (W0 m ρ c)).trans (congrArg (fun e => colOf (F := Ideal) (Cert.Model.selfScale (F := Ideal) e)) (at0_arg1 m ρ c))

/-! ### After segment 2: kernel region 0 -/

theorem at2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (at1_arg0 m ρ c)
theorem at2_arg2 : W2 m ρ c (Proc.devRef .tc main_arg2) = (m ((c : Thread nD τ).loc main_arg2)) :=
  (W2_of_ne m ρ c main_arg2 (by decide)).trans (at1_arg2 m ρ c)
theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)
theorem at2_arg6 : W2 m ρ c (Proc.devRef .tc main_arg6) = (m ((c : Thread nD τ).loc main_arg6)) :=
  (W2_of_ne m ρ c main_arg6 (by decide)).trans (at1_arg6 m ρ c)
theorem at2_arg7 : W2 m ρ c (Proc.devRef .tc main_arg7) = (m ((c : Thread nD τ).loc main_arg7)) :=
  (W2_of_ne m ρ c main_arg7 (by decide)).trans (at1_arg7 m ρ c)
theorem at2_arg8 : W2 m ρ c (Proc.devRef .tc main_arg8) = (m ((c : Thread nD τ).loc main_arg8)) :=
  (W2_of_ne m ρ c main_arg8 (by decide)).trans (at1_arg8 m ρ c)
theorem at2_arg9 : W2 m ρ c (Proc.devRef .tc main_arg9) = (m ((c : Thread nD τ).loc main_arg9)) :=
  (W2_of_ne m ρ c main_arg9 (by decide)).trans (at1_arg9 m ρ c)
theorem at2_arg10 : W2 m ρ c (Proc.devRef .tc main_arg10) = (m ((c : Thread nD τ).loc main_arg10)) :=
  (W2_of_ne m ρ c main_arg10 (by decide)).trans (at1_arg10 m ρ c)
theorem at2_arg11 : W2 m ρ c (Proc.devRef .tc main_arg11) = (m ((c : Thread nD τ).loc main_arg11)) :=
  (W2_of_ne m ρ c main_arg11 (by decide)).trans (at1_arg11 m ρ c)
theorem at2_arg12 : W2 m ρ c (Proc.devRef .tc main_arg12) = (m ((c : Thread nD τ).loc main_arg12)) :=
  (W2_of_ne m ρ c main_arg12 (by decide)).trans (at1_arg12 m ρ c)
theorem at2_arg13 : W2 m ρ c (Proc.devRef .tc main_arg13) = (m ((c : Thread nD τ).loc main_arg13)) :=
  (W2_of_ne m ρ c main_arg13 (by decide)).trans (at1_arg13 m ρ c)
theorem at2_arg14 : W2 m ρ c (Proc.devRef .tc main_arg14) = (m ((c : Thread nD τ).loc main_arg14)) :=
  (W2_of_ne m ρ c main_arg14 (by decide)).trans (at1_arg14 m ρ c)
theorem at2_v1 : W2 m ρ c (Proc.devRef .tc main_v1) = Cert.Model.srcIdx (m ((c : Thread nD τ).loc main_arg1)) :=
  (W2_of_ne m ρ c main_v1 (by decide)).trans (at1_v1 m ρ c)
theorem at2_v3 : W2 m ρ c (Proc.devRef .tc main_v3) = Cert.Model.dstIdx (m ((c : Thread nD τ).loc main_arg1)) :=
  (W2_of_ne m ρ c main_v3 (by decide)).trans (at1_v3 m ρ c)
theorem at2_v25 : W2 m ρ c (Proc.devRef .tc main_v25) = Cert.Model.norm (F := Ideal) (m ((c : Thread nD τ).loc main_arg1)) :=
  (W2_of_ne m ρ c main_v25 (by decide)).trans (at1_v25 m ρ c)
theorem at2_v29 : W2 m ρ c (Proc.devRef .tc main_v29) = (colOf (F := Ideal) (Cert.Model.selfScale (F := Ideal) (m ((c : Thread nD τ).loc main_arg1)))) :=
  (W2_of_ne m ρ c main_v29 (by decide)).trans (at1_v29 m ρ c)
theorem at2_v30 : W2 m ρ c (Proc.devRef .tc main_v30) = H0 m c := by
  refine (W2_arr m ρ c 2).trans ((Region0.final (V1 m ρ) c).trans ?_)
  show fullProd (W1 m ρ c (Proc.devRef .tc main_arg0)) (W1 m ρ c (Proc.devRef .tc main_arg3)) = _
  rw [(at1_arg0 m ρ c), (at1_arg3 m ρ c)]
  rfl

/-! ### After segment 3: the host stretch hostOps1 -/

theorem at3_arg0 : W3 m ρ c (Proc.devRef .tc main_arg0) = (m ((c : Thread nD τ).loc main_arg0)) :=
  (show StableHlo.after hostOps1 (W2 m ρ c) (Proc.devRef .tc main_arg0) = W2 m ρ c (Proc.devRef .tc main_arg0) by after_results_simp).trans (at2_arg0 m ρ c)
theorem at3_arg2 : W3 m ρ c (Proc.devRef .tc main_arg2) = (m ((c : Thread nD τ).loc main_arg2)) :=
  (show StableHlo.after hostOps1 (W2 m ρ c) (Proc.devRef .tc main_arg2) = W2 m ρ c (Proc.devRef .tc main_arg2) by after_results_simp).trans (at2_arg2 m ρ c)
theorem at3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) by after_results_simp).trans (at2_arg5 m ρ c)
theorem at3_arg6 : W3 m ρ c (Proc.devRef .tc main_arg6) = (m ((c : Thread nD τ).loc main_arg6)) :=
  (show StableHlo.after hostOps1 (W2 m ρ c) (Proc.devRef .tc main_arg6) = W2 m ρ c (Proc.devRef .tc main_arg6) by after_results_simp).trans (at2_arg6 m ρ c)
theorem at3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) by after_results_simp).trans (at2_arg7 m ρ c)
theorem at3_arg8 : W3 m ρ c (Proc.devRef .tc main_arg8) = (m ((c : Thread nD τ).loc main_arg8)) :=
  (show StableHlo.after hostOps1 (W2 m ρ c) (Proc.devRef .tc main_arg8) = W2 m ρ c (Proc.devRef .tc main_arg8) by after_results_simp).trans (at2_arg8 m ρ c)
theorem at3_arg9 : W3 m ρ c (Proc.devRef .tc main_arg9) = (m ((c : Thread nD τ).loc main_arg9)) :=
  (show StableHlo.after hostOps1 (W2 m ρ c) (Proc.devRef .tc main_arg9) = W2 m ρ c (Proc.devRef .tc main_arg9) by after_results_simp).trans (at2_arg9 m ρ c)
theorem at3_arg10 : W3 m ρ c (Proc.devRef .tc main_arg10) = (m ((c : Thread nD τ).loc main_arg10)) :=
  (show StableHlo.after hostOps1 (W2 m ρ c) (Proc.devRef .tc main_arg10) = W2 m ρ c (Proc.devRef .tc main_arg10) by after_results_simp).trans (at2_arg10 m ρ c)
theorem at3_arg11 : W3 m ρ c (Proc.devRef .tc main_arg11) = (m ((c : Thread nD τ).loc main_arg11)) :=
  (show StableHlo.after hostOps1 (W2 m ρ c) (Proc.devRef .tc main_arg11) = W2 m ρ c (Proc.devRef .tc main_arg11) by after_results_simp).trans (at2_arg11 m ρ c)
theorem at3_arg12 : W3 m ρ c (Proc.devRef .tc main_arg12) = (m ((c : Thread nD τ).loc main_arg12)) :=
  (show StableHlo.after hostOps1 (W2 m ρ c) (Proc.devRef .tc main_arg12) = W2 m ρ c (Proc.devRef .tc main_arg12) by after_results_simp).trans (at2_arg12 m ρ c)
theorem at3_arg13 : W3 m ρ c (Proc.devRef .tc main_arg13) = (m ((c : Thread nD τ).loc main_arg13)) :=
  (show StableHlo.after hostOps1 (W2 m ρ c) (Proc.devRef .tc main_arg13) = W2 m ρ c (Proc.devRef .tc main_arg13) by after_results_simp).trans (at2_arg13 m ρ c)
theorem at3_arg14 : W3 m ρ c (Proc.devRef .tc main_arg14) = (m ((c : Thread nD τ).loc main_arg14)) :=
  (show StableHlo.after hostOps1 (W2 m ρ c) (Proc.devRef .tc main_arg14) = W2 m ρ c (Proc.devRef .tc main_arg14) by after_results_simp).trans (at2_arg14 m ρ c)
theorem at3_v1 : W3 m ρ c (Proc.devRef .tc main_v1) = Cert.Model.srcIdx (m ((c : Thread nD τ).loc main_arg1)) :=
  (show StableHlo.after hostOps1 (W2 m ρ c) (Proc.devRef .tc main_v1) = W2 m ρ c (Proc.devRef .tc main_v1) by after_results_simp).trans (at2_v1 m ρ c)
theorem at3_v3 : W3 m ρ c (Proc.devRef .tc main_v3) = Cert.Model.dstIdx (m ((c : Thread nD τ).loc main_arg1)) :=
  (show StableHlo.after hostOps1 (W2 m ρ c) (Proc.devRef .tc main_v3) = W2 m ρ c (Proc.devRef .tc main_v3) by after_results_simp).trans (at2_v3 m ρ c)
theorem at3_v25 : W3 m ρ c (Proc.devRef .tc main_v25) = Cert.Model.norm (F := Ideal) (m ((c : Thread nD τ).loc main_arg1)) :=
  (show StableHlo.after hostOps1 (W2 m ρ c) (Proc.devRef .tc main_v25) = W2 m ρ c (Proc.devRef .tc main_v25) by after_results_simp).trans (at2_v25 m ρ c)
theorem at3_v29 : W3 m ρ c (Proc.devRef .tc main_v29) = (colOf (F := Ideal) (Cert.Model.selfScale (F := Ideal) (m ((c : Thread nD τ).loc main_arg1)))) :=
  (show StableHlo.after hostOps1 (W2 m ρ c) (Proc.devRef .tc main_v29) = W2 m ρ c (Proc.devRef .tc main_v29) by after_results_simp).trans (at2_v29 m ρ c)
theorem at3_v30 : W3 m ρ c (Proc.devRef .tc main_v30) = H0 m c :=
  (show StableHlo.after hostOps1 (W2 m ρ c) (Proc.devRef .tc main_v30) = W2 m ρ c (Proc.devRef .tc main_v30) by after_results_simp).trans (at2_v30 m ρ c)
theorem at3_v43 : W3 m ρ c (Proc.devRef .tc main_v43) = Cert.Model.aggregate (F := Ideal) (m ((c : Thread nD τ).loc main_arg1)) (H0 m c) :=
  (Stretch.s1_agg (W2 m ρ c) (m ((c : Thread nD τ).loc main_arg1)) (at2_v1 m ρ c) (at2_v3 m ρ c) (at2_v25 m ρ c)).trans (congrArg (Cert.Model.aggregate (F := Ideal) (m ((c : Thread nD τ).loc main_arg1))) (at2_v30 m ρ c))
theorem at3_v44 : W3 m ρ c (Proc.devRef .tc main_v44) = rowOf (F := Ideal) (m ((c : Thread nD τ).loc main_arg4)) :=
  (Stretch.s1_bias (W2 m ρ c)).trans (congrArg (rowOf (F := Ideal)) (at2_arg4 m ρ c))

/-! ### After segment 4: kernel region 1 -/

theorem at4_arg0 : W4 m ρ c (Proc.devRef .tc main_arg0) = (m ((c : Thread nD τ).loc main_arg0)) :=
  (W4_of_ne m ρ c main_arg0 (by decide)).trans (at3_arg0 m ρ c)
theorem at4_arg2 : W4 m ρ c (Proc.devRef .tc main_arg2) = (m ((c : Thread nD τ).loc main_arg2)) :=
  (W4_of_ne m ρ c main_arg2 (by decide)).trans (at3_arg2 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)
theorem at4_arg8 : W4 m ρ c (Proc.devRef .tc main_arg8) = (m ((c : Thread nD τ).loc main_arg8)) :=
  (W4_of_ne m ρ c main_arg8 (by decide)).trans (at3_arg8 m ρ c)
theorem at4_arg9 : W4 m ρ c (Proc.devRef .tc main_arg9) = (m ((c : Thread nD τ).loc main_arg9)) :=
  (W4_of_ne m ρ c main_arg9 (by decide)).trans (at3_arg9 m ρ c)
theorem at4_arg10 : W4 m ρ c (Proc.devRef .tc main_arg10) = (m ((c : Thread nD τ).loc main_arg10)) :=
  (W4_of_ne m ρ c main_arg10 (by decide)).trans (at3_arg10 m ρ c)
theorem at4_arg11 : W4 m ρ c (Proc.devRef .tc main_arg11) = (m ((c : Thread nD τ).loc main_arg11)) :=
  (W4_of_ne m ρ c main_arg11 (by decide)).trans (at3_arg11 m ρ c)
theorem at4_arg12 : W4 m ρ c (Proc.devRef .tc main_arg12) = (m ((c : Thread nD τ).loc main_arg12)) :=
  (W4_of_ne m ρ c main_arg12 (by decide)).trans (at3_arg12 m ρ c)
theorem at4_arg13 : W4 m ρ c (Proc.devRef .tc main_arg13) = (m ((c : Thread nD τ).loc main_arg13)) :=
  (W4_of_ne m ρ c main_arg13 (by decide)).trans (at3_arg13 m ρ c)
theorem at4_arg14 : W4 m ρ c (Proc.devRef .tc main_arg14) = (m ((c : Thread nD τ).loc main_arg14)) :=
  (W4_of_ne m ρ c main_arg14 (by decide)).trans (at3_arg14 m ρ c)
theorem at4_v1 : W4 m ρ c (Proc.devRef .tc main_v1) = Cert.Model.srcIdx (m ((c : Thread nD τ).loc main_arg1)) :=
  (W4_of_ne m ρ c main_v1 (by decide)).trans (at3_v1 m ρ c)
theorem at4_v3 : W4 m ρ c (Proc.devRef .tc main_v3) = Cert.Model.dstIdx (m ((c : Thread nD τ).loc main_arg1)) :=
  (W4_of_ne m ρ c main_v3 (by decide)).trans (at3_v3 m ρ c)
theorem at4_v25 : W4 m ρ c (Proc.devRef .tc main_v25) = Cert.Model.norm (F := Ideal) (m ((c : Thread nD τ).loc main_arg1)) :=
  (W4_of_ne m ρ c main_v25 (by decide)).trans (at3_v25 m ρ c)
theorem at4_v29 : W4 m ρ c (Proc.devRef .tc main_v29) = (colOf (F := Ideal) (Cert.Model.selfScale (F := Ideal) (m ((c : Thread nD τ).loc main_arg1)))) :=
  ((W4_arr m ρ c 2).trans (((dat1 (V3 m ρ) c).arrAt_in 2 rfl _).trans (A_eq1 (V3 m ρ) c 2))).trans (at3_v29 m ρ c)
theorem at4_v45_0 : W4 m ρ c (Proc.devRef .tc main_v45_0) = C0 m c := by
  refine (W4_arr m ρ c 4).trans ((Region1.final4 (V3 m ρ) c).trans ?_)
  show combine (W3 m ρ c (Proc.devRef .tc main_v43)) (W3 m ρ c (Proc.devRef .tc main_v30)) (W3 m ρ c (Proc.devRef .tc main_v29)) (W3 m ρ c (Proc.devRef .tc main_v44)) = _
  rw [(at3_v43 m ρ c), (at3_v30 m ρ c), (at3_v29 m ρ c), (at3_v44 m ρ c)]
  rfl
theorem at4_v45_1 : W4 m ρ c (Proc.devRef .tc main_v45_1) = colSum (C0 m c) := by
  refine (W4_arr m ρ c 5).trans ((Region1.final5 (V3 m ρ) c).trans ?_)
  show colSum (combine (W3 m ρ c (Proc.devRef .tc main_v43)) (W3 m ρ c (Proc.devRef .tc main_v30)) (W3 m ρ c (Proc.devRef .tc main_v29)) (W3 m ρ c (Proc.devRef .tc main_v44))) = _
  rw [(at3_v43 m ρ c), (at3_v30 m ρ c), (at3_v29 m ρ c), (at3_v44 m ρ c)]
  rfl
theorem at4_v45_2 : W4 m ρ c (Proc.devRef .tc main_v45_2) = colSumSq (C0 m c) := by
  refine (W4_arr m ρ c 6).trans ((Region1.final6 (V3 m ρ) c).trans ?_)
  show colSumSq (combine (W3 m ρ c (Proc.devRef .tc main_v43)) (W3 m ρ c (Proc.devRef .tc main_v30)) (W3 m ρ c (Proc.devRef .tc main_v29)) (W3 m ρ c (Proc.devRef .tc main_v44))) = _
  rw [(at3_v43 m ρ c), (at3_v30 m ρ c), (at3_v29 m ρ c), (at3_v44 m ρ c)]
  rfl

/-! ### After segment 5: the host stretch hostOps2 -/

theorem at5_arg0 : W5 m ρ c (Proc.devRef .tc main_arg0) = (m ((c : Thread nD τ).loc main_arg0)) :=
  (show StableHlo.after hostOps2 (W4 m ρ c) (Proc.devRef .tc main_arg0) = W4 m ρ c (Proc.devRef .tc main_arg0) by after_results_simp).trans (at4_arg0 m ρ c)
theorem at5_arg2 : W5 m ρ c (Proc.devRef .tc main_arg2) = (m ((c : Thread nD τ).loc main_arg2)) :=
  (show StableHlo.after hostOps2 (W4 m ρ c) (Proc.devRef .tc main_arg2) = W4 m ρ c (Proc.devRef .tc main_arg2) by after_results_simp).trans (at4_arg2 m ρ c)
theorem at5_arg7 : W5 m ρ c (Proc.devRef .tc main_arg7) = (m ((c : Thread nD τ).loc main_arg7)) :=
  (show StableHlo.after hostOps2 (W4 m ρ c) (Proc.devRef .tc main_arg7) = W4 m ρ c (Proc.devRef .tc main_arg7) by after_results_simp).trans (at4_arg7 m ρ c)
theorem at5_arg8 : W5 m ρ c (Proc.devRef .tc main_arg8) = (m ((c : Thread nD τ).loc main_arg8)) :=
  (show StableHlo.after hostOps2 (W4 m ρ c) (Proc.devRef .tc main_arg8) = W4 m ρ c (Proc.devRef .tc main_arg8) by after_results_simp).trans (at4_arg8 m ρ c)
theorem at5_arg9 : W5 m ρ c (Proc.devRef .tc main_arg9) = (m ((c : Thread nD τ).loc main_arg9)) :=
  (show StableHlo.after hostOps2 (W4 m ρ c) (Proc.devRef .tc main_arg9) = W4 m ρ c (Proc.devRef .tc main_arg9) by after_results_simp).trans (at4_arg9 m ρ c)
theorem at5_arg10 : W5 m ρ c (Proc.devRef .tc main_arg10) = (m ((c : Thread nD τ).loc main_arg10)) :=
  (show StableHlo.after hostOps2 (W4 m ρ c) (Proc.devRef .tc main_arg10) = W4 m ρ c (Proc.devRef .tc main_arg10) by after_results_simp).trans (at4_arg10 m ρ c)
theorem at5_arg11 : W5 m ρ c (Proc.devRef .tc main_arg11) = (m ((c : Thread nD τ).loc main_arg11)) :=
  (show StableHlo.after hostOps2 (W4 m ρ c) (Proc.devRef .tc main_arg11) = W4 m ρ c (Proc.devRef .tc main_arg11) by after_results_simp).trans (at4_arg11 m ρ c)
theorem at5_arg12 : W5 m ρ c (Proc.devRef .tc main_arg12) = (m ((c : Thread nD τ).loc main_arg12)) :=
  (show StableHlo.after hostOps2 (W4 m ρ c) (Proc.devRef .tc main_arg12) = W4 m ρ c (Proc.devRef .tc main_arg12) by after_results_simp).trans (at4_arg12 m ρ c)
theorem at5_arg13 : W5 m ρ c (Proc.devRef .tc main_arg13) = (m ((c : Thread nD τ).loc main_arg13)) :=
  (show StableHlo.after hostOps2 (W4 m ρ c) (Proc.devRef .tc main_arg13) = W4 m ρ c (Proc.devRef .tc main_arg13) by after_results_simp).trans (at4_arg13 m ρ c)
theorem at5_arg14 : W5 m ρ c (Proc.devRef .tc main_arg14) = (m ((c : Thread nD τ).loc main_arg14)) :=
  (show StableHlo.after hostOps2 (W4 m ρ c) (Proc.devRef .tc main_arg14) = W4 m ρ c (Proc.devRef .tc main_arg14) by after_results_simp).trans (at4_arg14 m ρ c)
theorem at5_v1 : W5 m ρ c (Proc.devRef .tc main_v1) = Cert.Model.srcIdx (m ((c : Thread nD τ).loc main_arg1)) :=
  (show StableHlo.after hostOps2 (W4 m ρ c) (Proc.devRef .tc main_v1) = W4 m ρ c (Proc.devRef .tc main_v1) by after_results_simp).trans (at4_v1 m ρ c)
theorem at5_v3 : W5 m ρ c (Proc.devRef .tc main_v3) = Cert.Model.dstIdx (m ((c : Thread nD τ).loc main_arg1)) :=
  (show StableHlo.after hostOps2 (W4 m ρ c) (Proc.devRef .tc main_v3) = W4 m ρ c (Proc.devRef .tc main_v3) by after_results_simp).trans (at4_v3 m ρ c)
theorem at5_v25 : W5 m ρ c (Proc.devRef .tc main_v25) = Cert.Model.norm (F := Ideal) (m ((c : Thread nD τ).loc main_arg1)) :=
  (show StableHlo.after hostOps2 (W4 m ρ c) (Proc.devRef .tc main_v25) = W4 m ρ c (Proc.devRef .tc main_v25) by after_results_simp).trans (at4_v25 m ρ c)
theorem at5_v29 : W5 m ρ c (Proc.devRef .tc main_v29) = (colOf (F := Ideal) (Cert.Model.selfScale (F := Ideal) (m ((c : Thread nD τ).loc main_arg1)))) :=
  (show StableHlo.after hostOps2 (W4 m ρ c) (Proc.devRef .tc main_v29) = W4 m ρ c (Proc.devRef .tc main_v29) by after_results_simp).trans (at4_v29 m ρ c)
theorem at5_v45_0 : W5 m ρ c (Proc.devRef .tc main_v45_0) = C0 m c :=
  (show StableHlo.after hostOps2 (W4 m ρ c) (Proc.devRef .tc main_v45_0) = W4 m ρ c (Proc.devRef .tc main_v45_0) by after_results_simp).trans (at4_v45_0 m ρ c)
theorem at5_v56 : W5 m ρ c (Proc.devRef .tc main_v56) = scaleRow (F := Ideal) (colSum (C0 m c)) (colSumSq (C0 m c)) (m ((c : Thread nD τ).loc main_arg5)) := by
  refine (Stretch.s2_scale (W4 m ρ c)).trans ?_
  rw [(at4_v45_1 m ρ c), (at4_v45_2 m ρ c), (at4_arg5 m ρ c)]
theorem at5_v59 : W5 m ρ c (Proc.devRef .tc main_v59) = shiftRow (F := Ideal) (colSum (C0 m c)) (colSumSq (C0 m c)) (m ((c : Thread nD τ).loc main_arg5)) (m ((c : Thread nD τ).loc main_arg6)) := by
  refine (Stretch.s2_shift (W4 m ρ c)).trans ?_
  rw [(at4_v45_1 m ρ c), (at4_v45_2 m ρ c), (at4_arg5 m ρ c), (at4_arg6 m ρ c)]

/-! ### After segment 6: kernel region 2 -/

theorem at6_arg2 : W6 m ρ c (Proc.devRef .tc main_arg2) = (m ((c : Thread nD τ).loc main_arg2)) :=
  (W6_of_ne m ρ c main_arg2 (by decide)).trans (at5_arg2 m ρ c)
theorem at6_arg7 : W6 m ρ c (Proc.devRef .tc main_arg7) = (m ((c : Thread nD τ).loc main_arg7)) :=
  (W6_of_ne m ρ c main_arg7 (by decide)).trans (at5_arg7 m ρ c)
theorem at6_arg8 : W6 m ρ c (Proc.devRef .tc main_arg8) = (m ((c : Thread nD τ).loc main_arg8)) :=
  (W6_of_ne m ρ c main_arg8 (by decide)).trans (at5_arg8 m ρ c)
theorem at6_arg9 : W6 m ρ c (Proc.devRef .tc main_arg9) = (m ((c : Thread nD τ).loc main_arg9)) :=
  (W6_of_ne m ρ c main_arg9 (by decide)).trans (at5_arg9 m ρ c)
theorem at6_arg10 : W6 m ρ c (Proc.devRef .tc main_arg10) = (m ((c : Thread nD τ).loc main_arg10)) :=
  (W6_of_ne m ρ c main_arg10 (by decide)).trans (at5_arg10 m ρ c)
theorem at6_arg11 : W6 m ρ c (Proc.devRef .tc main_arg11) = (m ((c : Thread nD τ).loc main_arg11)) :=
  (W6_of_ne m ρ c main_arg11 (by decide)).trans (at5_arg11 m ρ c)
theorem at6_arg12 : W6 m ρ c (Proc.devRef .tc main_arg12) = (m ((c : Thread nD τ).loc main_arg12)) :=
  (W6_of_ne m ρ c main_arg12 (by decide)).trans (at5_arg12 m ρ c)
theorem at6_arg13 : W6 m ρ c (Proc.devRef .tc main_arg13) = (m ((c : Thread nD τ).loc main_arg13)) :=
  (W6_of_ne m ρ c main_arg13 (by decide)).trans (at5_arg13 m ρ c)
theorem at6_arg14 : W6 m ρ c (Proc.devRef .tc main_arg14) = (m ((c : Thread nD τ).loc main_arg14)) :=
  (W6_of_ne m ρ c main_arg14 (by decide)).trans (at5_arg14 m ρ c)
theorem at6_v1 : W6 m ρ c (Proc.devRef .tc main_v1) = Cert.Model.srcIdx (m ((c : Thread nD τ).loc main_arg1)) :=
  (W6_of_ne m ρ c main_v1 (by decide)).trans (at5_v1 m ρ c)
theorem at6_v3 : W6 m ρ c (Proc.devRef .tc main_v3) = Cert.Model.dstIdx (m ((c : Thread nD τ).loc main_arg1)) :=
  (W6_of_ne m ρ c main_v3 (by decide)).trans (at5_v3 m ρ c)
theorem at6_v25 : W6 m ρ c (Proc.devRef .tc main_v25) = Cert.Model.norm (F := Ideal) (m ((c : Thread nD τ).loc main_arg1)) :=
  (W6_of_ne m ρ c main_v25 (by decide)).trans (at5_v25 m ρ c)
theorem at6_v29 : W6 m ρ c (Proc.devRef .tc main_v29) = (colOf (F := Ideal) (Cert.Model.selfScale (F := Ideal) (m ((c : Thread nD τ).loc main_arg1)))) :=
  (W6_of_ne m ρ c main_v29 (by decide)).trans (at5_v29 m ρ c)
theorem at6_v60 : W6 m ρ c (Proc.devRef .tc main_v60) = Y1 m c := by
  refine (W6_arr m ρ c 4).trans ((Region2.final (V5 m ρ) c).trans ?_)
  show normReluRes (W5 m ρ c (Proc.devRef .tc main_v45_0)) (W5 m ρ c (Proc.devRef .tc main_arg0)) (W5 m ρ c (Proc.devRef .tc main_v56)) (W5 m ρ c (Proc.devRef .tc main_v59)) = _
  rw [(at5_v45_0 m ρ c), (at5_arg0 m ρ c), (at5_v56 m ρ c), (at5_v59 m ρ c)]
  rfl

/-! ### After segment 7: kernel region 3 -/

theorem at7_arg2 : W7 m ρ c (Proc.devRef .tc main_arg2) = (m ((c : Thread nD τ).loc main_arg2)) :=
  (W7_of_ne m ρ c main_arg2 (by decide)).trans (at6_arg2 m ρ c)
theorem at7_arg8 : W7 m ρ c (Proc.devRef .tc main_arg8) = (m ((c : Thread nD τ).loc main_arg8)) :=
  (W7_of_ne m ρ c main_arg8 (by decide)).trans (at6_arg8 m ρ c)
theorem at7_arg9 : W7 m ρ c (Proc.devRef .tc main_arg9) = (m ((c : Thread nD τ).loc main_arg9)) :=
  (W7_of_ne m ρ c main_arg9 (by decide)).trans (at6_arg9 m ρ c)
theorem at7_arg10 : W7 m ρ c (Proc.devRef .tc main_arg10) = (m ((c : Thread nD τ).loc main_arg10)) :=
  (W7_of_ne m ρ c main_arg10 (by decide)).trans (at6_arg10 m ρ c)
theorem at7_arg11 : W7 m ρ c (Proc.devRef .tc main_arg11) = (m ((c : Thread nD τ).loc main_arg11)) :=
  (W7_of_ne m ρ c main_arg11 (by decide)).trans (at6_arg11 m ρ c)
theorem at7_arg12 : W7 m ρ c (Proc.devRef .tc main_arg12) = (m ((c : Thread nD τ).loc main_arg12)) :=
  (W7_of_ne m ρ c main_arg12 (by decide)).trans (at6_arg12 m ρ c)
theorem at7_arg13 : W7 m ρ c (Proc.devRef .tc main_arg13) = (m ((c : Thread nD τ).loc main_arg13)) :=
  (W7_of_ne m ρ c main_arg13 (by decide)).trans (at6_arg13 m ρ c)
theorem at7_arg14 : W7 m ρ c (Proc.devRef .tc main_arg14) = (m ((c : Thread nD τ).loc main_arg14)) :=
  (W7_of_ne m ρ c main_arg14 (by decide)).trans (at6_arg14 m ρ c)
theorem at7_v1 : W7 m ρ c (Proc.devRef .tc main_v1) = Cert.Model.srcIdx (m ((c : Thread nD τ).loc main_arg1)) :=
  (W7_of_ne m ρ c main_v1 (by decide)).trans (at6_v1 m ρ c)
theorem at7_v3 : W7 m ρ c (Proc.devRef .tc main_v3) = Cert.Model.dstIdx (m ((c : Thread nD τ).loc main_arg1)) :=
  (W7_of_ne m ρ c main_v3 (by decide)).trans (at6_v3 m ρ c)
theorem at7_v25 : W7 m ρ c (Proc.devRef .tc main_v25) = Cert.Model.norm (F := Ideal) (m ((c : Thread nD τ).loc main_arg1)) :=
  (W7_of_ne m ρ c main_v25 (by decide)).trans (at6_v25 m ρ c)
theorem at7_v29 : W7 m ρ c (Proc.devRef .tc main_v29) = (colOf (F := Ideal) (Cert.Model.selfScale (F := Ideal) (m ((c : Thread nD τ).loc main_arg1)))) :=
  (W7_of_ne m ρ c main_v29 (by decide)).trans (at6_v29 m ρ c)
theorem at7_v60 : W7 m ρ c (Proc.devRef .tc main_v60) = Y1 m c :=
  ((W7_arr m ρ c 0).trans (((dat3 (V6 m ρ) c).arrAt_in 0 rfl _).trans (A_eq3 (V6 m ρ) c 0))).trans (at6_v60 m ρ c)
theorem at7_v61 : W7 m ρ c (Proc.devRef .tc main_v61) = H1 m c := by
  refine (W7_arr m ρ c 2).trans ((Region3.final (V6 m ρ) c).trans ?_)
  show fullProd (W6 m ρ c (Proc.devRef .tc main_v60)) (W6 m ρ c (Proc.devRef .tc main_arg7)) = _
  rw [(at6_v60 m ρ c), (at6_arg7 m ρ c)]
  rfl

/-! ### After segment 8: the host stretch hostOps4 -/

theorem at8_arg2 : W8 m ρ c (Proc.devRef .tc main_arg2) = (m ((c : Thread nD τ).loc main_arg2)) :=
  (show StableHlo.after hostOps4 (W7 m ρ c) (Proc.devRef .tc main_arg2) = W7 m ρ c (Proc.devRef .tc main_arg2) by after_results_simp).trans (at7_arg2 m ρ c)
theorem at8_arg9 : W8 m ρ c (Proc.devRef .tc main_arg9) = (m ((c : Thread nD τ).loc main_arg9)) :=
  (show StableHlo.after hostOps4 (W7 m ρ c) (Proc.devRef .tc main_arg9) = W7 m ρ c (Proc.devRef .tc main_arg9) by after_results_simp).trans (at7_arg9 m ρ c)
theorem at8_arg10 : W8 m ρ c (Proc.devRef .tc main_arg10) = (m ((c : Thread nD τ).loc main_arg10)) :=
  (show StableHlo.after hostOps4 (W7 m ρ c) (Proc.devRef .tc main_arg10) = W7 m ρ c (Proc.devRef .tc main_arg10) by after_results_simp).trans (at7_arg10 m ρ c)
theorem at8_arg11 : W8 m ρ c (Proc.devRef .tc main_arg11) = (m ((c : Thread nD τ).loc main_arg11)) :=
  (show StableHlo.after hostOps4 (W7 m ρ c) (Proc.devRef .tc main_arg11) = W7 m ρ c (Proc.devRef .tc main_arg11) by after_results_simp).trans (at7_arg11 m ρ c)
theorem at8_arg12 : W8 m ρ c (Proc.devRef .tc main_arg12) = (m ((c : Thread nD τ).loc main_arg12)) :=
  (show StableHlo.after hostOps4 (W7 m ρ c) (Proc.devRef .tc main_arg12) = W7 m ρ c (Proc.devRef .tc main_arg12) by after_results_simp).trans (at7_arg12 m ρ c)
theorem at8_arg13 : W8 m ρ c (Proc.devRef .tc main_arg13) = (m ((c : Thread nD τ).loc main_arg13)) :=
  (show StableHlo.after hostOps4 (W7 m ρ c) (Proc.devRef .tc main_arg13) = W7 m ρ c (Proc.devRef .tc main_arg13) by after_results_simp).trans (at7_arg13 m ρ c)
theorem at8_arg14 : W8 m ρ c (Proc.devRef .tc main_arg14) = (m ((c : Thread nD τ).loc main_arg14)) :=
  (show StableHlo.after hostOps4 (W7 m ρ c) (Proc.devRef .tc main_arg14) = W7 m ρ c (Proc.devRef .tc main_arg14) by after_results_simp).trans (at7_arg14 m ρ c)
theorem at8_v1 : W8 m ρ c (Proc.devRef .tc main_v1) = Cert.Model.srcIdx (m ((c : Thread nD τ).loc main_arg1)) :=
  (show StableHlo.after hostOps4 (W7 m ρ c) (Proc.devRef .tc main_v1) = W7 m ρ c (Proc.devRef .tc main_v1) by after_results_simp).trans (at7_v1 m ρ c)
theorem at8_v3 : W8 m ρ c (Proc.devRef .tc main_v3) = Cert.Model.dstIdx (m ((c : Thread nD τ).loc main_arg1)) :=
  (show StableHlo.after hostOps4 (W7 m ρ c) (Proc.devRef .tc main_v3) = W7 m ρ c (Proc.devRef .tc main_v3) by after_results_simp).trans (at7_v3 m ρ c)
theorem at8_v25 : W8 m ρ c (Proc.devRef .tc main_v25) = Cert.Model.norm (F := Ideal) (m ((c : Thread nD τ).loc main_arg1)) :=
  (show StableHlo.after hostOps4 (W7 m ρ c) (Proc.devRef .tc main_v25) = W7 m ρ c (Proc.devRef .tc main_v25) by after_results_simp).trans (at7_v25 m ρ c)
theorem at8_v29 : W8 m ρ c (Proc.devRef .tc main_v29) = (colOf (F := Ideal) (Cert.Model.selfScale (F := Ideal) (m ((c : Thread nD τ).loc main_arg1)))) :=
  (show StableHlo.after hostOps4 (W7 m ρ c) (Proc.devRef .tc main_v29) = W7 m ρ c (Proc.devRef .tc main_v29) by after_results_simp).trans (at7_v29 m ρ c)
theorem at8_v60 : W8 m ρ c (Proc.devRef .tc main_v60) = Y1 m c :=
  (show StableHlo.after hostOps4 (W7 m ρ c) (Proc.devRef .tc main_v60) = W7 m ρ c (Proc.devRef .tc main_v60) by after_results_simp).trans (at7_v60 m ρ c)
theorem at8_v61 : W8 m ρ c (Proc.devRef .tc main_v61) = H1 m c :=
  (show StableHlo.after hostOps4 (W7 m ρ c) (Proc.devRef .tc main_v61) = W7 m ρ c (Proc.devRef .tc main_v61) by after_results_simp).trans (at7_v61 m ρ c)
theorem at8_v74 : W8 m ρ c (Proc.devRef .tc main_v74) = Cert.Model.aggregate (F := Ideal) (m ((c : Thread nD τ).loc main_arg1)) (H1 m c) :=
  (Stretch.s4_agg (W7 m ρ c) (m ((c : Thread nD τ).loc main_arg1)) (at7_v1 m ρ c) (at7_v3 m ρ c) (at7_v25 m ρ c)).trans (congrArg (Cert.Model.aggregate (F := Ideal) (m ((c : Thread nD τ).loc main_arg1))) (at7_v61 m ρ c))
theorem at8_v75 : W8 m ρ c (Proc.devRef .tc main_v75) = rowOf (F := Ideal) (m ((c : Thread nD τ).loc main_arg8)) :=
  (Stretch.s4_bias (W7 m ρ c)).trans (congrArg (rowOf (F := Ideal)) (at7_arg8 m ρ c))

/-! ### After segment 9: kernel region 4 -/

theorem at9_arg2 : W9 m ρ c (Proc.devRef .tc main_arg2) = (m ((c : Thread nD τ).loc main_arg2)) :=
  (W9_of_ne m ρ c main_arg2 (by decide)).trans (at8_arg2 m ρ c)
theorem at9_arg9 : W9 m ρ c (Proc.devRef .tc main_arg9) = (m ((c : Thread nD τ).loc main_arg9)) :=
  (W9_of_ne m ρ c main_arg9 (by decide)).trans (at8_arg9 m ρ c)
theorem at9_arg10 : W9 m ρ c (Proc.devRef .tc main_arg10) = (m ((c : Thread nD τ).loc main_arg10)) :=
  (W9_of_ne m ρ c main_arg10 (by decide)).trans (at8_arg10 m ρ c)
theorem at9_arg11 : W9 m ρ c (Proc.devRef .tc main_arg11) = (m ((c : Thread nD τ).loc main_arg11)) :=
  (W9_of_ne m ρ c main_arg11 (by decide)).trans (at8_arg11 m ρ c)
theorem at9_arg12 : W9 m ρ c (Proc.devRef .tc main_arg12) = (m ((c : Thread nD τ).loc main_arg12)) :=
  (W9_of_ne m ρ c main_arg12 (by decide)).trans (at8_arg12 m ρ c)
theorem at9_arg13 : W9 m ρ c (Proc.devRef .tc main_arg13) = (m ((c : Thread nD τ).loc main_arg13)) :=
  (W9_of_ne m ρ c main_arg13 (by decide)).trans (at8_arg13 m ρ c)
theorem at9_arg14 : W9 m ρ c (Proc.devRef .tc main_arg14) = (m ((c : Thread nD τ).loc main_arg14)) :=
  (W9_of_ne m ρ c main_arg14 (by decide)).trans (at8_arg14 m ρ c)
theorem at9_v1 : W9 m ρ c (Proc.devRef .tc main_v1) = Cert.Model.srcIdx (m ((c : Thread nD τ).loc main_arg1)) :=
  (W9_of_ne m ρ c main_v1 (by decide)).trans (at8_v1 m ρ c)
theorem at9_v3 : W9 m ρ c (Proc.devRef .tc main_v3) = Cert.Model.dstIdx (m ((c : Thread nD τ).loc main_arg1)) :=
  (W9_of_ne m ρ c main_v3 (by decide)).trans (at8_v3 m ρ c)
theorem at9_v25 : W9 m ρ c (Proc.devRef .tc main_v25) = Cert.Model.norm (F := Ideal) (m ((c : Thread nD τ).loc main_arg1)) :=
  (W9_of_ne m ρ c main_v25 (by decide)).trans (at8_v25 m ρ c)
theorem at9_v29 : W9 m ρ c (Proc.devRef .tc main_v29) = (colOf (F := Ideal) (Cert.Model.selfScale (F := Ideal) (m ((c : Thread nD τ).loc main_arg1)))) :=
  ((W9_arr m ρ c 2).trans (((dat4 (V8 m ρ) c).arrAt_in 2 rfl _).trans (A_eq4 (V8 m ρ) c 2))).trans (at8_v29 m ρ c)
theorem at9_v60 : W9 m ρ c (Proc.devRef .tc main_v60) = Y1 m c :=
  (W9_of_ne m ρ c main_v60 (by decide)).trans (at8_v60 m ρ c)
theorem at9_v76_0 : W9 m ρ c (Proc.devRef .tc main_v76_0) = C1 m c := by
  refine (W9_arr m ρ c 4).trans ((Region4.final4 (V8 m ρ) c).trans ?_)
  show combine (W8 m ρ c (Proc.devRef .tc main_v74)) (W8 m ρ c (Proc.devRef .tc main_v61)) (W8 m ρ c (Proc.devRef .tc main_v29)) (W8 m ρ c (Proc.devRef .tc main_v75)) = _
  rw [(at8_v74 m ρ c), (at8_v61 m ρ c), (at8_v29 m ρ c), (at8_v75 m ρ c)]
  rfl
theorem at9_v76_1 : W9 m ρ c (Proc.devRef .tc main_v76_1) = colSum (C1 m c) := by
  refine (W9_arr m ρ c 5).trans ((Region4.final5 (V8 m ρ) c).trans ?_)
  show colSum (combine (W8 m ρ c (Proc.devRef .tc main_v74)) (W8 m ρ c (Proc.devRef .tc main_v61)) (W8 m ρ c (Proc.devRef .tc main_v29)) (W8 m ρ c (Proc.devRef .tc main_v75))) = _
  rw [(at8_v74 m ρ c), (at8_v61 m ρ c), (at8_v29 m ρ c), (at8_v75 m ρ c)]
  rfl
theorem at9_v76_2 : W9 m ρ c (Proc.devRef .tc main_v76_2) = colSumSq (C1 m c) := by
  refine (W9_arr m ρ c 6).trans ((Region4.final6 (V8 m ρ) c).trans ?_)
  show colSumSq (combine (W8 m ρ c (Proc.devRef .tc main_v74)) (W8 m ρ c (Proc.devRef .tc main_v61)) (W8 m ρ c (Proc.devRef .tc main_v29)) (W8 m ρ c (Proc.devRef .tc main_v75))) = _
  rw [(at8_v74 m ρ c), (at8_v61 m ρ c), (at8_v29 m ρ c), (at8_v75 m ρ c)]
  rfl

/-! ### After segment 10: the host stretch hostOps5 -/

theorem at10_arg2 : W10 m ρ c (Proc.devRef .tc main_arg2) = (m ((c : Thread nD τ).loc main_arg2)) :=
  (show StableHlo.after hostOps5 (W9 m ρ c) (Proc.devRef .tc main_arg2) = W9 m ρ c (Proc.devRef .tc main_arg2) by after_results_simp).trans (at9_arg2 m ρ c)
theorem at10_arg11 : W10 m ρ c (Proc.devRef .tc main_arg11) = (m ((c : Thread nD τ).loc main_arg11)) :=
  (show StableHlo.after hostOps5 (W9 m ρ c) (Proc.devRef .tc main_arg11) = W9 m ρ c (Proc.devRef .tc main_arg11) by after_results_simp).trans (at9_arg11 m ρ c)
theorem at10_arg12 : W10 m ρ c (Proc.devRef .tc main_arg12) = (m ((c : Thread nD τ).loc main_arg12)) :=
  (show StableHlo.after hostOps5 (W9 m ρ c) (Proc.devRef .tc main_arg12) = W9 m ρ c (Proc.devRef .tc main_arg12) by after_results_simp).trans (at9_arg12 m ρ c)
theorem at10_arg13 : W10 m ρ c (Proc.devRef .tc main_arg13) = (m ((c : Thread nD τ).loc main_arg13)) :=
  (show StableHlo.after hostOps5 (W9 m ρ c) (Proc.devRef .tc main_arg13) = W9 m ρ c (Proc.devRef .tc main_arg13) by after_results_simp).trans (at9_arg13 m ρ c)
theorem at10_arg14 : W10 m ρ c (Proc.devRef .tc main_arg14) = (m ((c : Thread nD τ).loc main_arg14)) :=
  (show StableHlo.after hostOps5 (W9 m ρ c) (Proc.devRef .tc main_arg14) = W9 m ρ c (Proc.devRef .tc main_arg14) by after_results_simp).trans (at9_arg14 m ρ c)
theorem at10_v1 : W10 m ρ c (Proc.devRef .tc main_v1) = Cert.Model.srcIdx (m ((c : Thread nD τ).loc main_arg1)) :=
  (show StableHlo.after hostOps5 (W9 m ρ c) (Proc.devRef .tc main_v1) = W9 m ρ c (Proc.devRef .tc main_v1) by after_results_simp).trans (at9_v1 m ρ c)
theorem at10_v3 : W10 m ρ c (Proc.devRef .tc main_v3) = Cert.Model.dstIdx (m ((c : Thread nD τ).loc main_arg1)) :=
  (show StableHlo.after hostOps5 (W9 m ρ c) (Proc.devRef .tc main_v3) = W9 m ρ c (Proc.devRef .tc main_v3) by after_results_simp).trans (at9_v3 m ρ c)
theorem at10_v25 : W10 m ρ c (Proc.devRef .tc main_v25) = Cert.Model.norm (F := Ideal) (m ((c : Thread nD τ).loc main_arg1)) :=
  (show StableHlo.after hostOps5 (W9 m ρ c) (Proc.devRef .tc main_v25) = W9 m ρ c (Proc.devRef .tc main_v25) by after_results_simp).trans (at9_v25 m ρ c)
theorem at10_v29 : W10 m ρ c (Proc.devRef .tc main_v29) = (colOf (F := Ideal) (Cert.Model.selfScale (F := Ideal) (m ((c : Thread nD τ).loc main_arg1)))) :=
  (show StableHlo.after hostOps5 (W9 m ρ c) (Proc.devRef .tc main_v29) = W9 m ρ c (Proc.devRef .tc main_v29) by after_results_simp).trans (at9_v29 m ρ c)
theorem at10_v60 : W10 m ρ c (Proc.devRef .tc main_v60) = Y1 m c :=
  (show StableHlo.after hostOps5 (W9 m ρ c) (Proc.devRef .tc main_v60) = W9 m ρ c (Proc.devRef .tc main_v60) by after_results_simp).trans (at9_v60 m ρ c)
theorem at10_v76_0 : W10 m ρ c (Proc.devRef .tc main_v76_0) = C1 m c :=
  (show StableHlo.after hostOps5 (W9 m ρ c) (Proc.devRef .tc main_v76_0) = W9 m ρ c (Proc.devRef .tc main_v76_0) by after_results_simp).trans (at9_v76_0 m ρ c)
theorem at10_v87 : W10 m ρ c (Proc.devRef .tc main_v87) = scaleRow (F := Ideal) (colSum (C1 m c)) (colSumSq (C1 m c)) (m ((c : Thread nD τ).loc main_arg9)) := by
  refine (Stretch.s5_scale (W9 m ρ c)).trans ?_
  rw [(at9_v76_1 m ρ c), (at9_v76_2 m ρ c), (at9_arg9 m ρ c)]
theorem at10_v90 : W10 m ρ c (Proc.devRef .tc main_v90) = shiftRow (F := Ideal) (colSum (C1 m c)) (colSumSq (C1 m c)) (m ((c : Thread nD τ).loc main_arg9)) (m ((c : Thread nD τ).loc main_arg10)) := by
  refine (Stretch.s5_shift (W9 m ρ c)).trans ?_
  rw [(at9_v76_1 m ρ c), (at9_v76_2 m ρ c), (at9_arg9 m ρ c), (at9_arg10 m ρ c)]

/-! ### After segment 11: kernel region 5 -/

theorem at11_arg2 : W11 m ρ c (Proc.devRef .tc main_arg2) = (m ((c : Thread nD τ).loc main_arg2)) :=
  (W11_of_ne m ρ c main_arg2 (by decide)).trans (at10_arg2 m ρ c)
theorem at11_arg11 : W11 m ρ c (Proc.devRef .tc main_arg11) = (m ((c : Thread nD τ).loc main_arg11)) :=
  (W11_of_ne m ρ c main_arg11 (by decide)).trans (at10_arg11 m ρ c)
theorem at11_arg12 : W11 m ρ c (Proc.devRef .tc main_arg12) = (m ((c : Thread nD τ).loc main_arg12)) :=
  (W11_of_ne m ρ c main_arg12 (by decide)).trans (at10_arg12 m ρ c)
theorem at11_arg13 : W11 m ρ c (Proc.devRef .tc main_arg13) = (m ((c : Thread nD τ).loc main_arg13)) :=
  (W11_of_ne m ρ c main_arg13 (by decide)).trans (at10_arg13 m ρ c)
theorem at11_arg14 : W11 m ρ c (Proc.devRef .tc main_arg14) = (m ((c : Thread nD τ).loc main_arg14)) :=
  (W11_of_ne m ρ c main_arg14 (by decide)).trans (at10_arg14 m ρ c)
theorem at11_v1 : W11 m ρ c (Proc.devRef .tc main_v1) = Cert.Model.srcIdx (m ((c : Thread nD τ).loc main_arg1)) :=
  (W11_of_ne m ρ c main_v1 (by decide)).trans (at10_v1 m ρ c)
theorem at11_v3 : W11 m ρ c (Proc.devRef .tc main_v3) = Cert.Model.dstIdx (m ((c : Thread nD τ).loc main_arg1)) :=
  (W11_of_ne m ρ c main_v3 (by decide)).trans (at10_v3 m ρ c)
theorem at11_v25 : W11 m ρ c (Proc.devRef .tc main_v25) = Cert.Model.norm (F := Ideal) (m ((c : Thread nD τ).loc main_arg1)) :=
  (W11_of_ne m ρ c main_v25 (by decide)).trans (at10_v25 m ρ c)
theorem at11_v29 : W11 m ρ c (Proc.devRef .tc main_v29) = (colOf (F := Ideal) (Cert.Model.selfScale (F := Ideal) (m ((c : Thread nD τ).loc main_arg1)))) :=
  (W11_of_ne m ρ c main_v29 (by decide)).trans (at10_v29 m ρ c)
theorem at11_v91 : W11 m ρ c (Proc.devRef .tc main_v91) = Y2 m c := by
  refine (W11_arr m ρ c 4).trans ((Region5.final (V10 m ρ) c).trans ?_)
  show normReluRes (W10 m ρ c (Proc.devRef .tc main_v76_0)) (W10 m ρ c (Proc.devRef .tc main_v60)) (W10 m ρ c (Proc.devRef .tc main_v87)) (W10 m ρ c (Proc.devRef .tc main_v90)) = _
  rw [(at10_v76_0 m ρ c), (at10_v60 m ρ c), (at10_v87 m ρ c), (at10_v90 m ρ c)]
  rfl

/-! ### After segment 12: kernel region 6 -/

theorem at12_arg2 : W12 m ρ c (Proc.devRef .tc main_arg2) = (m ((c : Thread nD τ).loc main_arg2)) :=
  (W12_of_ne m ρ c main_arg2 (by decide)).trans (at11_arg2 m ρ c)
theorem at12_arg12 : W12 m ρ c (Proc.devRef .tc main_arg12) = (m ((c : Thread nD τ).loc main_arg12)) :=
  (W12_of_ne m ρ c main_arg12 (by decide)).trans (at11_arg12 m ρ c)
theorem at12_arg13 : W12 m ρ c (Proc.devRef .tc main_arg13) = (m ((c : Thread nD τ).loc main_arg13)) :=
  (W12_of_ne m ρ c main_arg13 (by decide)).trans (at11_arg13 m ρ c)
theorem at12_arg14 : W12 m ρ c (Proc.devRef .tc main_arg14) = (m ((c : Thread nD τ).loc main_arg14)) :=
  (W12_of_ne m ρ c main_arg14 (by decide)).trans (at11_arg14 m ρ c)
theorem at12_v1 : W12 m ρ c (Proc.devRef .tc main_v1) = Cert.Model.srcIdx (m ((c : Thread nD τ).loc main_arg1)) :=
  (W12_of_ne m ρ c main_v1 (by decide)).trans (at11_v1 m ρ c)
theorem at12_v3 : W12 m ρ c (Proc.devRef .tc main_v3) = Cert.Model.dstIdx (m ((c : Thread nD τ).loc main_arg1)) :=
  (W12_of_ne m ρ c main_v3 (by decide)).trans (at11_v3 m ρ c)
theorem at12_v25 : W12 m ρ c (Proc.devRef .tc main_v25) = Cert.Model.norm (F := Ideal) (m ((c : Thread nD τ).loc main_arg1)) :=
  (W12_of_ne m ρ c main_v25 (by decide)).trans (at11_v25 m ρ c)
theorem at12_v29 : W12 m ρ c (Proc.devRef .tc main_v29) = (colOf (F := Ideal) (Cert.Model.selfScale (F := Ideal) (m ((c : Thread nD τ).loc main_arg1)))) :=
  (W12_of_ne m ρ c main_v29 (by decide)).trans (at11_v29 m ρ c)
theorem at12_v92 : W12 m ρ c (Proc.devRef .tc main_v92) = H2 m c := by
  refine (W12_arr m ρ c 2).trans ((Region6.final (V11 m ρ) c).trans ?_)
  show fullProd (W11 m ρ c (Proc.devRef .tc main_v91)) (W11 m ρ c (Proc.devRef .tc main_arg11)) = _
  rw [(at11_v91 m ρ c), (at11_arg11 m ρ c)]
  rfl

/-! ### After segment 13: the host stretch hostOps7 -/

theorem at13_arg2 : W13 m ρ c (Proc.devRef .tc main_arg2) = (m ((c : Thread nD τ).loc main_arg2)) :=
  (show StableHlo.after hostOps7 (W12 m ρ c) (Proc.devRef .tc main_arg2) = W12 m ρ c (Proc.devRef .tc main_arg2) by after_results_simp).trans (at12_arg2 m ρ c)
theorem at13_arg13 : W13 m ρ c (Proc.devRef .tc main_arg13) = (m ((c : Thread nD τ).loc main_arg13)) :=
  (show StableHlo.after hostOps7 (W12 m ρ c) (Proc.devRef .tc main_arg13) = W12 m ρ c (Proc.devRef .tc main_arg13) by after_results_simp).trans (at12_arg13 m ρ c)
theorem at13_arg14 : W13 m ρ c (Proc.devRef .tc main_arg14) = (m ((c : Thread nD τ).loc main_arg14)) :=
  (show StableHlo.after hostOps7 (W12 m ρ c) (Proc.devRef .tc main_arg14) = W12 m ρ c (Proc.devRef .tc main_arg14) by after_results_simp).trans (at12_arg14 m ρ c)
theorem at13_v29 : W13 m ρ c (Proc.devRef .tc main_v29) = (colOf (F := Ideal) (Cert.Model.selfScale (F := Ideal) (m ((c : Thread nD τ).loc main_arg1)))) :=
  (show StableHlo.after hostOps7 (W12 m ρ c) (Proc.devRef .tc main_v29) = W12 m ρ c (Proc.devRef .tc main_v29) by after_results_simp).trans (at12_v29 m ρ c)
theorem at13_v92 : W13 m ρ c (Proc.devRef .tc main_v92) = H2 m c :=
  (show StableHlo.after hostOps7 (W12 m ρ c) (Proc.devRef .tc main_v92) = W12 m ρ c (Proc.devRef .tc main_v92) by after_results_simp).trans (at12_v92 m ρ c)
theorem at13_v105 : W13 m ρ c (Proc.devRef .tc main_v105) = Cert.Model.aggregate (F := Ideal) (m ((c : Thread nD τ).loc main_arg1)) (H2 m c) :=
  (Stretch.s7_agg (W12 m ρ c) (m ((c : Thread nD τ).loc main_arg1)) (at12_v1 m ρ c) (at12_v3 m ρ c) (at12_v25 m ρ c)).trans (congrArg (Cert.Model.aggregate (F := Ideal) (m ((c : Thread nD τ).loc main_arg1))) (at12_v92 m ρ c))
theorem at13_v106 : W13 m ρ c (Proc.devRef .tc main_v106) = rowOf (F := Ideal) (m ((c : Thread nD τ).loc main_arg12)) :=
  (Stretch.s7_bias (W12 m ρ c)).trans (congrArg (rowOf (F := Ideal)) (at12_arg12 m ρ c))

/-! ### After segment 14: kernel region 7 -/

theorem at14_arg2 : W14 m ρ c (Proc.devRef .tc main_arg2) = (m ((c : Thread nD τ).loc main_arg2)) :=
  (W14_of_ne m ρ c main_arg2 (by decide)).trans (at13_arg2 m ρ c)
theorem at14_arg13 : W14 m ρ c (Proc.devRef .tc main_arg13) = (m ((c : Thread nD τ).loc main_arg13)) :=
  (W14_of_ne m ρ c main_arg13 (by decide)).trans (at13_arg13 m ρ c)
theorem at14_arg14 : W14 m ρ c (Proc.devRef .tc main_arg14) = (m ((c : Thread nD τ).loc main_arg14)) :=
  (W14_of_ne m ρ c main_arg14 (by decide)).trans (at13_arg14 m ρ c)
theorem at14_v107 : W14 m ρ c (Proc.devRef .tc main_v107) = C2 m c := by
  refine (W14_arr m ρ c 4).trans ((Region7.final (V13 m ρ) c).trans ?_)
  show combine (W13 m ρ c (Proc.devRef .tc main_v105)) (W13 m ρ c (Proc.devRef .tc main_v92)) (W13 m ρ c (Proc.devRef .tc main_v29)) (W13 m ρ c (Proc.devRef .tc main_v106)) = _
  rw [(at13_v105 m ρ c), (at13_v92 m ρ c), (at13_v29 m ρ c), (at13_v106 m ρ c)]
  rfl

/-! ### After segment 15: the host stretch hostOps8 -/

theorem at15_v114 : W15 m ρ c (Proc.devRef .tc main_v114) = Cert.Model.head (F := Ideal) (C2 m c) (m ((c : Thread nD τ).loc main_arg2)) (m ((c : Thread nD τ).loc main_arg13)) (m ((c : Thread nD τ).loc main_arg14)) := by
  refine (Stretch.s8_out (W14 m ρ c)).trans ?_
  rw [(at14_v107 m ρ c), (at14_arg2 m ρ c), (at14_arg13 m ρ c), (at14_arg14 m ρ c)]

/-- The result buffer at the last boundary is the kernel's closed form of the arguments' launch contents. -/
theorem result : W15 m ρ c (Proc.devRef .tc main_v114)
    = kernOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (at15_v114 m ρ c).trans rfl

end Cert.KernelIdeal.Chain

end
-- ==== Proof.RefRun.lean ====
/- The reference program's @main as a LIST of its host operations, each call's body written out at its call
   site over that call's buffers (the callee's parameters read as the caller's typed references, a nested call
   written out the same way), and the program's run read back: from any memory with zero counters every weakly
   fair execution terminates with each buffer at the fold of the operations' results over its launch contents.
   The list is kept in four consecutive pieces, one per printed window of @main; their concatenation is the
   whole program (sequencing two lines is running their concatenation). -/
import proofs.«124922_j63196148793943_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's statements 1 … 60 as 60 operations, in order: no call among them. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x40000000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_8 (constant S_ .f32 0x40000000#32),
    StableHlo.unary main_cst_8 main_v40 (broadcastInDim S100000 ![] bcast_S_S100000 : (⟨S_, .f32⟩ : BufTy).Contents (Elt F) → (⟨S100000, .f32⟩ : BufTy).Contents (Elt F)),
    StableHlo.binary main_v40 main_v11 main_v41 (mulf : (⟨S100000, .f32⟩ : BufTy).Contents (Elt F) → (⟨S100000, .f32⟩ : BufTy).Contents (Elt F) → (⟨S100000, .f32⟩ : BufTy).Contents (Elt F)),
    StableHlo.binary main_v41 main_v11 main_v42 (mulf : (⟨S100000, .f32⟩ : BufTy).Contents (Elt F) → (⟨S100000, .f32⟩ : BufTy).Contents (Elt F) → (⟨S100000, .f32⟩ : BufTy).Contents (Elt F)),
    StableHlo.unary main_v42 main_v43 (broadcastInDim S100000x1 ![0] bcast_S100000_S100000x1_0 : (⟨S100000, .f32⟩ : BufTy).Contents (Elt F) → (⟨S100000x1, .f32⟩ : BufTy).Contents (Elt F)),
    StableHlo.unary main_v43 main_v44 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v44 main_v45 (mulf : (⟨S100000x128, .f32⟩ : BufTy).Contents (Elt F) → (⟨S100000x128, .f32⟩ : BufTy).Contents (Elt F) → (⟨S100000x128, .f32⟩ : BufTy).Contents (Elt F)),
    StableHlo.binary main_v39 main_v45 main_v46 (addf : (⟨S100000x128, .f32⟩ : BufTy).Contents (Elt F) → (⟨S100000x128, .f32⟩ : BufTy).Contents (Elt F) → (⟨S100000x128, .f32⟩ : BufTy).Contents (Elt F)),
    StableHlo.unary main_arg4 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)) ]

/-- @main's statements 61 … 120 as 83 operations, in order: the first variance (nineteen operations and the three of its select against NaN) and the first rectifier (three) written out. -/
abbrev ops1 : List (HloOp τ sig (Elt F)) :=
  [ StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32),
    StableHlo.binary main_v49 main_cst_9 main_v50 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v51 (broadcastInDim S128 ![] bcast_S_S128 : (⟨S_, .f32⟩ : BufTy).Contents (Elt F) → (⟨S128, .f32⟩ : BufTy).Contents (Elt F)),
    StableHlo.binary main_v50 main_v51 main_v52 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call0.cst (constant S_ .f32 0x00000000#32),
    StableHlo.TRef.binary (.of main_v49 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v49 : StableHlo.TRef sig ⟨S100000x128, .f32⟩) main_call0.v4 main_call0.v5 subf,
    StableHlo.TRef.binary main_call0.v5 main_call0.v5 main_call0.v6 mulf,
    StableHlo.TRef.unary (.of main_c_11 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v52 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v55 main_v56 (subf : (⟨S100000x128, .f32⟩ : BufTy).Contents (Elt F) → (⟨S100000x128, .f32⟩ : BufTy).Contents (Elt F) → (⟨S100000x128, .f32⟩ : BufTy).Contents (Elt F)),
    StableHlo.unary main_arg5 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v56 main_v59 (mulf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v60 (broadcastInDim S128 ![] bcast_S_S128 : (⟨S_, .f32⟩ : BufTy).Contents (Elt F) → (⟨S128, .f32⟩ : BufTy).Contents (Elt F)),
    StableHlo.binary main_v53 main_v60 main_v61 (addf : (⟨S128, .f32⟩ : BufTy).Contents (Elt F) → (⟨S128, .f32⟩ : BufTy).Contents (Elt F) → (⟨S128, .f32⟩ : BufTy).Contents (Elt F)),
    StableHlo.unary main_v61 main_v62 (Host.rsqrt : (⟨S128, .f32⟩ : BufTy).Contents (Elt F) → (⟨S128, .f32⟩ : BufTy).Contents (Elt F)),
    StableHlo.unary main_v62 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v64 main_v65 (mulf : (⟨S100000x128, .f32⟩ : BufTy).Contents (Elt F) → (⟨S100000x128, .f32⟩ : BufTy).Contents (Elt F) → (⟨S100000x128, .f32⟩ : BufTy).Contents (Elt F)),
    StableHlo.unary main_arg6 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v68 : StableHlo.TRef sig ⟨S100000x128, .f32⟩) main_call1.v0 main_call1.v1 maximumf,
    StableHlo.binary main_v69 main_arg0 main_v70 (addf : (⟨S100000x128, .f32⟩ : BufTy).Contents (Elt F) → (⟨S100000x128, .f32⟩ : BufTy).Contents (Elt F) → (⟨S100000x128, .f32⟩ : BufTy).Contents (Elt F)),
    StableHlo.binary main_v70 main_arg7 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_13 (constant S_ .f32 0x3F800000#32),
    StableHlo.unary main_cst_13 main_v72 (broadcastInDim S1600000 ![] bcast_S_S1600000 : (⟨S_, .f32⟩ : BufTy).Contents (Elt F) → (⟨S1600000, .f32⟩ : BufTy).Contents (Elt F)),
    StableHlo.nullary main_cst_14 (constant S_ .f32 0x00000000#32),
    StableHlo.unary main_cst_14 main_v73 (broadcastInDim S100000 ![] bcast_S_S100000 : (⟨S_, .f32⟩ : BufTy).Contents (Elt F) → (⟨S100000, .f32⟩ : BufTy).Contents (Elt F)),
    StableHlo.unary main_v3 main_v74 (broadcastInDim S1600000x1 ![0] bcast_S1600000_S1600000x1_0 : (⟨S1600000, .i32⟩ : BufTy).Contents (Elt F) → (⟨S1600000x1, .i32⟩ : BufTy).Contents (Elt F)),
    StableHlo.ternary main_v73 main_v74 main_v72 main_v75 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_15 (constant S_ .f32 0x40000000#32),
    StableHlo.unary main_cst_15 main_v76 (broadcastInDim S100000 ![] bcast_S_S100000 : (⟨S_, .f32⟩ : BufTy).Contents (Elt F) → (⟨S100000, .f32⟩ : BufTy).Contents (Elt F)),
    StableHlo.binary main_v75 main_v76 main_v77 (addf : (⟨S100000, .f32⟩ : BufTy).Contents (Elt F) → (⟨S100000, .f32⟩ : BufTy).Contents (Elt F) → (⟨S100000, .f32⟩ : BufTy).Contents (Elt F)),
    StableHlo.unary main_v77 main_v78 (Host.rsqrt : (⟨S100000, .f32⟩ : BufTy).Contents (Elt F) → (⟨S100000, .f32⟩ : BufTy).Contents (Elt F)),
    StableHlo.nullary main_c_16 (constantI S_ 32 0#32),
    StableHlo.unary main_c_16 main_v79 (broadcastInDim S1600000 ![] bcast_S_S1600000 : (⟨S_, .i32⟩ : BufTy).Contents (Elt F) → (⟨S1600000, .i32⟩ : BufTy).Contents (Elt F)),
    StableHlo.binary main_v1 main_v79 main_v80 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v81 (broadcastInDim S1600000 ![] bcast_S_S1600000 : (⟨S_, .i32⟩ : BufTy).Contents (Elt F) → (⟨S1600000, .i32⟩ : BufTy).Contents (Elt F)),
    StableHlo.binary main_v1 main_v81 main_v82 (addi : (⟨S1600000, .i32⟩ : BufTy).Contents (Elt F) → (⟨S1600000, .i32⟩ : BufTy).Contents (Elt F) → (⟨S1600000, .i32⟩ : BufTy).Contents (Elt F)),
    StableHlo.ternary main_v80 main_v82 main_v1 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v83 main_v84 (broadcastInDim S1600000x1 ![0] bcast_S1600000_S1600000x1_0 : (⟨S1600000, .i32⟩ : BufTy).Contents (Elt F) → (⟨S1600000x1, .i32⟩ : BufTy).Contents (Elt F)),
    StableHlo.binary main_v78 main_v84 main_v85 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_18 (constantI S_ 32 0#32),
    StableHlo.unary main_c_18 main_v86 (broadcastInDim S1600000 ![] bcast_S_S1600000 : (⟨S_, .i32⟩ : BufTy).Contents (Elt F) → (⟨S1600000, .i32⟩ : BufTy).Contents (Elt F)),
    StableHlo.binary main_v3 main_v86 main_v87 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v88 (broadcastInDim S1600000 ![] bcast_S_S1600000 : (⟨S_, .i32⟩ : BufTy).Contents (Elt F) → (⟨S1600000, .i32⟩ : BufTy).Contents (Elt F)),
    StableHlo.binary main_v3 main_v88 main_v89 (addi : (⟨S1600000, .i32⟩ : BufTy).Contents (Elt F) → (⟨S1600000, .i32⟩ : BufTy).Contents (Elt F) → (⟨S1600000, .i32⟩ : BufTy).Contents (Elt F)),
    StableHlo.ternary main_v87 main_v89 main_v3 main_v90 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v90 main_v91 (broadcastInDim S1600000x1 ![0] bcast_S1600000_S1600000x1_0 : (⟨S1600000, .i32⟩ : BufTy).Contents (Elt F) → (⟨S1600000x1, .i32⟩ : BufTy).Contents (Elt F)),
    StableHlo.binary main_v78 main_v91 main_v92 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v85 main_v92 main_v93 (mulf : (⟨S1600000, .f32⟩ : BufTy).Contents (Elt F) → (⟨S1600000, .f32⟩ : BufTy).Contents (Elt F) → (⟨S1600000, .f32⟩ : BufTy).Contents (Elt F)),
    StableHlo.nullary main_c_20 (constantI S_ 32 0#32),
    StableHlo.unary main_c_20 main_v94 (broadcastInDim S1600000 ![] bcast_S_S1600000 : (⟨S_, .i32⟩ : BufTy).Contents (Elt F) → (⟨S1600000, .i32⟩ : BufTy).Contents (Elt F)),
    StableHlo.binary main_v1 main_v94 main_v95 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32) ]

/-- @main's statements 121 … 180 as 83 operations, in order: the second variance and the second rectifier written out. -/
abbrev ops2 : List (HloOp τ sig (Elt F)) :=
  [ StableHlo.unary main_c_21 main_v96 (broadcastInDim S1600000 ![] bcast_S_S1600000 : (⟨S_, .i32⟩ : BufTy).Contents (Elt F) → (⟨S1600000, .i32⟩ : BufTy).Contents (Elt F)),
    StableHlo.binary main_v1 main_v96 main_v97 (addi : (⟨S1600000, .i32⟩ : BufTy).Contents (Elt F) → (⟨S1600000, .i32⟩ : BufTy).Contents (Elt F) → (⟨S1600000, .i32⟩ : BufTy).Contents (Elt F)),
    StableHlo.ternary main_v95 main_v97 main_v1 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v98 main_v99 (broadcastInDim S1600000x1 ![0] bcast_S1600000_S1600000x1_0 : (⟨S1600000, .i32⟩ : BufTy).Contents (Elt F) → (⟨S1600000x1, .i32⟩ : BufTy).Contents (Elt F)),
    StableHlo.binary main_v71 main_v99 main_v100 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v93 main_v101 (broadcastInDim S1600000x1 ![0] bcast_S1600000_S1600000x1_0 : (⟨S1600000, .f32⟩ : BufTy).Contents (Elt F) → (⟨S1600000x1, .f32⟩ : BufTy).Contents (Elt F)),
    StableHlo.unary main_v101 main_v102 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v100 main_v102 main_v103 (mulf : (⟨S1600000x128, .f32⟩ : BufTy).Contents (Elt F) → (⟨S1600000x128, .f32⟩ : BufTy).Contents (Elt F) → (⟨S1600000x128, .f32⟩ : BufTy).Contents (Elt F)),
    StableHlo.nullary main_cst_22 (constant S_ .f32 0x00000000#32),
    StableHlo.unary main_cst_22 main_v104 (broadcastInDim S100000x128 ![] bcast_S_S100000x128 : (⟨S_, .f32⟩ : BufTy).Contents (Elt F) → (⟨S100000x128, .f32⟩ : BufTy).Contents (Elt F)),
    StableHlo.unary main_v3 main_v105 (broadcastInDim S1600000x1 ![0] bcast_S1600000_S1600000x1_0 : (⟨S1600000, .i32⟩ : BufTy).Contents (Elt F) → (⟨S1600000x1, .i32⟩ : BufTy).Contents (Elt F)),
    StableHlo.ternary main_v104 main_v105 main_v103 main_v106 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_23 (constant S_ .f32 0x40000000#32),
    StableHlo.unary main_cst_23 main_v107 (broadcastInDim S100000 ![] bcast_S_S100000 : (⟨S_, .f32⟩ : BufTy).Contents (Elt F) → (⟨S100000, .f32⟩ : BufTy).Contents (Elt F)),
    StableHlo.binary main_v107 main_v78 main_v108 (mulf : (⟨S100000, .f32⟩ : BufTy).Contents (Elt F) → (⟨S100000, .f32⟩ : BufTy).Contents (Elt F) → (⟨S100000, .f32⟩ : BufTy).Contents (Elt F)),
    StableHlo.binary main_v108 main_v78 main_v109 (mulf : (⟨S100000, .f32⟩ : BufTy).Contents (Elt F) → (⟨S100000, .f32⟩ : BufTy).Contents (Elt F) → (⟨S100000, .f32⟩ : BufTy).Contents (Elt F)),
    StableHlo.unary main_v109 main_v110 (broadcastInDim S100000x1 ![0] bcast_S100000_S100000x1_0 : (⟨S100000, .f32⟩ : BufTy).Contents (Elt F) → (⟨S100000x1, .f32⟩ : BufTy).Contents (Elt F)),
    StableHlo.unary main_v110 main_v111 (broadcastInDim S100000x128 ![0, 1] bcast_S100000x1_S100000x128_0_1 : (⟨S100000x1, .f32⟩ : BufTy).Contents (Elt F) → (⟨S100000x128, .f32⟩ : BufTy).Contents (Elt F)),
    StableHlo.binary main_v71 main_v111 main_v112 (mulf : (⟨S100000x128, .f32⟩ : BufTy).Contents (Elt F) → (⟨S100000x128, .f32⟩ : BufTy).Contents (Elt F) → (⟨S100000x128, .f32⟩ : BufTy).Contents (Elt F)),
    StableHlo.binary main_v106 main_v112 main_v113 (addf : (⟨S100000x128, .f32⟩ : BufTy).Contents (Elt F) → (⟨S100000x128, .f32⟩ : BufTy).Contents (Elt F) → (⟨S100000x128, .f32⟩ : BufTy).Contents (Elt F)),
    StableHlo.unary main_arg8 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v115 main_v116 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x00000000#32),
    StableHlo.binary main_v116 main_cst_24 main_v117 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_25 (constant S_ .f32 0x47C35000#32),
    StableHlo.unary main_cst_25 main_v118 (broadcastInDim S128 ![] bcast_S_S128 : (⟨S_, .f32⟩ : BufTy).Contents (Elt F) → (⟨S128, .f32⟩ : BufTy).Contents (Elt F)),
    StableHlo.binary main_v117 main_v118 main_v119 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call2.cst (constant S_ .f32 0x00000000#32),
    StableHlo.TRef.binary (.of main_v116 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v116 : StableHlo.TRef sig ⟨S100000x128, .f32⟩) main_call2.v4 main_call2.v5 subf,
    StableHlo.TRef.binary main_call2.v5 main_call2.v5 main_call2.v6 mulf,
    StableHlo.TRef.unary (.of main_c_26 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v119 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S100000x128 ![0, 1] bcast_S1x128_S100000x128_0_1 : (⟨S1x128, .f32⟩ : BufTy).Contents (Elt F) → (⟨S100000x128, .f32⟩ : BufTy).Contents (Elt F)),
    StableHlo.binary main_v116 main_v122 main_v123 (subf : (⟨S100000x128, .f32⟩ : BufTy).Contents (Elt F) → (⟨S100000x128, .f32⟩ : BufTy).Contents (Elt F) → (⟨S100000x128, .f32⟩ : BufTy).Contents (Elt F)),
    StableHlo.unary main_arg9 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v123 main_v126 (mulf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v127 (broadcastInDim S128 ![] bcast_S_S128 : (⟨S_, .f32⟩ : BufTy).Contents (Elt F) → (⟨S128, .f32⟩ : BufTy).Contents (Elt F)),
    StableHlo.binary main_v120 main_v127 main_v128 (addf : (⟨S128, .f32⟩ : BufTy).Contents (Elt F) → (⟨S128, .f32⟩ : BufTy).Contents (Elt F) → (⟨S128, .f32⟩ : BufTy).Contents (Elt F)),
    StableHlo.unary main_v128 main_v129 (Host.rsqrt : (⟨S128, .f32⟩ : BufTy).Contents (Elt F) → (⟨S128, .f32⟩ : BufTy).Contents (Elt F)),
    StableHlo.unary main_v129 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v131 main_v132 (mulf : (⟨S100000x128, .f32⟩ : BufTy).Contents (Elt F) → (⟨S100000x128, .f32⟩ : BufTy).Contents (Elt F) → (⟨S100000x128, .f32⟩ : BufTy).Contents (Elt F)),
    StableHlo.unary main_arg10 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v134 main_v135 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v135 : StableHlo.TRef sig ⟨S100000x128, .f32⟩) main_call3.v0 main_call3.v1 maximumf,
    StableHlo.binary main_v136 main_v70 main_v137 (addf : (⟨S100000x128, .f32⟩ : BufTy).Contents (Elt F) → (⟨S100000x128, .f32⟩ : BufTy).Contents (Elt F) → (⟨S100000x128, .f32⟩ : BufTy).Contents (Elt F)),
    StableHlo.binary main_v137 main_arg11 main_v138 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_28 (constant S_ .f32 0x3F800000#32),
    StableHlo.unary main_cst_28 main_v139 (broadcastInDim S1600000 ![] bcast_S_S1600000 : (⟨S_, .f32⟩ : BufTy).Contents (Elt F) → (⟨S1600000, .f32⟩ : BufTy).Contents (Elt F)),
    StableHlo.nullary main_cst_29 (constant S_ .f32 0x00000000#32),
    StableHlo.unary main_cst_29 main_v140 (broadcastInDim S100000 ![] bcast_S_S100000 : (⟨S_, .f32⟩ : BufTy).Contents (Elt F) → (⟨S100000, .f32⟩ : BufTy).Contents (Elt F)),
    StableHlo.unary main_v3 main_v141 (broadcastInDim S1600000x1 ![0] bcast_S1600000_S1600000x1_0 : (⟨S1600000, .i32⟩ : BufTy).Contents (Elt F) → (⟨S1600000x1, .i32⟩ : BufTy).Contents (Elt F)),
    StableHlo.ternary main_v140 main_v141 main_v139 main_v142 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_30 (constant S_ .f32 0x40000000#32),
    StableHlo.unary main_cst_30 main_v143 (broadcastInDim S100000 ![] bcast_S_S100000 : (⟨S_, .f32⟩ : BufTy).Contents (Elt F) → (⟨S100000, .f32⟩ : BufTy).Contents (Elt F)),
    StableHlo.binary main_v142 main_v143 main_v144 (addf : (⟨S100000, .f32⟩ : BufTy).Contents (Elt F) → (⟨S100000, .f32⟩ : BufTy).Contents (Elt F) → (⟨S100000, .f32⟩ : BufTy).Contents (Elt F)),
    StableHlo.unary main_v144 main_v145 (Host.rsqrt : (⟨S100000, .f32⟩ : BufTy).Contents (Elt F) → (⟨S100000, .f32⟩ : BufTy).Contents (Elt F)),
    StableHlo.nullary main_c_31 (constantI S_ 32 0#32) ]

/-- @main's statements 181 … 234 as 53 operations, in order: no call among them; the last is the result. -/
abbrev ops3 : List (HloOp τ sig (Elt F)) :=
  [ StableHlo.unary main_c_31 main_v146 (broadcastInDim S1600000 ![] bcast_S_S1600000 : (⟨S_, .i32⟩ : BufTy).Contents (Elt F) → (⟨S1600000, .i32⟩ : BufTy).Contents (Elt F)),
    StableHlo.binary main_v1 main_v146 main_v147 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v148 (broadcastInDim S1600000 ![] bcast_S_S1600000 : (⟨S_, .i32⟩ : BufTy).Contents (Elt F) → (⟨S1600000, .i32⟩ : BufTy).Contents (Elt F)),
    StableHlo.binary main_v1 main_v148 main_v149 (addi : (⟨S1600000, .i32⟩ : BufTy).Contents (Elt F) → (⟨S1600000, .i32⟩ : BufTy).Contents (Elt F) → (⟨S1600000, .i32⟩ : BufTy).Contents (Elt F)),
    StableHlo.ternary main_v147 main_v149 main_v1 main_v150 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v150 main_v151 (broadcastInDim S1600000x1 ![0] bcast_S1600000_S1600000x1_0 : (⟨S1600000, .i32⟩ : BufTy).Contents (Elt F) → (⟨S1600000x1, .i32⟩ : BufTy).Contents (Elt F)),
    StableHlo.binary main_v145 main_v151 main_v152 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_33 (constantI S_ 32 0#32),
    StableHlo.unary main_c_33 main_v153 (broadcastInDim S1600000 ![] bcast_S_S1600000 : (⟨S_, .i32⟩ : BufTy).Contents (Elt F) → (⟨S1600000, .i32⟩ : BufTy).Contents (Elt F)),
    StableHlo.binary main_v3 main_v153 main_v154 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v155 (broadcastInDim S1600000 ![] bcast_S_S1600000 : (⟨S_, .i32⟩ : BufTy).Contents (Elt F) → (⟨S1600000, .i32⟩ : BufTy).Contents (Elt F)),
    StableHlo.binary main_v3 main_v155 main_v156 (addi : (⟨S1600000, .i32⟩ : BufTy).Contents (Elt F) → (⟨S1600000, .i32⟩ : BufTy).Contents (Elt F) → (⟨S1600000, .i32⟩ : BufTy).Contents (Elt F)),
    StableHlo.ternary main_v154 main_v156 main_v3 main_v157 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v157 main_v158 (broadcastInDim S1600000x1 ![0] bcast_S1600000_S1600000x1_0 : (⟨S1600000, .i32⟩ : BufTy).Contents (Elt F) → (⟨S1600000x1, .i32⟩ : BufTy).Contents (Elt F)),
    StableHlo.binary main_v145 main_v158 main_v159 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v152 main_v159 main_v160 (mulf : (⟨S1600000, .f32⟩ : BufTy).Contents (Elt F) → (⟨S1600000, .f32⟩ : BufTy).Contents (Elt F) → (⟨S1600000, .f32⟩ : BufTy).Contents (Elt F)),
    StableHlo.nullary main_c_35 (constantI S_ 32 0#32),
    StableHlo.unary main_c_35 main_v161 (broadcastInDim S1600000 ![] bcast_S_S1600000 : (⟨S_, .i32⟩ : BufTy).Contents (Elt F) → (⟨S1600000, .i32⟩ : BufTy).Contents (Elt F)),
    StableHlo.binary main_v1 main_v161 main_v162 (cmpi .slt : (⟨S1600000, .i32⟩ : BufTy).Contents (Elt F) → (⟨S1600000, .i32⟩ : BufTy).Contents (Elt F) → (⟨S1600000, .i1⟩ : BufTy).Contents (Elt F)),
    StableHlo.nullary main_c_36 (constantI S_ 32 100000#32),
    StableHlo.unary main_c_36 main_v163 (broadcastInDim S1600000 ![] bcast_S_S1600000 : (⟨S_, .i32⟩ : BufTy).Contents (Elt F) → (⟨S1600000, .i32⟩ : BufTy).Contents (Elt F)),
    StableHlo.binary main_v1 main_v163 main_v164 (addi : (⟨S1600000, .i32⟩ : BufTy).Contents (Elt F) → (⟨S1600000, .i32⟩ : BufTy).Contents (Elt F) → (⟨S1600000, .i32⟩ : BufTy).Contents (Elt F)),
    StableHlo.ternary main_v162 main_v164 main_v1 main_v165 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v165 main_v166 (broadcastInDim S1600000x1 ![0] bcast_S1600000_S1600000x1_0 : (⟨S1600000, .i32⟩ : BufTy).Contents (Elt F) → (⟨S1600000x1, .i32⟩ : BufTy).Contents (Elt F)),
    StableHlo.binary main_v138 main_v166 main_v167 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v160 main_v168 (broadcastInDim S1600000x1 ![0] bcast_S1600000_S1600000x1_0 : (⟨S1600000, .f32⟩ : BufTy).Contents (Elt F) → (⟨S1600000x1, .f32⟩ : BufTy).Contents (Elt F)),
    StableHlo.unary main_v168 main_v169 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v167 main_v169 main_v170 (mulf : (⟨S1600000x128, .f32⟩ : BufTy).Contents (Elt F) → (⟨S1600000x128, .f32⟩ : BufTy).Contents (Elt F) → (⟨S1600000x128, .f32⟩ : BufTy).Contents (Elt F)),
    StableHlo.nullary main_cst_37 (constant S_ .f32 0x00000000#32),
    StableHlo.unary main_cst_37 main_v171 (broadcastInDim S100000x128 ![] bcast_S_S100000x128 : (⟨S_, .f32⟩ : BufTy).Contents (Elt F) → (⟨S100000x128, .f32⟩ : BufTy).Contents (Elt F)),
    StableHlo.unary main_v3 main_v172 (broadcastInDim S1600000x1 ![0] bcast_S1600000_S1600000x1_0 : (⟨S1600000, .i32⟩ : BufTy).Contents (Elt F) → (⟨S1600000x1, .i32⟩ : BufTy).Contents (Elt F)),
    StableHlo.ternary main_v171 main_v172 main_v170 main_v173 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_38 (constant S_ .f32 0x40000000#32),
    StableHlo.unary main_cst_38 main_v174 (broadcastInDim S100000 ![] bcast_S_S100000 : (⟨S_, .f32⟩ : BufTy).Contents (Elt F) → (⟨S100000, .f32⟩ : BufTy).Contents (Elt F)),
    StableHlo.binary main_v174 main_v145 main_v175 (mulf : (⟨S100000, .f32⟩ : BufTy).Contents (Elt F) → (⟨S100000, .f32⟩ : BufTy).Contents (Elt F) → (⟨S100000, .f32⟩ : BufTy).Contents (Elt F)),
    StableHlo.binary main_v175 main_v145 main_v176 (mulf : (⟨S100000, .f32⟩ : BufTy).Contents (Elt F) → (⟨S100000, .f32⟩ : BufTy).Contents (Elt F) → (⟨S100000, .f32⟩ : BufTy).Contents (Elt F)),
    StableHlo.unary main_v176 main_v177 (broadcastInDim S100000x1 ![0] bcast_S100000_S100000x1_0 : (⟨S100000, .f32⟩ : BufTy).Contents (Elt F) → (⟨S100000x1, .f32⟩ : BufTy).Contents (Elt F)),
    StableHlo.unary main_v177 main_v178 (broadcastInDim S100000x128 ![0, 1] bcast_S100000x1_S100000x128_0_1 : (⟨S100000x1, .f32⟩ : BufTy).Contents (Elt F) → (⟨S100000x128, .f32⟩ : BufTy).Contents (Elt F)),
    StableHlo.binary main_v138 main_v178 main_v179 (mulf : (⟨S100000x128, .f32⟩ : BufTy).Contents (Elt F) → (⟨S100000x128, .f32⟩ : BufTy).Contents (Elt F) → (⟨S100000x128, .f32⟩ : BufTy).Contents (Elt F)),
    StableHlo.binary main_v173 main_v179 main_v180 (addf : (⟨S100000x128, .f32⟩ : BufTy).Contents (Elt F) → (⟨S100000x128, .f32⟩ : BufTy).Contents (Elt F) → (⟨S100000x128, .f32⟩ : BufTy).Contents (Elt F)),
    StableHlo.unary main_arg12 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v182 main_v183 (addf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x00000000#32),
    StableHlo.unary main_cst_39 main_v184 (broadcastInDim S512x128 ![] bcast_S_S512x128 : (⟨S_, .f32⟩ : BufTy).Contents (Elt F) → (⟨S512x128, .f32⟩ : BufTy).Contents (Elt F)),
    StableHlo.unary main_arg2 main_v185 (broadcastInDim S100000x1 ![0] bcast_S100000_S100000x1_0 : (⟨S100000, .i32⟩ : BufTy).Contents (Elt F) → (⟨S100000x1, .i32⟩ : BufTy).Contents (Elt F)),
    StableHlo.ternary main_v184 main_v185 main_v183 main_v186 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.binary main_v186 main_arg13 main_v187 ((fun l r => Host.dotGeneral dot_S512x128_S128x1_S512x1_1_0_0_1_n_n none l r) : (⟨S512x128, .f32⟩ : BufTy).Contents (Elt F) → (⟨S128x1, .f32⟩ : BufTy).Contents (Elt F) → (⟨S512x1, .f32⟩ : BufTy).Contents (Elt F)),
    StableHlo.unary main_arg14 main_v188 (broadcastInDim S1x1 ![1] bcast_S1_S1x1_1 : (⟨S1, .f32⟩ : BufTy).Contents (Elt F) → (⟨S1x1, .f32⟩ : BufTy).Contents (Elt F)),
    StableHlo.unary main_v188 main_v189 (broadcastInDim S512x1 ![0, 1] bcast_S1x1_S512x1_0_1 : (⟨S1x1, .f32⟩ : BufTy).Contents (Elt F) → (⟨S512x1, .f32⟩ : BufTy).Contents (Elt F)),
    StableHlo.binary main_v187 main_v189 main_v190 (addf : (⟨S512x1, .f32⟩ : BufTy).Contents (Elt F) → (⟨S512x1, .f32⟩ : BufTy).Contents (Elt F) → (⟨S512x1, .f32⟩ : BufTy).Contents (Elt F)) ]

/-- Every operation of @main in program order, the calls written out: the four pieces end to end. -/
abbrev ops : List (HloOp τ sig (Elt F)) := ops0 ++ (ops1 ++ (ops2 ++ ops3))

/-! ## The program is that line

Each printed window is the line of its piece by computation: a call unfolds to its body's steps over the call's
record, a record's field to the buffer it names, and sequencing a step into what follows is the step continued by
it (the window's last step is continued by the return, which is what the line ends in). -/

set_option maxRecDepth 16384 in
set_option maxHeartbeats 4000000 in
theorem part0_eq (c : Dev nD) : main_part0 (F := F) c = seq ops0 := rfl

set_option maxRecDepth 16384 in
set_option maxHeartbeats 4000000 in
theorem part1_eq (c : Dev nD) : main_part1 (F := F) c = seq ops1 := rfl

set_option maxRecDepth 16384 in
set_option maxHeartbeats 4000000 in
theorem part2_eq (c : Dev nD) : main_part2 (F := F) c = seq ops2 := rfl

set_option maxRecDepth 16384 in
set_option maxHeartbeats 4000000 in
theorem part3_eq (c : Dev nD) : main_part3 (F := F) c = seq ops3 := rfl

/-- @main runs its four windows in order, and running lines in order is running their concatenation. -/
theorem main_eq (c : Dev nD) : main (F := F) c = seq ops := by
  rw [seq_append, seq_append, seq_append, ← part0_eq c, ← part1_eq c, ← part2_eq c, ← part3_eq c]
  rfl

/-! ## The side conditions of the run -/

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! Every operation touches TensorCore references only: piece by piece, each operation by its builder's lemma. -/

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., nullary_bufs_sub .., unary_bufs_sub .., binary_bufs_sub .., binary_bufs_sub ..,
    unary_bufs_sub .., unary_bufs_sub .., binary_bufs_sub .., binary_bufs_sub .., unary_bufs_sub .., unary_bufs_sub ..⟩

theorem ops1_sub : (ops1 : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub ..⟩

theorem ops2_sub : (ops2 : List (HloOp τ sig (Elt F))).Forall fun op => op.bufs ⊆ tcRefs τ sig :=
  ⟨unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    nullary_bufs_sub .., unary_bufs_sub .., binary_bufs_sub .., binary_bufs_sub .., unary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., binary_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub ..⟩

theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., unary_bufs_sub ..,
    binary_bufs_sub .., binary_bufs_sub .., unary_bufs_sub .., unary_bufs_sub .., binary_bufs_sub .., binary_bufs_sub ..,
    unary_bufs_sub .., unary_bufs_sub .., binary_bufs_sub .., nullary_bufs_sub .., unary_bufs_sub .., unary_bufs_sub ..,
    ternary_bufs_sub .., binary_bufs_sub .., unary_bufs_sub .., unary_bufs_sub .., binary_bufs_sub ..⟩

theorem ops_sub : (ops : List (HloOp τ sig (Elt F))).Forall fun op => op.bufs ⊆ tcRefs τ sig :=
  List.forall_append.2 ⟨ops0_sub, List.forall_append.2 ⟨ops1_sub, List.forall_append.2 ⟨ops2_sub, ops3_sub⟩⟩⟩

/-! Every operation determines its results (none allocates a buffer of contents not chosen): by computation. -/

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem ops_fresh : ∀ op ∈ (ops : List (HloOp τ sig (Elt F))), op.fresh = ∅ :=
  List.forall_iff_forall_mem.1
    (List.forall_append.2 ⟨ops0_fresh, List.forall_append.2 ⟨ops1_fresh, List.forall_append.2 ⟨ops2_fresh, ops3_fresh⟩⟩⟩)

/-! ## The run -/

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefArgs.lean ====
/- The reference program's arguments are left as the launch dealt them: no operation of the line writes an
   argument's buffer, so the fold of the operations' results reads, at an argument, what was there. -/
import proofs.«124922_j63196148793943_1_alg».proof.Proof.RefRun
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A buffer among a list's is, as a device buffer, in the set the list spells. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-! ## What each piece writes

Every operation writes one buffer, its result's; piece by piece the results' buffers as a list, and each
operation's written set inside the list's. A reference not in the list is then untouched by the piece
(which reference is which is decided over references). -/

/-- The buffers the operations of piece 0 write, in order. -/
abbrev W0 : List (Ref sig .tc) :=
  [main_v0, main_v1, main_v2, main_v3, main_v4, main_cst, main_v5, main_cst_0, main_v6, main_v7,
   main_v8, main_cst_1, main_v9, main_v10, main_v11, main_c, main_v12, main_v13, main_c_2, main_v14,
   main_v15, main_v16, main_v17, main_v18, main_c_3, main_v19, main_v20, main_c_4, main_v21, main_v22,
   main_v23, main_v24, main_v25, main_v26, main_c_5, main_v27, main_v28, main_c_6, main_v29, main_v30,
   main_v31, main_v32, main_v33, main_v34, main_v35, main_v36, main_cst_7, main_v37, main_v38, main_v39,
   main_cst_8, main_v40, main_v41, main_v42, main_v43, main_v44, main_v45, main_v46, main_v47, main_v48]

theorem ops0_writes : (ops0 : List (HloOp τ sig (Elt F))).Forall fun op => op.writes ⊆ ((W0).map (Proc.devRef (τ := τ) .tc)).toFinset :=
  ⟨wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide)⟩

/-- A buffer piece 0 does not write keeps its contents over the piece. -/
theorem after_ops0_of_not_mem {r : Ref sig .tc} (hr : r ∉ W0) (V : Valuation τ sig (Elt F)) :
    after ops0 V (Proc.devRef .tc r) = V (Proc.devRef .tc r) :=
  after_of_writes_sub ops0 V ops0_writes hr

/-- The buffers the operations of piece 1 write, in order. -/
abbrev W1 : List (Ref sig .tc) :=
  [main_v49, main_cst_9, main_v50, main_cst_10, main_v51, main_v52, main_c_11, main_call0.cst.ref, main_call0.v0.ref, main_call0.v1.ref,
   main_call0.cst_0.ref, main_call0.v2.ref, main_call0.v3.ref, main_call0.v4.ref, main_call0.v5.ref, main_call0.v6.ref, main_call0.v7.ref, main_call0.cst_1.ref, main_call0.v8.ref, main_call0.cst_2.ref,
   main_call0.v9.ref, main_call0.v10.ref, main_call0.v11.ref, main_call0.cst_3.ref, main_call0.v12.ref, main_call0.cst_4.ref, main_call0.call0.v0.ref, main_call0.call0.v1.ref, main_call0.call0.v2.ref, main_v54,
   main_v55, main_v56, main_v57, main_v58, main_v59, main_cst_12, main_v60, main_v61, main_v62, main_v63,
   main_v64, main_v65, main_v66, main_v67, main_v68, main_call1.cst.ref, main_call1.v0.ref, main_call1.v1.ref, main_v70, main_v71,
   main_cst_13, main_v72, main_cst_14, main_v73, main_v74, main_v75, main_cst_15, main_v76, main_v77, main_v78,
   main_c_16, main_v79, main_v80, main_c_17, main_v81, main_v82, main_v83, main_v84, main_v85, main_c_18,
   main_v86, main_v87, main_c_19, main_v88, main_v89, main_v90, main_v91, main_v92, main_v93, main_c_20,
   main_v94, main_v95, main_c_21]

theorem ops1_writes : (ops1 : List (HloOp τ sig (Elt F))).Forall fun op => op.writes ⊆ ((W1).map (Proc.devRef (τ := τ) .tc)).toFinset :=
  ⟨wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide)⟩

/-- A buffer piece 1 does not write keeps its contents over the piece. -/
theorem after_ops1_of_not_mem {r : Ref sig .tc} (hr : r ∉ W1) (V : Valuation τ sig (Elt F)) :
    after ops1 V (Proc.devRef .tc r) = V (Proc.devRef .tc r) :=
  after_of_writes_sub ops1 V ops1_writes hr

/-- The buffers the operations of piece 2 write, in order. -/
abbrev W2 : List (Ref sig .tc) :=
  [main_v96, main_v97, main_v98, main_v99, main_v100, main_v101, main_v102, main_v103, main_cst_22, main_v104,
   main_v105, main_v106, main_cst_23, main_v107, main_v108, main_v109, main_v110, main_v111, main_v112, main_v113,
   main_v114, main_v115, main_v116, main_cst_24, main_v117, main_cst_25, main_v118, main_v119, main_c_26, main_call2.cst.ref,
   main_call2.v0.ref, main_call2.v1.ref, main_call2.cst_0.ref, main_call2.v2.ref, main_call2.v3.ref, main_call2.v4.ref, main_call2.v5.ref, main_call2.v6.ref, main_call2.v7.ref, main_call2.cst_1.ref,
   main_call2.v8.ref, main_call2.cst_2.ref, main_call2.v9.ref, main_call2.v10.ref, main_call2.v11.ref, main_call2.cst_3.ref, main_call2.v12.ref, main_call2.cst_4.ref, main_call2.call0.v0.ref, main_call2.call0.v1.ref,
   main_call2.call0.v2.ref, main_v121, main_v122, main_v123, main_v124, main_v125, main_v126, main_cst_27, main_v127, main_v128,
   main_v129, main_v130, main_v131, main_v132, main_v133, main_v134, main_v135, main_call3.cst.ref, main_call3.v0.ref, main_call3.v1.ref,
   main_v137, main_v138, main_cst_28, main_v139, main_cst_29, main_v140, main_v141, main_v142, main_cst_30, main_v143,
   main_v144, main_v145, main_c_31]

theorem ops2_writes : (ops2 : List (HloOp τ sig (Elt F))).Forall fun op => op.writes ⊆ ((W2).map (Proc.devRef (τ := τ) .tc)).toFinset :=
  ⟨wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide)⟩

/-- A buffer piece 2 does not write keeps its contents over the piece. -/
theorem after_ops2_of_not_mem {r : Ref sig .tc} (hr : r ∉ W2) (V : Valuation τ sig (Elt F)) :
    after ops2 V (Proc.devRef .tc r) = V (Proc.devRef .tc r) :=
  after_of_writes_sub ops2 V ops2_writes hr

/-- The buffers the operations of piece 3 write, in order. -/
abbrev W3 : List (Ref sig .tc) :=
  [main_v146, main_v147, main_c_32, main_v148, main_v149, main_v150, main_v151, main_v152, main_c_33, main_v153,
   main_v154, main_c_34, main_v155, main_v156, main_v157, main_v158, main_v159, main_v160, main_c_35, main_v161,
   main_v162, main_c_36, main_v163, main_v164, main_v165, main_v166, main_v167, main_v168, main_v169, main_v170,
   main_cst_37, main_v171, main_v172, main_v173, main_cst_38, main_v174, main_v175, main_v176, main_v177, main_v178,
   main_v179, main_v180, main_v181, main_v182, main_v183, main_cst_39, main_v184, main_v185, main_v186, main_v187,
   main_v188, main_v189, main_v190]

theorem ops3_writes : (ops3 : List (HloOp τ sig (Elt F))).Forall fun op => op.writes ⊆ ((W3).map (Proc.devRef (τ := τ) .tc)).toFinset :=
  ⟨wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide)⟩

/-- A buffer piece 3 does not write keeps its contents over the piece. -/
theorem after_ops3_of_not_mem {r : Ref sig .tc} (hr : r ∉ W3) (V : Valuation τ sig (Elt F)) :
    after ops3 V (Proc.devRef .tc r) = V (Proc.devRef .tc r) :=
  after_of_writes_sub ops3 V ops3_writes hr

/-- A buffer no piece writes keeps its contents over the whole line. -/
theorem after_ops_of_not_mem {r : Ref sig .tc} (h0 : r ∉ W0) (h1 : r ∉ W1) (h2 : r ∉ W2) (h3 : r ∉ W3)
    (V : Valuation τ sig (Elt F)) : after ops V (Proc.devRef .tc r) = V (Proc.devRef .tc r) := by
  rw [StableHlo.after_append, StableHlo.after_append, StableHlo.after_append,
    after_ops3_of_not_mem h3, after_ops2_of_not_mem h2, after_ops1_of_not_mem h1, after_ops0_of_not_mem h0]

/-! ## The arguments

No operation writes an argument's buffer: at each, the fold reads what the valuation held. -/

theorem arg_0 (V : Valuation τ sig (Elt F)) : after ops V (main_arg0 : DevRef τ sig) = V (main_arg0 : DevRef τ sig) :=
  after_ops_of_not_mem (by decide) (by decide) (by decide) (by decide) V

theorem arg_1 (V : Valuation τ sig (Elt F)) : after ops V (main_arg1 : DevRef τ sig) = V (main_arg1 : DevRef τ sig) :=
  after_ops_of_not_mem (by decide) (by decide) (by decide) (by decide) V

theorem arg_2 (V : Valuation τ sig (Elt F)) : after ops V (main_arg2 : DevRef τ sig) = V (main_arg2 : DevRef τ sig) :=
  after_ops_of_not_mem (by decide) (by decide) (by decide) (by decide) V

theorem arg_3 (V : Valuation τ sig (Elt F)) : after ops V (main_arg3 : DevRef τ sig) = V (main_arg3 : DevRef τ sig) :=
  after_ops_of_not_mem (by decide) (by decide) (by decide) (by decide) V

theorem arg_4 (V : Valuation τ sig (Elt F)) : after ops V (main_arg4 : DevRef τ sig) = V (main_arg4 : DevRef τ sig) :=
  after_ops_of_not_mem (by decide) (by decide) (by decide) (by decide) V

theorem arg_5 (V : Valuation τ sig (Elt F)) : after ops V (main_arg5 : DevRef τ sig) = V (main_arg5 : DevRef τ sig) :=
  after_ops_of_not_mem (by decide) (by decide) (by decide) (by decide) V

theorem arg_6 (V : Valuation τ sig (Elt F)) : after ops V (main_arg6 : DevRef τ sig) = V (main_arg6 : DevRef τ sig) :=
  after_ops_of_not_mem (by decide) (by decide) (by decide) (by decide) V

theorem arg_7 (V : Valuation τ sig (Elt F)) : after ops V (main_arg7 : DevRef τ sig) = V (main_arg7 : DevRef τ sig) :=
  after_ops_of_not_mem (by decide) (by decide) (by decide) (by decide) V

theorem arg_8 (V : Valuation τ sig (Elt F)) : after ops V (main_arg8 : DevRef τ sig) = V (main_arg8 : DevRef τ sig) :=
  after_ops_of_not_mem (by decide) (by decide) (by decide) (by decide) V

theorem arg_9 (V : Valuation τ sig (Elt F)) : after ops V (main_arg9 : DevRef τ sig) = V (main_arg9 : DevRef τ sig) :=
  after_ops_of_not_mem (by decide) (by decide) (by decide) (by decide) V

theorem arg_10 (V : Valuation τ sig (Elt F)) : after ops V (main_arg10 : DevRef τ sig) = V (main_arg10 : DevRef τ sig) :=
  after_ops_of_not_mem (by decide) (by decide) (by decide) (by decide) V

theorem arg_11 (V : Valuation τ sig (Elt F)) : after ops V (main_arg11 : DevRef τ sig) = V (main_arg11 : DevRef τ sig) :=
  after_ops_of_not_mem (by decide) (by decide) (by decide) (by decide) V

theorem arg_12 (V : Valuation τ sig (Elt F)) : after ops V (main_arg12 : DevRef τ sig) = V (main_arg12 : DevRef τ sig) :=
  after_ops_of_not_mem (by decide) (by decide) (by decide) (by decide) V

theorem arg_13 (V : Valuation τ sig (Elt F)) : after ops V (main_arg13 : DevRef τ sig) = V (main_arg13 : DevRef τ sig) :=
  after_ops_of_not_mem (by decide) (by decide) (by decide) (by decide) V

theorem arg_14 (V : Valuation τ sig (Elt F)) : after ops V (main_arg14 : DevRef τ sig) = V (main_arg14 : DevRef τ sig) :=
  after_ops_of_not_mem (by decide) (by decide) (by decide) (by decide) V

end Cert.ReferenceIdeal.RefRun

end
-- ==== Proof.RefValue.lean ====
/- The value the reference program's run leaves in its result buffer is the model function of its arguments'
   contents, and its arguments are left as they were. -/
import proofs.«124922_j63196148793943_1_alg».proof.Proof.RefRun
import proofs.«124922_j63196148793943_1_alg».proof.Proof.RefArgs
import proofs.«124922_j63196148793943_1_alg».proof.Proof.Model
import Idealize.ShloMosaic.Lib.Pipeline.Frame

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 65536 in
set_option maxHeartbeats 8000000 in
/-- The fold at the result buffer is the model function of the arguments' contents, by computation: the fold
    opened piece by piece, each operation's result at its own buffer rewritten to its function's value of its
    operands' contents and at any other buffer to what was there, which leaves the program's composed term over
    the valuation at the fifteen arguments; the model's definitions unfold to the same term. The gathers, the
    scatter-additions and the column sums are kept folded meanwhile: the equation never looks inside them. -/
theorem out_eq (V : Valuation τ sig (Elt F)) :
    after ops V (main_v190 : DevRef τ sig) = Cert.Model.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [StableHlo.after_append, StableHlo.after_append, StableHlo.after_append]
  after_results_simp
  rfl

/-- On the compiled mesh, for any float values, from any memory with zero counters: every weakly fair execution of
    @main terminates with the result buffer at the model function of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v190)
          = Cert.Model.refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v190).trans (out_eq _),
      (h c main_arg0).trans (arg_0 _),
      (h c main_arg1).trans (arg_1 _),
      (h c main_arg2).trans (arg_2 _),
      (h c main_arg3).trans (arg_3 _),
      (h c main_arg4).trans (arg_4 _),
      (h c main_arg5).trans (arg_5 _),
      (h c main_arg6).trans (arg_6 _),
      (h c main_arg7).trans (arg_7 _),
      (h c main_arg8).trans (arg_8 _),
      (h c main_arg9).trans (arg_9 _),
      (h c main_arg10).trans (arg_10 _),
      (h c main_arg11).trans (arg_11 _),
      (h c main_arg12).trans (arg_12 _),
      (h c main_arg13).trans (arg_13 _),
      (h c main_arg14).trans (arg_14 _)⟩)
    (run_main m ρ)

end Cert.ReferenceIdeal.RefValue

end
-- ==== Proof.FiniteInputs.lean ====
/-
  The precondition `finite_inputs`, read back at the ideal instance. The printed predicate is the conjunction, over the
  thirteen float argument arrays, of `jnp.all(|a| < +∞)`: each array's absolute value is compared, elementwise and
  strictly, with the splat of the f32 pattern 0x7F800000 (which denotes +∞, `⊤` in the extended reals), the one-bit
  results are reduced by `and` over every axis into a scalar, and the thirteen scalars are combined by `and`.
  If the whole is 1 then each scalar is 1 (`IntOp.andi_eq_one`), so each comparison is 1 at every index
  (`Host.reduce_andi_all`: a reduce by `and` into a one-index result that is 1 met only 1s), that is
  `max x (-x) < ⊤` for every element `x`; and an extended real with `max x (-x) < ⊤` is neither `⊤` (then `max x (-x) = ⊤`)
  nor `⊥` (then `-x = ⊤`), hence the coercion of a real number.
-/
import proofs.«124922_j63196148793943_1_alg».proof.Pre_finite_inputs
import proofs.«124922_j63196148793943_1_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx
open Cert.Pre_finite_inputs

/-- The scalar shape has one index. -/
instance : Subsingleton S_.Idx := ⟨fun a b => funext fun d => d.elim0⟩

/-- A one-bit word made from a boolean is 1 exactly when the boolean is true. -/
theorem ofBool_eq_one (b : Bool) : BitVec.ofBool b = 1#1 ↔ b = true := by cases b <;> decide

/-- An extended real whose absolute value `max x (-x)` is strictly below the f32 pattern of +∞ is a real number:
    the pattern denotes `⊤`, and at `x = ⊤` or `x = ⊥` the absolute value is `⊤` itself. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  unfold Ideal.cmp at h
  rw [ofBool_eq_one] at h
  simp only [decide_eq_true_eq] at h
  induction x using EReal.rec with
  | bot => simp at h
  | coe r => exact ⟨r, rfl⟩
  | top => simp at h

/-- One array's `jnp.all(|x| < +∞)`, of any shape, read back: if the reduce by `and` over all axes of the elementwise
    comparison of `|x|` with the splat of +∞ is 1, every element of `x` is a real number. -/
theorem reals_of_all {s : Shape} {axes : List (Fin s.rank)} (x : FVec Ideal s .f32)
    (hb : S_.BroadcastsInDim s (![] : Fin 0 → Fin s.rank)) (init : IVec S_ 1) (h : s.ReducesTo axes S_) (hu : 0 < S_.numel)
    (e : Host.reduce IntOp.andi (cmpf .olt (Host.absf x) (broadcastInDim s ![] hb (constant S_ .f32 0x7F800000#32))) init h hu ix0 = 1#1) :
    ∀ i, ∃ r : ℝ, x i = (r : EReal) := by
  intro i
  have hi := Host.reduce_andi_all _ init h hu ix0 e i
  exact real_of_abs_lt_inf (x i) hi

/-- THE PRECONDITION DECODED: if `finite_inputs` of the fifteen argument arrays is 1, every entry of each of the thirteen
    float arrays is a real number (the two integer arrays take no part in the predicate). -/
theorem reals_of_pre [Cert.Pre_finite_inputs.Facts] (a0 : FVec Ideal S100000x128 .f32) (a1 : IVec S2x1600000 32) (a2 : IVec S100000 32)
    (a3 : FVec Ideal S128x128 .f32) (a4 a5 a6 : FVec Ideal S128 .f32) (a7 : FVec Ideal S128x128 .f32)
    (a8 a9 a10 : FVec Ideal S128 .f32) (a11 : FVec Ideal S128x128 .f32) (a12 : FVec Ideal S128 .f32)
    (a13 : FVec Ideal S128x1 .f32) (a14 : FVec Ideal S1 .f32)
    (h : Cert.Pre_finite_inputs.fn (F := Ideal) a0 a1 a2 a3 a4 a5 a6 a7 a8 a9 a10 a11 a12 a13 a14 = fun _ => 1#1) :
    (∀ i, ∃ r : ℝ, a0 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal)) := by
  have e := congrFun h ix0
  dsimp only [fn, fn_part1, fn_part2, fn_part3, andi] at e
  simp only [IntOp.andi_eq_one] at e
  obtain ⟨⟨⟨⟨⟨⟨⟨⟨⟨⟨⟨⟨e0, e3⟩, e4⟩, e5⟩, e6⟩, e7⟩, e8⟩, e9⟩, e10⟩, e11⟩, e12⟩, e13⟩, e14⟩ := e
  exact ⟨reals_of_all a0 _ _ _ _ e0,
    reals_of_all a3 _ _ _ _ e3,
    reals_of_all a4 _ _ _ _ e4,
    reals_of_all a5 _ _ _ _ e5,
    reals_of_all a6 _ _ _ _ e6,
    reals_of_all a7 _ _ _ _ e7,
    reals_of_all a8 _ _ _ _ e8,
    reals_of_all a9 _ _ _ _ e9,
    reals_of_all a10 _ _ _ _ e10,
    reals_of_all a11 _ _ _ _ e11,
    reals_of_all a12 _ _ _ _ e12,
    reals_of_all a13 _ _ _ _ e13,
    reals_of_all a14 _ _ _ _ e14⟩

end Cert.FiniteInputs

end
-- ==== Proof.BridgeMatmul.lean ====
/-
  The tiled product is the reference's product.

  On extended reals the host's `dot_general` of a 100000×128 array with a 128×128 array, contracting the first one's
  columns with the second one's rows, has at (p, q) the sum over k of x[p, k]·w[k, q]: the function the kernel's row
  tiles assemble.
-/
import proofs.«124922_j63196148793943_1_alg».proof.Proof.MatmulEntry
import proofs.«124922_j63196148793943_1_alg».proof.Proof.Model
import Idealize.ShloMosaic.Lib.ValueIdx
import Idealize.ShloMosaic.PureOps.Ideal.Laws

set_option maxRecDepth 16384

noncomputable section

namespace Cert.Bridge.Matmul

open Idealize.ShloMosaic Idealize.ShloMosaic.ValueIdx
open scoped BigOperators

theorem lhs_0 (i : Cert.ReferenceIdeal.S100000x128.Idx) (q : (Cert.ReferenceIdeal.dot_S100000x128_S128x128_S100000x128_1_0_0_1_n_n).contr.Idx) : ((Cert.ReferenceIdeal.dot_S100000x128_S128x128_S100000x128_1_0_0_1_n_n).lhsIdx i q 0).val = (i 0).val := by
  unfold DotDims.lhsIdx
  rw [dif_neg (show ¬(0 : Fin Cert.ReferenceIdeal.S100000x128.rank) ∈ (Cert.ReferenceIdeal.dot_S100000x128_S128x128_S100000x128_1_0_0_1_n_n).lhsBatch by decide), dif_pos (show (0 : Fin Cert.ReferenceIdeal.S100000x128.rank) ∈ (Cert.ReferenceIdeal.dot_S100000x128_S128x128_S100000x128_1_0_0_1_n_n).lhsNonContracting by decide)]
  rfl
theorem lhs_1 (i : Cert.ReferenceIdeal.S100000x128.Idx) (q : (Cert.ReferenceIdeal.dot_S100000x128_S128x128_S100000x128_1_0_0_1_n_n).contr.Idx) : ((Cert.ReferenceIdeal.dot_S100000x128_S128x128_S100000x128_1_0_0_1_n_n).lhsIdx i q 1).val = (q ⟨0, by decide⟩).val :=
  (Cert.ReferenceIdeal.dot_S100000x128_S128x128_S100000x128_1_0_0_1_n_n).lhsIdx_val_of_single rfl i q
theorem rhs_0 (i : Cert.ReferenceIdeal.S100000x128.Idx) (q : (Cert.ReferenceIdeal.dot_S100000x128_S128x128_S100000x128_1_0_0_1_n_n).contr.Idx) : ((Cert.ReferenceIdeal.dot_S100000x128_S128x128_S100000x128_1_0_0_1_n_n).rhsIdx i q 0).val = (q ⟨0, by decide⟩).val :=
  (Cert.ReferenceIdeal.dot_S100000x128_S128x128_S100000x128_1_0_0_1_n_n).rhsIdx_val_of_single rfl i q
theorem rhs_1 (i : Cert.ReferenceIdeal.S100000x128.Idx) (q : (Cert.ReferenceIdeal.dot_S100000x128_S128x128_S100000x128_1_0_0_1_n_n).contr.Idx) : ((Cert.ReferenceIdeal.dot_S100000x128_S128x128_S100000x128_1_0_0_1_n_n).rhsIdx i q 1).val = (i 1).val := by
  unfold DotDims.rhsIdx
  rw [dif_neg (show ¬(1 : Fin Cert.ReferenceIdeal.S128x128.rank) ∈ (Cert.ReferenceIdeal.dot_S100000x128_S128x128_S100000x128_1_0_0_1_n_n).rhsBatch by decide), dif_pos (show (1 : Fin Cert.ReferenceIdeal.S128x128.rank) ∈ (Cert.ReferenceIdeal.dot_S100000x128_S128x128_S100000x128_1_0_0_1_n_n).rhsNonContracting by decide)]
  rfl

/-- The kernel's assembled product and the reference's `dot_general` are one function of the two arrays. -/
theorem fullProd_eq (x : Cert.KernelIdeal.S100000x128.Idx → EReal) (w : Cert.KernelIdeal.S128x128.Idx → EReal) :
    Cert.KernelIdeal.MatmulEntry.fullProd x w = Cert.Model.matProd (F := Ideal) x w := by
  funext i
  obtain ⟨p, q, rfl⟩ : ∃ (p : Fin 100000) (q : Fin 128), i = ix2 p q := ⟨i 0, i 1, eq_ix2 i⟩
  unfold Cert.Model.matProd
  simp only [Host.dotGeneral]
  rw [Ideal.dotGeneral_apply, ← Equiv.sum_comp (contrEquiv1 (Cert.ReferenceIdeal.dot_S100000x128_S128x128_S100000x128_1_0_0_1_n_n) 128 rfl rfl).symm]
  show ∑ k : Fin 128, x (ix2 p k) * w (ix2 k q) = _
  refine Finset.sum_congr rfl fun k _ => ?_
  have hk := contrEquiv1_symm_val (Cert.ReferenceIdeal.dot_S100000x128_S128x128_S100000x128_1_0_0_1_n_n) 128 rfl rfl k
  have el : (Cert.ReferenceIdeal.dot_S100000x128_S128x128_S100000x128_1_0_0_1_n_n).lhsIdx (ix2 p q) ((contrEquiv1 (Cert.ReferenceIdeal.dot_S100000x128_S128x128_S100000x128_1_0_0_1_n_n) 128 rfl rfl).symm k) = ix2 p k := funext fun a => Fin.ext (by
    match a with
    | ⟨0, _⟩ => exact lhs_0 _ _
    | ⟨1, _⟩ => exact (lhs_1 _ _).trans hk)
  have er : (Cert.ReferenceIdeal.dot_S100000x128_S128x128_S100000x128_1_0_0_1_n_n).rhsIdx (ix2 p q) ((contrEquiv1 (Cert.ReferenceIdeal.dot_S100000x128_S128x128_S100000x128_1_0_0_1_n_n) 128 rfl rfl).symm k) = ix2 k q := funext fun a => Fin.ext (by
    match a with
    | ⟨0, _⟩ => exact (rhs_0 _ _).trans hk
    | ⟨1, _⟩ => exact rhs_1 _ _)
  rw [el, er]

end Cert.Bridge.Matmul

end
-- ==== Proof.BridgeConv.lean ====
/-
  The kernel's convolution is the reference's.

  Both add, to the aggregate over the edges, each node's own row times its self-loop scale, and then the bias, in that
  order.  The reference spreads the scale [N] → [N, 1] → [N, 128] and the bias [128] → [1, 128] → [N, 128] by
  broadcasts; the kernel recasts them to a column and a row and broadcasts inside its body.  Read at (p, q) all of
  these are the scale at p and the bias at q.
-/
import proofs.«124922_j63196148793943_1_alg».proof.Proof.KernelModel
import Idealize.ShloMosaic.Lib.Pipeline.Value
import Idealize.ShloMosaic.Lib.ValueIdx
import Idealize.ShloMosaic.Lib.ValueLayout

set_option maxRecDepth 16384

noncomputable section

namespace Cert.Bridge.Conv

open Idealize.ShloMosaic Idealize.ShloMosaic.ValueIdx
open Cert.KernelIdeal.KernelModel Cert.KernelIdeal.Combine Cert.KernelIdeal.HostBN

variable {α : Type}

/-- A vector [N] spread to a column and then along the lanes reads, at (p, q), the vector at p. -/
theorem bcast_col_apply (s : Cert.ReferenceIdeal.S100000.Idx → α) (h1 : Cert.ReferenceIdeal.S100000.BroadcastsInDim Cert.ReferenceIdeal.S100000x1 ![0])
    (h2 : Cert.ReferenceIdeal.S100000x1.BroadcastsInDim Cert.ReferenceIdeal.S100000x128 ![0, 1]) (p : Fin 100000) (q : Fin 128) :
    broadcastInDim Cert.ReferenceIdeal.S100000x128 ![0, 1] h2 (broadcastInDim Cert.ReferenceIdeal.S100000x1 ![0] h1 s) (ix2 p q) = s (ix1 p) := by
  rw [broadcastInDim_apply _ h2 _ (ix2 p q) (ix2 p 0) (fun a => by
        match a with
        | ⟨0, _⟩ => rfl
        | ⟨1, _⟩ => rfl),
      broadcastInDim_apply _ h1 _ (ix2 p 0) (ix1 p) (fun a => by
        match a with
        | ⟨0, _⟩ => rfl)]

/-- A vector [128] spread to a row and then down the rows reads, at (p, q), the vector at q. -/
theorem bcast_row_apply (b : Cert.ReferenceIdeal.S128.Idx → α) (h1 : Cert.ReferenceIdeal.S128.BroadcastsInDim Cert.ReferenceIdeal.S1x128 ![1])
    (h2 : Cert.ReferenceIdeal.S1x128.BroadcastsInDim Cert.ReferenceIdeal.S100000x128 ![0, 1]) (p : Fin 100000) (q : Fin 128) :
    broadcastInDim Cert.ReferenceIdeal.S100000x128 ![0, 1] h2 (broadcastInDim Cert.ReferenceIdeal.S1x128 ![1] h1 b) (ix2 p q) = b (ix1 q) := by
  rw [broadcastInDim_apply _ h2 _ (ix2 p q) (ix2 0 q) (fun a => by
        match a with
        | ⟨0, _⟩ => rfl
        | ⟨1, _⟩ => rfl),
      broadcastInDim_apply _ h1 _ (ix2 0 q) (ix1 q) (fun a => by
        match a with
        | ⟨0, _⟩ => rfl)]

/-- An [a] array recast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector [N] recast to a column reads, at (p, 0), the vector at p. -/
theorem colOf_apply (s : Cert.KernelIdeal.S100000.Idx → EReal) (p : Fin 100000) :
    colOf (F := Ideal) s (ix2 p 0) = s (ix1 p) := by
  unfold colOf
  exact shapeCast_a_a1_apply s _ p 0

/-- A vector [128] recast to a row reads, at (0, q), the vector at q. -/
theorem rowOf_apply (b : Cert.KernelIdeal.S128.Idx → EReal) (q : Fin 128) :
    rowOf (F := Ideal) b (ix2 0 q) = b (ix1 q) := by
  unfold rowOf
  exact shapeCast_a_1a_apply b _ 0 q

/-- The combine step read at (p, q). -/
theorem combine_apply (a h : Cert.KernelIdeal.S100000x128.Idx → EReal) (s : Cert.KernelIdeal.S100000x1.Idx → EReal)
    (b : Cert.KernelIdeal.S1x128.Idx → EReal) (p : Fin 100000) (q : Fin 128) :
    combine a h s b (ix2 p q) = (a (ix2 p q) + h (ix2 p q) * s (ix2 p 0)) + b (ix2 0 q) := rfl

/-- The kernel's convolution and the reference's are one function of the projected features and the bias. -/
theorem kconv_eq (ei : IVec Cert.KernelIdeal.S2x1600000 32) (h : Cert.KernelIdeal.S100000x128.Idx → EReal)
    (b : Cert.KernelIdeal.S128.Idx → EReal) : kconv ei h b = Cert.Model.conv (F := Ideal) ei h b := by
  funext i
  obtain ⟨p, q, rfl⟩ : ∃ (p : Fin 100000) (q : Fin 128), i = ix2 p q := ⟨i 0, i 1, eq_ix2 i⟩
  unfold kconv
  rw [combine_apply, colOf_apply, rowOf_apply]
  unfold Cert.Model.conv
  rw [addf_apply, addf_apply, mulf_apply, bcast_col_apply, bcast_row_apply]

end Cert.Bridge.Conv

end
-- ==== Proof.Consts.lean ====
/-
  The float literals and literal-only operations the two programs of this certificate spell, as the extended reals
  they denote at the ideal instance. An f32 pattern with sign bit 0, exponent field `E` (neither 0 nor 255) and
  trailing significand `T` denotes the real `(2^23 + T) · 2^(E − 127 − 23)`; the all-zero pattern denotes 0. Each pattern
  is unfolded here, once, and read elsewhere by these names.
    0x47C35000:  E = 143, T = 4411392:  (8388608 + 4411392) · 2^(−7)  = 12800000 / 128 = 100000
    0x40000000:  E = 128, T = 0:        8388608 · 2^(−22)             = 2
    0x3F800000:  E = 127, T = 0:        8388608 · 2^(−23)             = 1
    0x3727C5AC:  E = 110, T = 2606508:  (8388608 + 2606508) · 2^(−40) = 10995116 · 2^(−40)   (the f32 nearest 10^(−5))
-/
import Idealize.ShloMosaic.PureOps.Ideal

noncomputable section

namespace Cert.Consts

open Idealize.ShloMosaic

/-- The pattern 0x47C35000 denotes the real 100000 (the number of rows a column's mean divides by). -/
theorem ofBits_100000 : Ideal.ofBits .f32 0x47C35000#32 = ((100000 : ℝ) : EReal) := by
  simp [Ideal.ofBits, Ideal.ieee, -EReal.coe_mul]; norm_num

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x3F800000 denotes the real 1. -/
theorem ofBits_one : Ideal.ofBits .f32 0x3F800000#32 = ((1 : ℝ) : EReal) := by
  simp [Ideal.ofBits, Ideal.ieee, -EReal.coe_mul]; norm_num

/-- The all-zero pattern (+0.0) denotes 0. -/
theorem ofBits_zero : Ideal.ofBits .f32 0x00000000#32 = 0 := by
  simp [Ideal.ofBits, Ideal.ieee]

/-- The pattern 0x3727C5AC (the f32 nearest 10^(−5), the normalization's epsilon) denotes the dyadic
    `10995116 · 2^(−40)`. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The epsilon is a positive real number. -/
theorem eps_pos : ∃ e : ℝ, 0 < e ∧ Ideal.ofBits .f32 0x3727C5AC#32 = (e : EReal) :=
  ⟨(10995116 : ℝ) * (2 : ℝ) ^ (-40 : ℤ), by positivity, ofBits_eps⟩

/-- The integer 0, converted to a float, is the real 0: the conversion reads the word as a signed integer, exactly. -/
theorem sitofp_zero : FloatOps.sitofp (F := Ideal) .f32 (0#32 : BitVec 32) = (0 : EReal) := by
  show (((0#32 : BitVec 32).toInt : ℝ) : EReal) = 0
  simp

/-- `100000 > 0`: the ordered greater-than comparison of the real 100000 with 0 is the bit 1. -/
theorem cmpf_ogt_100000 : FloatOps.cmpf (F := Ideal) (φ := .f32) .ogt ((100000 : ℝ) : EReal) (0 : EReal) = 1#1 := by
  show BitVec.ofBool (decide ((0 : EReal) < ((100000 : ℝ) : EReal))) = 1#1
  have h : (0 : EReal) < ((100000 : ℝ) : EReal) := by exact_mod_cast (by norm_num : (0 : ℝ) < 100000)
  simp [h]

/-- The same comparison with its literals unevaluated: `100000 − float(0) > 0`, the guard `n − ddof > 0` of a
    variance over 100000 rows with zero delta degrees of freedom. -/
theorem cmpf_ogt_guard :
    FloatOps.cmpf (F := Ideal) (φ := .f32) .ogt
      (Ideal.ofBits .f32 0x47C35000#32 - FloatOps.sitofp (F := Ideal) .f32 (0#32 : BitVec 32))
      (Ideal.ofBits .f32 0x00000000#32) = 1#1 := by
  rw [ofBits_100000, sitofp_zero, ofBits_zero, sub_zero]
  exact cmpf_ogt_100000

/-- The host's reciprocal square root is, index by index, the same function of the extended reals as the kernel's. -/
theorem host_rsqrt_apply {s : Shape} {φ : FTy} (x : FVec Ideal s φ) (i : s.Idx) :
    Host.rsqrt (F := Ideal) x i = Ideal.rsqrt (x i) := rfl

/-- The kernel's reciprocal square root at an index. -/
theorem rsqrt_apply {s : Shape} {φ : FTy} (x : FVec Ideal s φ) (i : s.Idx) :
    rsqrt (F := Ideal) x i = Ideal.rsqrt (x i) := rfl

end Cert.Consts

end
-- ==== Proof.BridgeBN.lean ====
/-
  The kernel's batch normalisation is the reference's.

  Both normalise each of the 128 lanes of an N × 128 array (N = 100000) by the lane's mean and variance, scale by γ,
  shift by β, rectify and add a residual.  The reference computes, per lane, the mean m = (Σ x)/N, the variance as the
  mean of the squared deviations (Σ (x − m)²)/N (under a guard N − 0 > 0 that holds), and then
  (γ·(x − m))·(var + ε)^(−1/2) + β.  The kernel accumulates Σ x and Σ x² as rows, derives mean = (Σ x)/N,
  variance = (Σ x²)/N − mean², scale = γ·(variance + ε)^(−1/2), shift = β − mean·scale, and applies x·scale + shift.
  On extended reals these need not agree (∞ − ∞), but on arrays of real numbers every operation is the real one:
  the two means are one real, the two variances are one real by the variance identity and it is not negative, ε is a
  positive real, so variance + ε is positive and its reciprocal square root is a real r, and
  (γ·(x − m))·r + β = x·(γ·r) + (β − m·(γ·r)).
-/
import proofs.«124922_j63196148793943_1_alg».proof.Proof.KernelModel
import proofs.«124922_j63196148793943_1_alg».proof.Proof.BridgeConv
import proofs.«124922_j63196148793943_1_alg».proof.Proof.LibBatchNormAlgebra
import proofs.«124922_j63196148793943_1_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.BN

open Idealize.ShloMosaic Idealize.ShloMosaic.ValueIdx Idealize.ShloMosaic.BatchNormAlgebra
open Cert.ReferenceIdeal Cert.ReferenceIdeal.Gen
open Cert.KernelIdeal.KernelModel Cert.KernelIdeal.NormRelu Cert.KernelIdeal.HostBN
open scoped BigOperators

/-- Every entry of an array of extended reals is a real number. -/
def AllFin {S : Shape} (v : S.Idx → EReal) : Prop := ∀ i, IsFin (v i)

/-- The number of rows is not zero. -/
theorem N_ne : (100000 : ℝ) ≠ 0 := by norm_num
/-- The number of rows is the number of indices of a column. -/
theorem N_card : (100000 : ℝ) = (Fintype.card (Fin 100000) : ℝ) := by simp

/-! ## The kernel's host code, read at a lane -/

/-- The kernel's mean at lane q: the lane's sum over the pattern of N. -/
theorem meanRow_apply (S : S1x128.Idx → EReal) (q : Fin 128) :
    meanRow (F := Ideal) S (ix2 0 q) = Ideal.div (S (ix2 0 q)) (Ideal.ofBits .f32 0x47C35000#32) := rfl

/-- The kernel's scale at lane q: γ at q times the reciprocal square root of (mean of squares − squared mean) + ε. -/
theorem scaleRow_apply (S Q : S1x128.Idx → EReal) (g : S128.Idx → EReal) (q : Fin 128) :
    scaleRow (F := Ideal) S Q g (ix2 0 q)
      = g (ix1 q) * Ideal.rsqrt ((Ideal.div (Q (ix2 0 q)) (Ideal.ofBits .f32 0x47C35000#32)
          - meanRow (F := Ideal) S (ix2 0 q) * meanRow (F := Ideal) S (ix2 0 q)) + Ideal.ofBits .f32 0x3727C5AC#32) := by
  show rowOf (F := Ideal) g (ix2 0 q) * _ = _
  rw [Cert.Bridge.Conv.rowOf_apply]
  rfl

/-- The kernel's shift at lane q: β at q minus mean times scale. -/
theorem shiftRow_apply (S Q : S1x128.Idx → EReal) (g be : S128.Idx → EReal) (q : Fin 128) :
    shiftRow (F := Ideal) S Q g be (ix2 0 q)
      = be (ix1 q) - meanRow (F := Ideal) S (ix2 0 q) * scaleRow (F := Ideal) S Q g (ix2 0 q) := by
  show rowOf (F := Ideal) be (ix2 0 q) - _ = _
  rw [Cert.Bridge.Conv.rowOf_apply]
  rfl

/-- The kernel's normalisation at (p, q): the entry times the lane's scale plus the lane's shift, rectified, plus the
    residual; the scale and shift are derived from the array's own column sums and column sums of squares. -/
theorem kbn_apply (cc : S100000x128.Idx → EReal) (g be : S128.Idx → EReal) (res : S100000x128.Idx → EReal) (p : Fin 100000) (q : Fin 128) :
    kbn cc g be res (ix2 p q)
      = max (cc (ix2 p q) * scaleRow (F := Ideal) (colSum cc) (colSumSq cc) g (ix2 0 q)
          + shiftRow (F := Ideal) (colSum cc) (colSumSq cc) g be (ix2 0 q)) 0 + res (ix2 p q) := rfl

/-! ## A column sum on the host -/

/-- Dropping the row axis of an N × 128 shape leaves the 128 lanes. -/
theorem hred : S100000x128.Reduces [0] S128 := by decide

/-- The host's sum over the rows, read at lane q: the initial value plus the sum over k of the entries (k, q). -/
theorem colsum_host (y : S100000x128.Idx → EReal) (h' : S100000x128.ReducesTo [0] S128) (init : EReal) (q : Fin 128) :
    Ideal.hostReduceAdd h' y init (ix1 q) = init + ∑ k : Fin 100000, y (ix2 k q) := by
  rw [Ideal.hostReduceAdd_single h' hred y init (ix1 q)]
  show init + ∑ k : Fin 100000, y (hred.lift (ix1 q) k) = _
  refine congrArg (fun z => init + z) (Finset.sum_congr rfl fun k _ => congrArg y ?_)
  funext c; apply Fin.ext
  match c with
  | ⟨0, _⟩ => rfl
  | ⟨1, _⟩ => rfl

/-! ## The reference's statistics, unfolded at a lane -/

/-- The reference's mean at lane q: (the zero pattern plus the lane's sum) over the pattern of N. -/
theorem mean_apply (c : S100000x128.Idx → EReal) (q : Fin 128) :
    Cert.Model.mean (F := Ideal) c (ix1 q)
      = Ideal.div (Ideal.ofBits .f32 0x00000000#32 + ∑ k : Fin 100000, c (ix2 k q)) (Ideal.ofBits .f32 0x47C35000#32) := by
  show Ideal.div (Ideal.hostReduceAdd reducesTo_S100000x128_S128_d0 c (Ideal.ofBits .f32 0x00000000#32) (ix1 q)) (Ideal.ofBits .f32 0x47C35000#32) = _
  rw [colsum_host]

/-- The deviations from the column means as the reference's variance computes them: the mean is recomputed there,
    carried as a row [1, 128] and spread down the rows. -/
def devs (c : FVec Ideal S100000x128 .f32) : FVec Ideal S100000x128 .f32 :=
  subf (F := Ideal) c (broadcastInDim S100000x128 ![0, 1] bcast_S1x128_S100000x128_0_1
    (Host.divf (F := Ideal) (broadcastInDim S1x128 ![1] bcast_S128_S1x128_1 (Host.reduceAdd (F := Ideal) c (constant (F := Ideal) S_ .f32 0x00000000#32) reducesTo_S100000x128_S128_d0 h_S_))
      (broadcastInDim S1x128 ![] bcast_S_S1x128 (constant (F := Ideal) S_ .f32 0x47C35000#32))))

/-- A deviation at (k, q) is the entry minus the mean of lane q. -/
theorem devs_apply (c : S100000x128.Idx → EReal) (k : Fin 100000) (q : Fin 128) :
    devs c (ix2 k q) = c (ix2 k q) - Cert.Model.mean (F := Ideal) c (ix1 q) := by
  show c (ix2 k q) - broadcastInDim (s := S1x128) S100000x128 ![0, 1] bcast_S1x128_S100000x128_0_1 _ (ix2 k q) = _
  rw [broadcastInDim_apply _ bcast_S1x128_S100000x128_0_1 _ (ix2 k q) (ix2 0 q) (fun a => by
        match a with
        | ⟨0, _⟩ => rfl
        | ⟨1, _⟩ => rfl)]
  show c (ix2 k q) - Ideal.div (broadcastInDim (s := S128) S1x128 ![1] bcast_S128_S1x128_1 _ (ix2 0 q)) (Ideal.ofBits .f32 0x47C35000#32) = _
  rw [broadcastInDim_apply _ bcast_S128_S1x128_1 _ (ix2 0 q) (ix1 q) (fun a => by
        match a with
        | ⟨0, _⟩ => rfl)]
  rfl

/-- A column sum of squares on the host, over a divisor. -/
theorem var_core (D : S100000x128.Idx → EReal) (h' : S100000x128.ReducesTo [0] S128) (z n : EReal) (q : Fin 128) :
    Ideal.div (Ideal.hostReduceAdd h' (mulf (F := Ideal) (φ := .f32) D D) z (ix1 q)) n
      = Ideal.div (z + ∑ k : Fin 100000, D (ix2 k q) * D (ix2 k q)) n := by
  rw [colsum_host]
  rfl

/-- The reference's variance at a lane: its guard `N − 0 > 0` holds, so it is the column sum of the squared deviations
    from the mean over `N − 0`. -/
theorem variance_apply (c : S100000x128.Idx → EReal) (q : Fin 128) :
    Cert.Model.variance (F := Ideal) c (ix1 q)
      = Ideal.div (Ideal.ofBits .f32 0x00000000#32 + ∑ k : Fin 100000,
            (c (ix2 k q) - Cert.Model.mean (F := Ideal) c (ix1 q)) * (c (ix2 k q) - Cert.Model.mean (F := Ideal) c (ix1 q)))
          (Ideal.ofBits .f32 0x47C35000#32 - FloatOps.sitofp (F := Ideal) .f32 (0#32 : BitVec 32)) := by
  show Scalar.select (FloatOps.cmpf (F := Ideal) (φ := .f32) .ogt (Ideal.ofBits .f32 0x47C35000#32 - FloatOps.sitofp (F := Ideal) .f32 (0#32 : BitVec 32)) (Ideal.ofBits .f32 0x00000000#32))
      (Ideal.div (Ideal.hostReduceAdd reducesTo_S100000x128_S128_d0 (mulf (F := Ideal) (φ := .f32) (devs c) (devs c)) (Ideal.ofBits .f32 0x00000000#32) (ix1 q))
        (Ideal.ofBits .f32 0x47C35000#32 - FloatOps.sitofp (F := Ideal) .f32 (0#32 : BitVec 32)))
      (Ideal.ofBits .f32 0x7FC00000#32) = _
  rw [Cert.Consts.cmpf_ogt_guard, select_one, var_core]
  have hs : ∑ k : Fin 100000, devs c (ix2 k q) * devs c (ix2 k q)
      = ∑ k : Fin 100000, (c (ix2 k q) - Cert.Model.mean (F := Ideal) c (ix1 q)) * (c (ix2 k q) - Cert.Model.mean (F := Ideal) c (ix1 q)) :=
    Finset.sum_congr rfl fun k _ => by rw [devs_apply]
  rw [hs]

/-- The reference's normalise-rectify-residual at (p, q): γ, β and the statistics are read at lane q. -/
theorem bnReluRes_apply (c : S100000x128.Idx → EReal) (g be : S128.Idx → EReal) (res : S100000x128.Idx → EReal)
    (p : Fin 100000) (q : Fin 128) :
    Cert.Model.bnReluRes (F := Ideal) c g be res (ix2 p q)
      = max ((g (ix1 q) * (c (ix2 p q) - Cert.Model.mean (F := Ideal) c (ix1 q)))
            * Ideal.rsqrt (Cert.Model.variance (F := Ideal) c (ix1 q) + Ideal.ofBits .f32 0x3727C5AC#32) + be (ix1 q)) 0
        + res (ix2 p q) := by
  show max ((broadcastInDim (s := S1x128) S100000x128 ![0, 1] bcast_S1x128_S100000x128_0_1 (broadcastInDim (s := S128) S1x128 ![1] bcast_S128_S1x128_1 g) (ix2 p q)
        * (c (ix2 p q) - broadcastInDim (s := S1x128) S100000x128 ![0, 1] bcast_S1x128_S100000x128_0_1 (broadcastInDim (s := S128) S1x128 ![1] bcast_S128_S1x128_1 (Cert.Model.mean (F := Ideal) c)) (ix2 p q)))
      * broadcastInDim (s := S1x128) S100000x128 ![0, 1] bcast_S1x128_S100000x128_0_1 (broadcastInDim (s := S128) S1x128 ![1] bcast_S128_S1x128_1
          (Host.rsqrt (F := Ideal) (addf (F := Ideal) (Cert.Model.variance (F := Ideal) c) (broadcastInDim (s := S_) S128 ![] bcast_S_S128 (constant (F := Ideal) S_ .f32 0x3727C5AC#32))))) (ix2 p q)
      + broadcastInDim (s := S1x128) S100000x128 ![0, 1] bcast_S1x128_S100000x128_0_1 (broadcastInDim (s := S128) S1x128 ![1] bcast_S128_S1x128_1 be) (ix2 p q)) (Ideal.ofBits .f32 0x00000000#32)
    + res (ix2 p q) = _
  rw [Cert.Bridge.Conv.bcast_row_apply, Cert.Bridge.Conv.bcast_row_apply, Cert.Bridge.Conv.bcast_row_apply,
    Cert.Bridge.Conv.bcast_row_apply, Ideal.ofBits_zero_f32]
  rfl

/-! ## One lane, over the reals -/

section Lane

variable (c : S100000x128.Idx → EReal) (q : Fin 128) (x : Fin 100000 → ℝ) (hx : ∀ k, c (ix2 k q) = (x k : EReal))
include hx

/-- A lane's sum of entries that are the reals x is the sum of the x, each read as an extended real. -/
theorem sum_c : ∑ k : Fin 100000, c (ix2 k q) = ∑ k, (x k : EReal) := Finset.sum_congr rfl fun k _ => hx k

/-- Likewise the lane's sum of squares. -/
theorem sumsq_c : ∑ k : Fin 100000, c (ix2 k q) * c (ix2 k q) = ∑ k, (x k : EReal) * (x k : EReal) :=
  Finset.sum_congr rfl fun k _ => by rw [hx k]

/-- The kernel's mean of the lane is the real mean. -/
theorem kMean_eq : meanRow (F := Ideal) (colSum c) (ix2 0 q) = (((∑ k, x k) / 100000 : ℝ) : EReal) := by
  rw [meanRow_apply, Cert.Consts.ofBits_100000]
  show Ideal.div (∑ k : Fin 100000, c (ix2 k q)) _ = _
  rw [sum_c c q x hx, ideal_mean_coe x N_ne]

/-- The kernel's variance of the lane, mean of squares minus squared mean, is the real one. -/
theorem kVar_eq :
    Ideal.div (colSumSq c (ix2 0 q)) (Ideal.ofBits .f32 0x47C35000#32)
        - meanRow (F := Ideal) (colSum c) (ix2 0 q) * meanRow (F := Ideal) (colSum c) (ix2 0 q)
      = (((∑ k, x k * x k) / 100000 - ((∑ k, x k) / 100000) * ((∑ k, x k) / 100000) : ℝ) : EReal) := by
  rw [meanRow_apply, Cert.Consts.ofBits_100000]
  show Ideal.div (∑ k : Fin 100000, c (ix2 k q) * c (ix2 k q)) _
      - Ideal.div (∑ k : Fin 100000, c (ix2 k q)) _ * Ideal.div (∑ k : Fin 100000, c (ix2 k q)) _ = _
  rw [sum_c c q x hx, sumsq_c c q x hx, ideal_meansq_sub_coe x N_ne]

/-- The reference's mean of the lane is the real mean. -/
theorem rMean_eq : Cert.Model.mean (F := Ideal) c (ix1 q) = (((∑ k, x k) / 100000 : ℝ) : EReal) := by
  rw [mean_apply, Cert.Consts.ofBits_zero, Cert.Consts.ofBits_100000, sum_c c q x hx, ideal_mean_coe_zero_add x N_ne]

/-- The reference's variance of the lane is the real mean of the squared deviations from the mean. -/
theorem rVar_eq : Cert.Model.variance (F := Ideal) c (ix1 q)
      = (((∑ k, (x k - (∑ k, x k) / 100000) * (x k - (∑ k, x k) / 100000)) / 100000 : ℝ) : EReal) := by
  rw [variance_apply, rMean_eq c q x hx, Cert.Consts.ofBits_zero, Cert.Consts.ofBits_100000, Cert.Consts.sitofp_zero,
    sub_zero, zero_add]
  have hs : ∑ k : Fin 100000, (c (ix2 k q) - (((∑ k, x k) / 100000 : ℝ) : EReal)) * (c (ix2 k q) - (((∑ k, x k) / 100000 : ℝ) : EReal))
      = ∑ k, ((x k : EReal) - (((∑ k, x k) / 100000 : ℝ) : EReal)) * ((x k : EReal) - (((∑ k, x k) / 100000 : ℝ) : EReal)) :=
    Finset.sum_congr rfl fun k _ => by rw [hx k]
  rw [hs, ereal_sum_sub_sq_coe, FocalAlgebra.ideal_div_coe_coe _ N_ne]

end Lane

/-! ## The two normalisations agree -/

/-- The statistics of one lane of an array of real numbers, on both sides: the kernel's mean and the reference's are one
    real `m`; the kernel's variance (mean of squares minus squared mean) and the reference's (mean of squared deviations)
    are one real `v`, by the variance identity, and `v` is not negative. -/
theorem lane_stats (c : S100000x128.Idx → EReal) (q : Fin 128) (x : Fin 100000 → ℝ) (hx : ∀ k, c (ix2 k q) = (x k : EReal)) :
    ∃ m v : ℝ, 0 ≤ v
      ∧ meanRow (F := Ideal) (colSum c) (ix2 0 q) = (m : EReal)
      ∧ Ideal.div (colSumSq c (ix2 0 q)) (Ideal.ofBits .f32 0x47C35000#32)
          - meanRow (F := Ideal) (colSum c) (ix2 0 q) * meanRow (F := Ideal) (colSum c) (ix2 0 q) = (v : EReal)
      ∧ Cert.Model.mean (F := Ideal) c (ix1 q) = (m : EReal)
      ∧ Cert.Model.variance (F := Ideal) c (ix1 q) = (v : EReal) :=
  ⟨(∑ k, x k) / 100000, (∑ k, (x k - (∑ k, x k) / 100000) * (x k - (∑ k, x k) / 100000)) / 100000,
    variance_nonneg x _ 100000 N_card, kMean_eq c q x hx,
    (kVar_eq c q x hx).trans (congrArg _ (variance_identity x 100000 N_card N_ne).symm),
    rMean_eq c q x hx, rVar_eq c q x hx⟩

/-- THE KERNEL'S NORMALISATION IS THE REFERENCE'S on arrays of real numbers: the statistics agree lane by lane
    (`lane_stats`), the variance plus ε is a positive real so its reciprocal square root is a real `r`, and
    `(γ·(c − m))·r + β = c·(γ·r) + (β − m·(γ·r))`. -/
theorem kbn_eq (cc : Cert.KernelIdeal.S100000x128.Idx → EReal) (g be : Cert.KernelIdeal.S128.Idx → EReal)
    (res : Cert.KernelIdeal.S100000x128.Idx → EReal) (hc : AllFin cc) (hg : AllFin g) (hbe : AllFin be) :
    Cert.KernelIdeal.KernelModel.kbn cc g be res = Cert.Model.bnReluRes (F := Ideal) cc g be res := by
  funext i
  obtain ⟨p, q, rfl⟩ : ∃ (p : Fin 100000) (q : Fin 128), i = ix2 p q := ⟨i 0, i 1, eq_ix2 i⟩
  have hc' : ∀ i, ∃ r : ℝ, cc i = (r : EReal) := hc
  choose X hX using hc'
  obtain ⟨x, hx⟩ : ∃ x : Fin 100000 → ℝ, ∀ k, cc (ix2 k q) = (x k : EReal) := ⟨fun k => X (ix2 k q), fun k => hX _⟩
  obtain ⟨gq, hgq⟩ := hg (ix1 q)
  obtain ⟨bq, hbq⟩ := hbe (ix1 q)
  obtain ⟨e, he0, he⟩ := Cert.Consts.eps_pos
  obtain ⟨m, v, hv0, hkm, hkv, hrm, hrv⟩ := lane_stats cc q x hx
  have hpos : 0 < v + e := add_pos_of_nonneg_of_pos hv0 he0
  rw [kbn_apply, bnReluRes_apply, shiftRow_apply, scaleRow_apply, hkv, hkm, hrm, hrv, he, hgq, hbq, hx p,
    ← EReal.coe_add, rsqrt_coe_pos hpos, ereal_affine_fold]

/-- The kernel's normalisation of arrays of real numbers is an array of real numbers. -/
theorem kbn_fin (cc : Cert.KernelIdeal.S100000x128.Idx → EReal) (g be : Cert.KernelIdeal.S128.Idx → EReal)
    (res : Cert.KernelIdeal.S100000x128.Idx → EReal) (hc : AllFin cc) (hg : AllFin g) (hbe : AllFin be) (hres : AllFin res) :
    AllFin (Cert.KernelIdeal.KernelModel.kbn cc g be res) := by
  intro i
  obtain ⟨p, q, rfl⟩ : ∃ (p : Fin 100000) (q : Fin 128), i = ix2 p q := ⟨i 0, i 1, eq_ix2 i⟩
  have hc' : ∀ i, ∃ r : ℝ, cc i = (r : EReal) := hc
  choose X hX using hc'
  obtain ⟨x, hx⟩ : ∃ x : Fin 100000 → ℝ, ∀ k, cc (ix2 k q) = (x k : EReal) := ⟨fun k => X (ix2 k q), fun k => hX _⟩
  obtain ⟨gq, hgq⟩ := hg (ix1 q)
  obtain ⟨bq, hbq⟩ := hbe (ix1 q)
  obtain ⟨e, he0, he⟩ := Cert.Consts.eps_pos
  obtain ⟨m, v, hv0, hkm, hkv, hrm, hrv⟩ := lane_stats cc q x hx
  have hpos : 0 < v + e := add_pos_of_nonneg_of_pos hv0 he0
  rw [kbn_apply, shiftRow_apply, scaleRow_apply, hkv, hkm, he, hgq, hbq, hx p, ← EReal.coe_add, rsqrt_coe_pos hpos]
  exact IsFin.add
    (IsFin.max
      (IsFin.add (IsFin.mul (IsFin.coe _) (IsFin.mul (IsFin.coe _) (IsFin.coe _)))
        (IsFin.sub (IsFin.coe _) (IsFin.mul (IsFin.coe _) (IsFin.mul (IsFin.coe _) (IsFin.coe _)))))
      IsFin.zero)
    (hres _)

end Cert.Bridge.BN

end
-- ==== Proof.Finite.lean ====
/-
  Real-valuedness through the network.

  When the features, weights and biases are real numbers, so is everything the convolution computes from them: a
  gather only re-reads entries, a broadcast repeats them, a scatter-add and a matrix product are finite sums of
  products, and the degree normalisation is the reciprocal square root of a count plus 2, a positive real.  (On the
  extended reals this is what licenses the algebra of the normalisation layers.)
-/
import proofs.«124922_j63196148793943_1_alg».proof.Proof.Model
import proofs.«124922_j63196148793943_1_alg».proof.Proof.MatmulEntry
import proofs.«124922_j63196148793943_1_alg».proof.Proof.BridgeMatmul
import proofs.«124922_j63196148793943_1_alg».proof.Proof.LibBatchNormAlgebra
import proofs.«124922_j63196148793943_1_alg».proof.Proof.LibFocalAlgebra
import proofs.«124922_j63196148793943_1_alg».proof.Proof.Consts

set_option maxRecDepth 16384

noncomputable section

namespace Cert.Bridge.Finite

open Idealize.ShloMosaic Idealize.ShloMosaic.BatchNormAlgebra
open scoped BigOperators

/-- Every entry is a real number. -/
def AllFin {S : Shape} (v : S.Idx → EReal) : Prop := ∀ i, IsFin (v i)

variable {S T : Shape}

theorem addf_fin {φ : FTy} (a b : FVec Ideal S φ) (ha : AllFin a) (hb : AllFin b) : AllFin (addf (F := Ideal) a b) :=
  fun i => (ha i).add (hb i)
theorem mulf_fin {φ : FTy} (a b : FVec Ideal S φ) (ha : AllFin a) (hb : AllFin b) : AllFin (mulf (F := Ideal) a b) :=
  fun i => (ha i).mul (hb i)

/-- A broadcast repeats entries. -/
theorem bcast_fin (dims : Fin S.rank → Fin T.rank) (h : S.BroadcastsInDim T dims) (x : S.Idx → EReal) (hx : AllFin x) :
    AllFin (broadcastInDim T dims h x) := fun j => by
  unfold broadcastInDim
  exact hx _

/-- A gather re-reads entries. -/
theorem gather_fin {si : Shape} {w : Nat} (d : GatherDims S si T) (x : S.Idx → EReal) (idx : IVec si w) (hx : AllFin x) :
    AllFin (Host.gather d x idx) := fun j => by
  unfold Host.gather
  exact hx _

/-- A scatter-add adds to each entry a finite sum of update entries. -/
theorem scatterAdd_fin {si su : Shape} {w : Nat} {φ : FTy} (d : ScatterDims S si su) (x : FVec Ideal S φ) (idx : IVec si w)
    (upd : FVec Ideal su φ) (hx : AllFin x) (hu : AllFin upd) : AllFin (Host.scatterAdd (F := Ideal) d x idx upd) := fun i => by
  unfold Host.scatterAdd
  rw [Ideal.hostScatterAdd_def]
  unfold Ideal.hostScatterAdd
  exact (hx i).add (IsFin.sum _ _ fun j _ => hu j)

theorem const_zero_fin : AllFin (constant (F := Ideal) S .f32 0x00000000#32) := fun _ => by
  show IsFin (Ideal.ofBits .f32 0x00000000#32)
  rw [Cert.Consts.ofBits_zero]; exact IsFin.zero
theorem const_one_fin : AllFin (constant (F := Ideal) S .f32 0x3F800000#32) := fun _ => by
  show IsFin (Ideal.ofBits .f32 0x3F800000#32)
  rw [Cert.Consts.ofBits_one]; exact IsFin.coe _
theorem const_two_fin : AllFin (constant (F := Ideal) S .f32 0x40000000#32) := fun _ => by
  show IsFin (Ideal.ofBits .f32 0x40000000#32)
  rw [Cert.Consts.ofBits_two]; exact IsFin.coe _

/-- A finite sum of ones is its number of terms. -/
theorem sum_one_coe {ι : Type*} (s : Finset ι) : (∑ _j ∈ s, ((1 : ℝ) : EReal)) = ((s.card : ℝ) : EReal) := by
  rw [← FocalAlgebra.coe_finset_sum]
  simp

/-- The degree normalisation is real: the reciprocal square root of (a count) + 2. -/
theorem dinv_fin (ei : IVec Cert.ReferenceIdeal.S2x1600000 32) : AllFin (Cert.Model.dinv (F := Ideal) ei) := fun i => by
  unfold Cert.Model.dinv
  rw [Cert.Consts.host_rsqrt_apply]
  unfold Host.scatterAdd
  rw [ValueIdx.addf_apply, Ideal.hostScatterAdd_def]
  unfold Ideal.hostScatterAdd
  simp only [broadcastInDim, ValueIdx.constant_apply, Cert.Consts.ofBits_zero, Cert.Consts.ofBits_one, Cert.Consts.ofBits_two, zero_add]
  rw [sum_one_coe, ← EReal.coe_add]
  exact IsFin.rsqrt (by positivity)

theorem norm_fin (ei : IVec Cert.ReferenceIdeal.S2x1600000 32) : AllFin (Cert.Model.norm (F := Ideal) ei) := by
  unfold Cert.Model.norm
  exact mulf_fin _ _ (gather_fin _ _ _ (dinv_fin ei)) (gather_fin _ _ _ (dinv_fin ei))

theorem selfScale_fin (ei : IVec Cert.ReferenceIdeal.S2x1600000 32) : AllFin (Cert.Model.selfScale (F := Ideal) ei) := by
  unfold Cert.Model.selfScale
  exact mulf_fin _ _ (mulf_fin _ _ (bcast_fin _ _ _ const_two_fin) (dinv_fin ei)) (dinv_fin ei)

theorem aggregate_fin (ei : IVec Cert.ReferenceIdeal.S2x1600000 32) (h : FVec Ideal Cert.ReferenceIdeal.S100000x128 .f32) (hh : AllFin h) :
    AllFin (Cert.Model.aggregate (F := Ideal) ei h) := by
  unfold Cert.Model.aggregate
  exact scatterAdd_fin _ _ _ _ (bcast_fin _ _ _ const_zero_fin)
    (mulf_fin _ _ (gather_fin _ _ _ hh) (bcast_fin _ _ _ (bcast_fin _ _ _ (norm_fin ei))))

/-- One convolution of real projected features with a real bias is real. -/
theorem conv_fin (ei : IVec Cert.ReferenceIdeal.S2x1600000 32) (h : FVec Ideal Cert.ReferenceIdeal.S100000x128 .f32)
    (b : FVec Ideal Cert.ReferenceIdeal.S128 .f32) (hh : AllFin h) (hb : AllFin b) : AllFin (Cert.Model.conv (F := Ideal) ei h b) := by
  unfold Cert.Model.conv
  exact addf_fin _ _ (addf_fin _ _ (aggregate_fin ei h hh) (mulf_fin _ _ hh (bcast_fin _ _ _ (bcast_fin _ _ _ (selfScale_fin ei)))))
    (bcast_fin _ _ _ (bcast_fin _ _ _ hb))

/-- A product of real matrices is real. -/
theorem matProd_fin (x : FVec Ideal Cert.ReferenceIdeal.S100000x128 .f32) (w : FVec Ideal Cert.ReferenceIdeal.S128x128 .f32)
    (hx : AllFin x) (hw : AllFin w) : AllFin (Cert.Model.matProd (F := Ideal) x w) := by
  rw [← Cert.Bridge.Matmul.fullProd_eq]
  exact fun i => IsFin.fintype_sum _ fun k => (hx _).mul (hw _)

end Cert.Bridge.Finite

end
-- ==== Proof.BridgeFinal.lean ====
/-
  The kernel's closed form is the reference's, on real-valued inputs.

  Layer by layer: the tiled product is the reference's product, the combine region's output is the reference's
  convolution, and — the convolution's output being real-valued — normalising with the scale and shift derived from the
  accumulated column sums and sums of squares is the reference's batch normalisation (variance as the mean of squares
  minus the squared mean; the affine form folded).  The layer's output is real-valued again, so the second layer goes the
  same way; the third has no normalisation, and the read-out is the same host code on both sides.
-/
import proofs.«124922_j63196148793943_1_alg».proof.Proof.KernelModel
import proofs.«124922_j63196148793943_1_alg».proof.Proof.BridgeMatmul
import proofs.«124922_j63196148793943_1_alg».proof.Proof.BridgeConv
import proofs.«124922_j63196148793943_1_alg».proof.Proof.BridgeBN
import proofs.«124922_j63196148793943_1_alg».proof.Proof.Finite

set_option maxRecDepth 16384

noncomputable section

namespace Cert.Bridge.Final

open Idealize.ShloMosaic Idealize.ShloMosaic.BatchNormAlgebra
open Cert.KernelIdeal.KernelModel Cert.KernelIdeal.MatmulEntry Cert.Bridge.Finite

/-- On real-valued features, weights, biases and normalisation parameters the kernel's closed form and the
    reference's are one function of the fifteen arguments. -/
theorem kernOut_eq (x : Cert.KernelIdeal.S100000x128.Idx → EReal) (ei : IVec Cert.KernelIdeal.S2x1600000 32)
    (batch : IVec Cert.KernelIdeal.S100000 32)
    (W0 : Cert.KernelIdeal.S128x128.Idx → EReal) (b0 g0 be0 : Cert.KernelIdeal.S128.Idx → EReal)
    (W1 : Cert.KernelIdeal.S128x128.Idx → EReal) (b1 g1 be1 : Cert.KernelIdeal.S128.Idx → EReal)
    (W2 : Cert.KernelIdeal.S128x128.Idx → EReal) (b2 : Cert.KernelIdeal.S128.Idx → EReal)
    (fcW : Cert.KernelIdeal.S128x1.Idx → EReal) (fcb : Cert.KernelIdeal.S1.Idx → EReal)
    (hx : AllFin x) (hW0 : AllFin W0) (hb0 : AllFin b0) (hg0 : AllFin g0) (hbe0 : AllFin be0)
    (hW1 : AllFin W1) (hb1 : AllFin b1) (hg1 : AllFin g1) (hbe1 : AllFin be1) :
    kernOut x ei batch W0 b0 g0 be0 W1 b1 g1 be1 W2 b2 fcW fcb
      = Cert.Model.refOut (F := Ideal) x ei batch W0 b0 g0 be0 W1 b1 g1 be1 W2 b2 fcW fcb := by
  -- layer 1
  have c0 : kconv ei (fullProd x W0) b0 = Cert.Model.conv (F := Ideal) ei (Cert.Model.matProd (F := Ideal) x W0) b0 := by
    rw [Cert.Bridge.Matmul.fullProd_eq, Cert.Bridge.Conv.kconv_eq]
  have f0 : AllFin (Cert.Model.conv (F := Ideal) ei (Cert.Model.matProd (F := Ideal) x W0) b0) :=
    conv_fin _ _ _ (matProd_fin _ _ hx hW0) hb0
  have y1 : kbn (kconv ei (fullProd x W0) b0) g0 be0 x
      = Cert.Model.bnReluRes (F := Ideal) (Cert.Model.conv (F := Ideal) ei (Cert.Model.matProd (F := Ideal) x W0) b0) g0 be0 x := by
    rw [c0]; exact Cert.Bridge.BN.kbn_eq _ _ _ _ f0 hg0 hbe0
  have fy1 : AllFin (Cert.Model.bnReluRes (F := Ideal) (Cert.Model.conv (F := Ideal) ei (Cert.Model.matProd (F := Ideal) x W0) b0) g0 be0 x) := by
    rw [← Cert.Bridge.BN.kbn_eq _ _ _ _ f0 hg0 hbe0]; exact Cert.Bridge.BN.kbn_fin _ _ _ _ f0 hg0 hbe0 hx
  -- layer 2, over the first layer's output
  have c1 : ∀ h1 : Cert.KernelIdeal.S100000x128.Idx → EReal, kconv ei (fullProd h1 W1) b1
      = Cert.Model.conv (F := Ideal) ei (Cert.Model.matProd (F := Ideal) h1 W1) b1 := fun h1 => by
    rw [Cert.Bridge.Matmul.fullProd_eq, Cert.Bridge.Conv.kconv_eq]
  have y2 : ∀ h1 : Cert.KernelIdeal.S100000x128.Idx → EReal, AllFin h1 → kbn (kconv ei (fullProd h1 W1) b1) g1 be1 h1
      = Cert.Model.bnReluRes (F := Ideal) (Cert.Model.conv (F := Ideal) ei (Cert.Model.matProd (F := Ideal) h1 W1) b1) g1 be1 h1 := fun h1 fh1 => by
    rw [c1]; exact Cert.Bridge.BN.kbn_eq _ _ _ _ (conv_fin _ _ _ (matProd_fin _ _ fh1 hW1) hb1) hg1 hbe1
  -- layer 3 and the read-out: the same host code on both sides
  show Cert.Model.head (F := Ideal) (kconv ei (fullProd (kbn (kconv ei (fullProd (kbn (kconv ei (fullProd x W0) b0) g0 be0 x) W1) b1) g1 be1 (kbn (kconv ei (fullProd x W0) b0) g0 be0 x)) W2) b2) batch fcW fcb = _
  rw [y1, y2 _ fy1, Cert.Bridge.Matmul.fullProd_eq, Cert.Bridge.Conv.kconv_eq]
  rfl

end Cert.Bridge.Final

end
-- ==== Proof.lean ====
/-
  A three-layer graph convolution network, as Pallas kernels and as plain jnp: the two agree on the extended reals.

  The network projects node features by a 128×128 matrix, aggregates over the edges with the symmetric degree
  normalisation (self-loops of weight 2), adds the self-loop term and the bias; the first two layers then apply
  training-mode batch normalisation over the nodes, a rectifier and the residual of the layer's input; the third layer's
  output is summed per graph and read out through one linear map.

  The kernel program tiles the projection over twenty row blocks on the matrix unit (rounding to bf16 is the identity on
  extended reals, and the tiles assemble the full product), leaves the gather and scatter-add of the aggregation to the
  host as the reference does, combines aggregate, self-loop term and bias in a kernel that also accumulates the column
  sums and sums of squares across the grid, derives the normalisation's scale and shift from those two rows on the
  host (variance as mean of squares minus squared mean), and applies them pointwise.  The reference computes the
  variance as the mean squared deviation and normalises as γ·(x − mean)·(var + ε)^(-1/2) + β.  The two forms agree
  whenever the values are real numbers: that is where the precondition (every float input finite) is used — it makes
  every intermediate array real-valued, since gathers re-read, scatter-adds and products are finite sums, and the degree
  is a count plus 2.

  The modules: KernelRun (the kernel's run with its result named), Region0–7 (each kernel region's output array as one
  whole-array function), Stretches and Chain (the buffer contents at every segment boundary), KernelModel (the
  kernel's closed form), RefRun, RefArgs, RefValue and Model (the reference's run and its closed form), BridgeMatmul,
  BridgeConv, BridgeBN, Finite, BridgeFinal (the two closed forms are equal on finite inputs), FiniteInputs (the
  precondition read as real-valuedness), Consts, LibBatchNormAlgebra and LibFocalAlgebra (the algebra).
-/
import proofs.«124922_j63196148793943_1_alg».proof.Defs
import proofs.«124922_j63196148793943_1_alg».proof.Proof.Gen.Kernel
import proofs.«124922_j63196148793943_1_alg».proof.Proof.Gen.Kernel.Skeleton
import proofs.«124922_j63196148793943_1_alg».proof.Proof.Gen.Kernel.Launch
import proofs.«124922_j63196148793943_1_alg».proof.Proof.Gen.Kernel.Points
import proofs.«124922_j63196148793943_1_alg».proof.Proof.Gen.Kernel.Frame
import proofs.«124922_j63196148793943_1_alg».proof.Proof.Gen.KernelIdeal
import proofs.«124922_j63196148793943_1_alg».proof.Proof.Gen.KernelIdeal.Skeleton
import proofs.«124922_j63196148793943_1_alg».proof.Proof.Gen.KernelIdeal.Launch
import proofs.«124922_j63196148793943_1_alg».proof.Proof.Gen.KernelIdeal.Points
import proofs.«124922_j63196148793943_1_alg».proof.Proof.Gen.KernelIdeal.Frame
import proofs.«124922_j63196148793943_1_alg».proof.Proof.Gen.ReferenceIdeal
import proofs.«124922_j63196148793943_1_alg».proof.Proof.Gen.Pre_finite_inputs
import proofs.«124922_j63196148793943_1_alg».proof.Proof.KernelRun
import proofs.«124922_j63196148793943_1_alg».proof.Proof.Chain
import proofs.«124922_j63196148793943_1_alg».proof.Proof.RefValue
import proofs.«124922_j63196148793943_1_alg».proof.Proof.FiniteInputs
import proofs.«124922_j63196148793943_1_alg».proof.Proof.BridgeFinal
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- And the reference: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run (F := Ideal) m ρ)

/-- From memories agreeing on finite arguments both idealized programs end with the kernel's closed form of the
    arguments in their result buffers: the kernel by its run read boundary by boundary, the reference because its own
    closed form is the same function on real-valued inputs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.KernelModel.kernOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.Chain.result m ρ c), (h c).2⟩)
      (Cert.KernelIdeal.Result.run m ρ)
  · refine (θ_run Cert.ReferenceIdeal.defs _ _).mono (fun r h c => ⟨(h c).1.trans ?_, (h c).2⟩)
      (Cert.ReferenceIdeal.RefValue.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]
    obtain ⟨r0, r3, r4, r5, r6, r7, r8, r9, r10, r11, r12, r13, r14⟩ :=
      Cert.FiniteInputs.reals_of_pre _ _ _ _ _ _ _ _ _ _ _ _ _ _ _ (hpre c)
    exact (Cert.Bridge.Final.kernOut_eq _ _ _ _ _ _ _ _ _ _ _ _ _ _ _ r0 r3 r4 r5 r6 r7 r8 r9 r10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
